-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S4096x1 : Shape := ⟨2, ![4096, 1]⟩
abbrev S1024x256 : Shape := ⟨2, ![1024, 256]⟩
abbrev S1024x1 : Shape := ⟨2, ![1024, 1]⟩
abbrev S1024 : Shape := ⟨1, ![1024]⟩
abbrev S8192x256 : Shape := ⟨2, ![8192, 256]⟩
abbrev S8192x1 : Shape := ⟨2, ![8192, 1]⟩
abbrev S2048x256 : Shape := ⟨2, ![2048, 256]⟩
abbrev S512x256 : Shape := ⟨2, ![512, 256]⟩
abbrev S2048x1 : Shape := ⟨2, ![2048, 1]⟩
abbrev S2048x512 : Shape := ⟨2, ![2048, 512]⟩
abbrev S2048 : Shape := ⟨1, ![2048]⟩
abbrev S_ : Shape := ⟨0, ![]⟩

abbrev nBuf : Space → Nat
  | .hbm => 25
  | .vmem => 21
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .bf16⟩
  | .hbm, ⟨3, _⟩ => ⟨S4096x256, .bf16⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S8192x256, .bf16⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S2048x256, .bf16⟩
  | .local _ .vmem, ⟨15, _⟩ => ⟨S2048x256, .bf16⟩
  | .local _ .vmem, ⟨16, _⟩ => ⟨S512x256, .bf16⟩
  | .local _ .vmem, ⟨17, _⟩ => ⟨S512x256, .bf16⟩
  | .local _ .vmem, ⟨18, _⟩ => ⟨S2048x1, .f32⟩
  | .local _ .vmem, ⟨19, _⟩ => ⟨S2048x1, .f32⟩
  | .local _ .vmem, ⟨20, _⟩ => ⟨S2048x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_10 : BitVec 32 := 0#32
  let v20 : BitVec 1 := Scalar.cmpi .ne v19 c0_i32_10
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  inb_S1024x1_S1024x1_0_0 : ∀ a, (![0, 0] : Fin 2 → Nat) a + S1024x1.size a ≤ S1024x1.size a
  h_S1024x1 : 0 < S1024x1.numel
  concatenates_S4096x256_S4096x256_S8192x256_d0 : Shape.Concatenates [S4096x256, S4096x256] S8192x256 0
  concatenates_S4096x1_S4096x1_S8192x1_d0 : Shape.Concatenates [S4096x1, S4096x1] S8192x1 0
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S2048x512_S2048 : S2048x512.Reduces [1] S2048
  shapeCasts_S2048_S2048x1 : S2048.ShapeCasts S2048x1
  bcast_S_S8192x1 : S_.BroadcastsInDim S8192x1 (![] : Fin 0 → Fin S8192x1.rank)
  reducesTo_S8192x1_S_d0_1 : S8192x1.ReducesTo [0, 1] S_
  h_S_ : 0 < S_.numel
  dot_S2048x256_S512x256_S2048x512_1_1_0_0_n_n_wf : DotDims.WF S2048x256 S512x256 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x256.size a
  hwx0_2 : ∀ i : grid0.Coords, EltTy.bits .bf16 = 32 ∨ (Rect.block (s := S4096x256) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x256.size a
  hwx0_3 : ∀ i : grid0.Coords, EltTy.bits .bf16 = 32 ∨ (Rect.block (s := S4096x256) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .f32 = 32 ∨ (Rect.block (s := S4096x1) S1024x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x256.size a
  hwx1_0 : ∀ i : grid1.Coords, EltTy.bits .bf16 = 32 ∨ (Rect.block (s := S8192x256) S2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S8192x256.size a
  hwx1_1 : ∀ i : grid1.Coords, EltTy.bits .bf16 = 32 ∨ (Rect.block (s := S8192x256) S512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)

variable [Facts₀]

def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 98
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S256x8192, .f32⟩
  | .hbm, ⟨24, _⟩ => ⟨S8192x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S4096x1, .i32⟩
  | .hbm, ⟨47, _⟩ => ⟨S4096x1, .i32⟩
  | .hbm, ⟨48, _⟩ => ⟨S4096x2, .i32⟩
  | .hbm, ⟨49, _⟩ => ⟨S4096, .f32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x1, .i32⟩
  | .hbm, ⟨69, _⟩ => ⟨S4096x2, .i32⟩
  | .hbm, ⟨70, _⟩ => ⟨S4096, .f32⟩
  | .hbm, ⟨71, _⟩ => ⟨S8192, .f32⟩
  | .hbm, ⟨72, _⟩ => ⟨S8192, .f32⟩
  | .hbm, ⟨73, _⟩ => ⟨S8192, .f32⟩
  | .hbm, ⟨74, _⟩ => ⟨S8192, .f32⟩
  | .hbm, ⟨75, _⟩ => ⟨S8192x8192, .i32⟩
  | .hbm, ⟨76, _⟩ => ⟨S8192x8192, .i32⟩
  | .hbm, ⟨77, _⟩ => ⟨S_, .i32⟩
  | .hbm, ⟨78, _⟩ => ⟨S8192x8192, .i32⟩
  | .hbm, ⟨79, _⟩ => ⟨S8192x8192, .i32⟩
  | .hbm, ⟨80, _⟩ => ⟨S8192x8192, .i1⟩
  | .hbm, ⟨81, _⟩ => ⟨S8192x8192, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S8192x8192, .f32⟩
  | .hbm, ⟨87, _⟩ => ⟨S8192x8192, .f32⟩
  | .hbm, ⟨88, _⟩ => ⟨S8192x8192, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S8192, .f32⟩
  | .hbm, ⟨93, _⟩ => ⟨S8192, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_c_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_10 : Ref sig .tc := ⟨.hbm, 60, rfl⟩
abbrev main_v38 : Ref sig .tc := ⟨.hbm, 61, rfl⟩
abbrev main_v39 : Ref sig .tc := ⟨.hbm, 62, rfl⟩
abbrev main_c_11 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_15 : Ref sig .tc := ⟨.hbm, 94, rfl⟩
abbrev main_v67 : Ref sig .tc := ⟨.hbm, 95, rfl⟩
abbrev main_cst_16 : Ref sig .tc := ⟨.hbm, 96, rfl⟩
abbrev main_v68 : Ref sig .tc := ⟨.hbm, 97, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.BRegion0.lean ====
/-
  Region 0 of the kernel program: the row-normalization call on its grid of 4 points, at the contents `V`
  the TensorCore's buffers hold when the region is entered.

  Per point the body reads a block of 1024 rows of each of the two input arrays and writes five blocks:
  the two normalized blocks (each row divided by its clamped Euclidean norm), and three columns of row sums:
  the inner products of the normalized rows of the two inputs, and the squared lengths of the normalized
  rows of each.  Each output buffer is written whole by one store, so what the body leaves in it is that
  store's value, a function of the two input blocks alone.  The module states that function per output
  (`out0_W`), proves the body's triple, and packages it as the pipeline's proof data and body obligation.
-/
import proofs.«115832_j1537598292252_1_alg».proof.Proof.Gen.Kernel.Launch
import proofs.«115832_j1537598292252_1_alg».proof.Proof.Gen.Kernel.Skeleton
import proofs.«115832_j1537598292252_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S1024x256 := Rect.unit (s := S1024x256) ![0, 0] S1024x256.size inb_S1024x256_S1024x256_0_0
abbrev r0_1 : Rect S1024x1 := Rect.unit (s := S1024x1) ![0, 0] S1024x1.size inb_S1024x1_S1024x1_0_0

/-! ## What the body leaves in each output window's buffer -/

/-- Window 2's staging buffer after the body, from the input windows' blocks: its one store, of
    the first input's block, each row divided by its clamped norm. -/
def out0_2 (x0 x1 : Vec F S1024x256 .f32) : Vec F S1024x256 .bf16 :=
  View.canon [⟨r0_0, k0_pay3 (View.ld x0 r0_0)⟩]

/-- Window 3's staging buffer after the body, from the input windows' blocks: its one store, of
    the second input's block, each row divided by its clamped norm. -/
def out0_3 (x0 x1 : Vec F S1024x256 .f32) : Vec F S1024x256 .bf16 :=
  View.canon [⟨r0_0, k0_pay4 (View.ld x1 r0_0)⟩]

/-- Window 4's staging buffer after the body, from the input windows' blocks: its one store, of
    per row, the inner product of the two normalized rows. -/
def out0_4 (x0 x1 : Vec F S1024x256 .f32) : Vec F S1024x1 .f32 :=
  View.canon [⟨r0_1, k0_pay5 (View.ld x0 r0_0) (View.ld x1 r0_0)⟩]

/-- Window 5's staging buffer after the body, from the input windows' blocks: its one store, of
    per row, the squared length of the first input's normalized row. -/
def out0_5 (x0 x1 : Vec F S1024x256 .f32) : Vec F S1024x1 .f32 :=
  View.canon [⟨r0_1, k0_pay6 (View.ld x0 r0_0)⟩]

/-- Window 6's staging buffer after the body, from the input windows' blocks: its one store, of
    per row, the squared length of the second input's normalized row. -/
def out0_6 (x0 x1 : Vec F S1024x256 .f32) : Vec F S1024x1 .f32 :=
  View.canon [⟨r0_1, k0_pay7 (View.ld x1 r0_0)⟩]

/-- Its store is of the whole buffer, so it covers it. -/
theorem cover0_2 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

/-- Its store is of the whole buffer, so it covers it. -/
theorem cover0_3 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

/-- Its store is of the whole buffer, so it covers it. -/
theorem cover0_4 (p0 : Vec F S1024x1 .f32) (y : S1024x1.Idx) :
    ∃ pc ∈ ([⟨r0_1, p0⟩] : List (View.Piece (Elt F) S1024x1 .f32)), y ∈ pc.1.set :=
  View.cover_of_tiled [⟨r0_1, p0⟩] S1024x1.size (by rfl) y

/-- Its store is of the whole buffer, so it covers it. -/
theorem cover0_5 (p0 : Vec F S1024x1 .f32) (y : S1024x1.Idx) :
    ∃ pc ∈ ([⟨r0_1, p0⟩] : List (View.Piece (Elt F) S1024x1 .f32)), y ∈ pc.1.set :=
  View.cover_of_tiled [⟨r0_1, p0⟩] S1024x1.size (by rfl) y

/-- Its store is of the whole buffer, so it covers it. -/
theorem cover0_6 (p0 : Vec F S1024x1 .f32) (y : S1024x1.Idx) :
    ∃ pc ∈ ([⟨r0_1, p0⟩] : List (View.Piece (Elt F) S1024x1 .f32)), y ∈ pc.1.set :=
  View.cover_of_tiled [⟨r0_1, p0⟩] S1024x1.size (by rfl) y

/-! ## The body's triple -/

set_option maxHeartbeats 1000000 in
/-- The kernel body on whole staging memrefs, the inputs' at read contents `x0`, `x1` and the outputs' at anything
    (the body reads each output buffer before it overwrites it, and uses nothing of what it read), runs to the
    continuation holding the inputs' as they were and each output's at `out0_W` of the inputs'. -/
theorem sound_kernel0 (c : Dev nD) (E : Set ℕ) (i : grid0.Coords) (arg1 : Memref sig .tc .vmem S1024x256 .f32) (harg1 : arg1.IsWhole) (arg2 : Memref sig .tc .vmem S1024x256 .f32) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (x0 x1 : Vec F S1024x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1) ∗ owns (c : Thread nD τ) arg6 fullShare (out0_5 x0 x1)
            ∗ owns (c : Thread nD τ) arg7 fullShare (out0_6 x0 x1)) -∗ K ⟨⟩))
      ⊢ wp frame (wpE (defs₀ (F := F)) Variants.none c none) E (cc0__normalize_kernel i arg1 harg1 arg2 harg2 arg3 harg3 arg4 harg4 arg5 harg5 arg6 harg6 arg7 harg7) K := by
  simp only [cc0__normalize_kernel_eq_skeleton]; unfold cc0__normalize_kernel_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and each output's at `out0_W` of the two input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
    | ⟨6, _⟩ => out0_6 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = out0_6 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BRuns1.lean ====
/-
  The second kernel call (the streamed row sums of exponentials) on a grid of 4 row tiles by 16 column tiles:
  what its three control cases share.

  At a grid point (i, j) the body resets a [2048, 1] accumulator kept in scratch memory when j = 0, adds to it the
  row sums over the current column tile of exp (2 · q kᵀ) — q the row tile i, k the column tile j of ONE array —
  and, when j = 15, copies the accumulator into the output block of row tile i.  So a point is in one of three
  cases: A (j = 0), B (0 < j < 15), C (j = 15); the output window is idle (neither stored nor written back) in
  cases A and B.  Here: each window's block at a point read off the array as the call finds it, the two branch
  conditions in closed form over the 64 points, where the output window is idle, and the call's invariant with
  the scratch accumulator split off the other scoped buffers.
-/
import proofs.«115832_j1537598292252_1_alg».proof.Proof.Gen.Kernel.Launch
import proofs.«115832_j1537598292252_1_alg».proof.Proof.Gen.Kernel.Skeleton
import proofs.«115832_j1537598292252_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-tile window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column-tile window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, in closed form over the grid -/

/-- The reset's condition: the column coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The copy-out's condition: the column coordinate is 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S2048x1 .f32 := (Memref.whole cc1_stg2_0 : Memref sig .tc .vmem S2048x1 .f32).view
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S2048x1 .f32 := Memref.whole cc1_scratch0
abbrev VS1_0 : View sig .tc .vmem S2048x1 .f32 := scM1_0.view

/-! ## The invariant, the accumulator split off -/

/-- The scoped buffers that are neither a staging buffer of this call nor its accumulator, each at some contents. -/
def otherScoped (c : Dev nD) : sProp 𝕄 :=
  bigSep ((((Finset.univ.filter fun b : Ref sig .tc => b.isScoped) \ Finset.univ.image (Pipeline.stageRef spec1))).erase cc1_scratch0)
    fun b => iprop(∃ f : Buf (Elt F) ((c : Thread nD τ).loc b), ((c : Thread nD τ).loc b) ↦{fullShare} f)

/-- The class invariant is the accumulator at some contents, the other scoped buffers, and the generator register. -/
theorem PhiA1_eq (c : Dev nD) :
    (Pipeline.ΦA spec1 c : sProp 𝕄)
      = iprop(iprop((∃ d, owns (c : Thread nD τ) scM1_0 fullShare d) ∗ otherScoped (F := F) c) ∗ (∃ r, prngReg c r)) := by
  unfold Pipeline.ΦA Pipeline.scopedRest otherScoped
  rw [bigSep_erase (i := (cc1_scratch0 : Ref sig .tc)) (by decide)]
  simp only [scM1_0, owns_whole]; try rfl

end Cert.Kernel.Hand

end
-- ==== Proof.BRun1A.lean ====
/-
  The second kernel call's body run in case A: the column coordinate is 0 — the accumulator is reset, then the first column tile's row sums are added; the output block is not touched.
  What each buffer ends with is recorded as the list of the stores made into it, last first.
-/
import proofs.«115832_j1537598292252_1_alg».proof.Proof.BRuns1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case A: the inputs' buffers at their contents, the output's at contents handed back untouched, the accumulator
    at anything; the body leaves the accumulator with the stores `LS0` written. -/
noncomputable def kernelRun1_A (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : cond1_0 i) (hc1 : ¬cond1_1 i)
    (x0 : Vec F S2048x256 .bf16) (x1 : Vec F S512x256 .bf16) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__sumexp_kernel i arg2 harg2 arg3 harg3 arg4 harg4 arg5 harg5) K } := by
  refine ⟨[], ?_, fun xi2 E K => ?run⟩
  case run =>
    simp only [cc1__sumexp_kernel_eq_skeleton]; unfold cc1__sumexp_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.BRun1B.lean ====
/-
  The second kernel call's body run in case B: the column coordinate is neither 0 nor 15 — the column tile's row sums are added to the accumulator; the output block is not touched.
  What each buffer ends with is recorded as the list of the stores made into it, last first.
-/
import proofs.«115832_j1537598292252_1_alg».proof.Proof.BRuns1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case B: the inputs' buffers at their contents, the output's at contents handed back untouched, the accumulator
    at what the point before left (`xs0`); the body leaves the accumulator with the stores `LS0` written. -/
noncomputable def kernelRun1_B (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : ¬cond1_1 i)
    (x0 : Vec F S2048x256 .bf16) (x1 : Vec F S512x256 .bf16) (xs0 : Vec F S2048x1 .f32) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__sumexp_kernel i arg2 harg2 arg3 harg3 arg4 harg4 arg5 harg5) K } := by
  refine ⟨[], ?_, fun xi2 E K => ?run⟩
  case run =>
    simp only [cc1__sumexp_kernel_eq_skeleton]; unfold cc1__sumexp_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.BRun1C.lean ====
/-
  The second kernel call's body run in case C: the column coordinate is 15 — the last column tile's row sums are added to the accumulator, and the accumulator is copied into the output block.
  What each buffer ends with is recorded as the list of the stores made into it, last first.
-/
import proofs.«115832_j1537598292252_1_alg».proof.Proof.BRuns1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case C: the inputs' buffers at their contents, the output's at anything, the accumulator at what the point
    before left (`xs0`); the body leaves the output with the stores `L2` and the accumulator with `LS0` written. -/
noncomputable def kernelRun1_C (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S512x256 .bf16) (xs0 : Vec F S2048x1 .f32) :
    Σ' (L2 : List (View.Piece (Elt F) S2048x1 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__sumexp_kernel i arg2 harg2 arg3 harg3 arg4 harg4 arg5 harg5) K } := by
  refine ⟨?_, ?_, fun E K => ?run⟩
  case run =>
    simp only [cc1__sumexp_kernel_eq_skeleton]; unfold cc1__sumexp_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.BRegion1.lean ====
/-
  The second kernel call: what its output block and its accumulator hold after each of the 64 grid points, the
  proof data of the call, and the body's obligation at every point.

  After a point of case A the accumulator holds the first column tile's row sums added to zero; after a point of
  case B or C it holds the current column tile's row sums added to what the point before left; after a point of
  case C the output block holds a copy of the accumulator.  The output window is idle at the points of cases A
  and B.  The invariant carried from point to point says what the accumulator holds.
-/
import proofs.«115832_j1537598292252_1_alg».proof.Proof.BRun1A
import proofs.«115832_j1537598292252_1_alg».proof.Proof.BRun1B
import proofs.«115832_j1537598292252_1_alg».proof.Proof.BRun1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover1_A_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : cond1_0 i) (hc1 : ¬cond1_1 i)
    (x0 : Vec F S2048x256 .bf16) (x1 : Vec F S512x256 .bf16) (y : S2048x1.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x1.size (by sl_kernel_rfl) y

/-- What case A leaves in the accumulator. -/
def sout1_A_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : cond1_0 i) (hc1 : ¬cond1_1 i)
    (x0 : Vec F S2048x256 .bf16) (x1 : Vec F S512x256 .bf16) : Vec F S2048x1 .f32 :=
  VS1_0.read (Elt F) (VS1_0.writes (Elt F) VS1_0.junk (kernelRun1_A c i arg2 harg2 arg3 harg3 arg4 harg4 arg5 harg5 hc0 hc1 x0 x1).2.1)

/-- Case A stores nothing into the output block: a placeholder nothing consults. -/
def out1_A_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : cond1_0 i) (hc1 : ¬cond1_1 i)
    (x0 : Vec F S2048x256 .bf16) (x1 : Vec F S512x256 .bf16) : Vec F S2048x1 .f32 :=
  VO1_2.read (Elt F) (VO1_2.writes (Elt F) VO1_2.junk (kernelRun1_A c i arg2 harg2 arg3 harg3 arg4 harg4 arg5 harg5 hc0 hc1 x0 x1).1)

theorem scover1_B_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : ¬cond1_1 i)
    (x0 : Vec F S2048x256 .bf16) (x1 : Vec F S512x256 .bf16) (xs0 : Vec F S2048x1 .f32) (y : S2048x1.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2048x1.size (by sl_kernel_rfl) y

/-- What case B leaves in the accumulator. -/
def sout1_B_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : ¬cond1_1 i)
    (x0 : Vec F S2048x256 .bf16) (x1 : Vec F S512x256 .bf16) (xs0 : Vec F S2048x1 .f32) : Vec F S2048x1 .f32 :=
  VS1_0.read (Elt F) (VS1_0.writes (Elt F) VS1_0.junk (kernelRun1_B c i arg2 harg2 arg3 harg3 arg4 harg4 arg5 harg5 hc0 hc1 x0 x1 xs0).2.1)

/-- Case B stores nothing into the output block: a placeholder nothing consults. -/
def out1_B_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : ¬cond1_1 i)
    (x0 : Vec F S2048x256 .bf16) (x1 : Vec F S512x256 .bf16) (xs0 : Vec F S2048x1 .f32) : Vec F S2048x1 .f32 :=
  VO1_2.read (Elt F) (VO1_2.writes (Elt F) VO1_2.junk (kernelRun1_B c i arg2 harg2 arg3 harg3 arg4 harg4 arg5 harg5 hc0 hc1 x0 x1 xs0).1)

theorem cover1_C_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S512x256 .bf16) (xs0 : Vec F S2048x1 .f32) (y : S2048x1.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2048x1.size (by sl_kernel_rfl) y

/-- What case C leaves in the output block. -/
def out1_C_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S512x256 .bf16) (xs0 : Vec F S2048x1 .f32) : Vec F S2048x1 .f32 :=
  VO1_2.read (Elt F) (VO1_2.writes (Elt F) VO1_2.junk (kernelRun1_C c i arg2 harg2 arg3 harg3 arg4 harg4 arg5 harg5 hc0 hc1 x0 x1 xs0).1)

theorem scover1_C_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S512x256 .bf16) (xs0 : Vec F S2048x1 .f32) (y : S2048x1.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2048x1.size (by sl_kernel_rfl) y

/-- What case C leaves in the accumulator. -/
def sout1_C_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S512x256 .bf16) (xs0 : Vec F S2048x1 .f32) : Vec F S2048x1 .f32 :=
  VS1_0.read (Elt F) (VS1_0.writes (Elt F) VS1_0.junk (kernelRun1_C c i arg2 harg2 arg3 harg3 arg4 harg4 arg5 harg5 hc0 hc1 x0 x1 xs0).2.1)

/-! ## What the output block and the accumulator hold after each point -/

/-- After position n: (the output window's staging buffer, the accumulator), by recursion on the position —
    the case the closed forms select, over the accumulator the position before left. -/
def outsAt1 (c : Dev nD) : (n : ℕ) → n < cfg1.N → Vec F S2048x1 .f32 × Vec F S2048x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t),
      sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant from point to point -/

/-- Before position n: at the first point the class invariant (the accumulator at anything); afterwards the
    accumulator at what the position before left, the other scoped buffers, the generator register. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ otherScoped (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ otherScoped (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ otherScoped (F := F) c) ∗ (∃ r, prngReg c r)) := by
  cases n with
  | zero => exact absurd rfl hz
  | succ n => rfl

/-! ## The proof data -/

/-- The call's proof data on core c: the arrays as the call finds them; after the body each input's buffer at its
    block and the output's at `outsAt1`; the invariant `PhiS1`; the one array both input windows read held at
    one half each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms say which case the point is in; the invariant hands the body the
    accumulator at what the point before left (at anything at the first point) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · have h1 : ¬t.val % 16 = 15 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _)
          iexact Hoth
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun hz => h0 (by rw [hz])
    by_cases h1 : t.val % 16 = 15
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover1_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the call is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hoth⟩, Hg⟩
  isplitl [HS0 Hoth]
  · isplitl [HS0]
    · iexists _; iexact HS0
    iexact Hoth
  iexact Hg

end Cert.Kernel.Hand

end
-- ==== Proof.BRun.lean ====
/-
  The whole program run: the normalizing call, two concatenations, the streamed row-sum call, fifteen host
  operations.

  The contents of every unscoped buffer are followed through the four segments: as launched; after the first call
  (its five result arrays at what its write-backs leave); after the two concatenations; after the second call (its
  result array at what its write-backs leave); after the host tail.  Each call is entered from "every unscoped
  buffer at the boundary's contents" and left at the next boundary's.  The second call reads ONE array through two
  input windows: at its entry the array's full share is dealt in two halves, one per window, and joined again at
  its exit.  Every weakly fair execution terminates, nothing faults, and every unscoped buffer ends at the last
  boundary's contents: in particular the arguments end as launched, and the result is the host tail's term.
-/
import proofs.«115832_j1537598292252_1_alg».proof.Proof.BRegion0
import proofs.«115832_j1537598292252_1_alg».proof.Proof.BRegion1
import proofs.«115832_j1537598292252_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first call: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two concatenations. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second call: its result array at what the pipeline leaves, every other buffer as entered. -/
def W3 (c : Dev nD) : Valuation τ sig (Elt F) :=
  Function.update (W2 m ρ c) (Proc.devRef .tc main_v3) ((dat1 (V2 m ρ) c).arrAt 2 cfg1.N)
abbrev V3 : (c : Dev nD) → (b : Ref sig .tc) → Buf (Elt F) ((c : Thread nD τ).loc b) := fun c b => W3 m ρ c b
theorem W3_v3 (c : Dev nD) : W3 m ρ c (Proc.devRef .tc main_v3) = (dat1 (V2 m ρ) c).arrAt 2 cfg1.N := by
  unfold W3; exact Function.update_self ..
theorem W3_of_ne (c : Dev nD) (b : Ref sig .tc) (hb : b ≠ main_v3) :
    W3 m ρ c (Proc.devRef .tc b) = W2 m ρ c (Proc.devRef .tc b) := by
  unfold W3; exact Function.update_of_ne (StableHlo.devRef_ne_of_ne hb) ..
theorem hF1 (c : Dev nD) (w : Fin cfg1.W) : (dat1 (V2 m ρ) c).arrAt w cfg1.N = V3 m ρ c (Pipeline.arrRef spec1 w) := by
  match w with
  | ⟨0, _⟩ => exact ((dat1 (V2 m ρ) c).arrAt_in 0 rfl _).trans ((A_eq1 (V2 m ρ) c 0).trans (W3_of_ne m ρ c main_v1 (by decide)).symm)
  | ⟨1, _⟩ => exact ((dat1 (V2 m ρ) c).arrAt_in 1 rfl _).trans ((A_eq1 (V2 m ρ) c 1).trans (W3_of_ne m ρ c main_v1 (by decide)).symm)
  | ⟨2, _⟩ => exact (W3_v3 m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨2, Finset.mem_univ _, e.symm⟩)
/-- After the host tail. -/
abbrev W4 : Dev nD → Valuation τ sig (Elt F) := fun c => StableHlo.after hostOps2 (W3 m ρ c)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-! ## The proof data family and the thread state -/

abbrev adm' : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm' p) c
  | ⟨0, _⟩ => fun c => dat0 (V0 m ρ) c
  | ⟨1, _⟩ => fun c => dat1 (V2 m ρ) c
abbrev 𝒱₀ : Variants := Variants.none
abbrev L₀ : GSem nD τ sig → Finset Unit := fun _ => ∅
abbrev lv₀ : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The second call's one array, dealt in halves -/

/-- The unscoped buffers are the distinct buffers behind the second call's arrays and the rest. -/
theorem unscoped_split1 (c : Dev nD) (Vb : (b : Ref sig .tc) → Buf (Elt F) ((c : Thread nD τ).loc b)) :
    (unscopedBufs (Ix := Unit) (Name := ℕ) (U := UR sig nD τ) (Lvl := ℕ) c Vb : sProp 𝕄)
      = iprop(Pipeline.arrBufs spec1 c Vb ∗ Pipeline.unscopedRest spec1 c Vb) := by
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

variable (V : (c : Dev nD) → (b : Ref sig .tc) → Buf (Elt F) ((c : Thread nD τ).loc b)) in
/-- The two distinct buffers behind the second call's three windows, each whole at the full share, are the three
    windows' arrays at their shares: the array both input windows read at one half each. -/
theorem deal1 (c : Dev nD) (Vb : (b : Ref sig .tc) → Buf (Elt F) ((c : Thread nD τ).loc b)) :
    (Pipeline.arrBufs spec1 c Vb : sProp 𝕄)
      ⊣⊢ bigSep Finset.univ fun w : Fin cfg1.W => (((c : Thread nD τ).loc (Pipeline.arrRef spec1 w)) ↦{(dat1 V c).share w} Vb (Pipeline.arrRef spec1 w) : sProp 𝕄) := by
  unfold Pipeline.arrBufs
  rw [show (Finset.univ.image (Pipeline.arrRef spec1) : Finset (Ref sig .tc)) = {main_v1, main_v3} from by decide, bigSep_W1,
    bigSep_insert (by decide), bigSep_singleton]
  rw [show (dat1 V c).share 0 = fullShare.left from rfl, show (dat1 V c).share 1 = fullShare.right from rfl,
    show (dat1 V c).share 2 = fullShare from rfl]
  refine ⟨?_, ?_⟩
  · refine (sep_mono (pointsTo_share (PosShare.mem_left_op_right fullShare)).1 .rfl).trans ?_
    exact sep_assoc.1
  · refine .trans ?_ (sep_mono (pointsTo_share (PosShare.mem_left_op_right fullShare)).2 .rfl)
    exact sep_assoc.2

/-- The second call's arrays at contents read off a valuation of the buffers, window by window at its share. -/
theorem arrays_deal1 (c : Dev nD) (Vb : (b : Ref sig .tc) → Buf (Elt F) ((c : Thread nD τ).loc b))
    (Fw : (w : Fin cfg1.W) → Buf (Elt F) ((cfg1.win w).arr.view.loc (c : Thread nD τ)))
    (hF : ∀ w, Fw w = Vb (Pipeline.arrRef spec1 w)) :
    ((dat1 (V2 m ρ) c).arrays Fw : sProp 𝕄)
      = bigSep Finset.univ fun w : Fin cfg1.W => (((c : Thread nD τ).loc (Pipeline.arrRef spec1 w)) ↦{(dat1 (V2 m ρ) c).share w} Vb (Pipeline.arrRef spec1 w) : sProp 𝕄) := by
  unfold Dat.arrays
  exact bigSep_congr fun w _ => by rw [(arr_whole1 w).set_eq_univ, hF]

/-! ## The calls as segments -/

set_option backward.isDefEq.respectTransparency.types false in
/-- The first call: entered from every unscoped buffer at the launch contents, left at `W1`. -/
def reg0 : Pipeline.RegionSeg (pcfgs (F := F)) adm' (pdats m ρ) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L₀ lv₀ 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W2`, left at `W3`; the array its two input windows
    read is dealt in halves at the entry and joined at the exit. -/
def reg1 : Pipeline.RegionSeg (pcfgs (F := F)) adm' (pdats m ρ) () defs₀ 𝒱₀ L₀ lv₀ 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L₀ lv₀ 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (StableHlo.held (c : Thread nD τ) (Pipeline.ucRefs τ sig) (W2 m ρ c) : sProp 𝕄)
        ⊢ iprop((pdats m ρ 1 c).arrays ((pdats m ρ 1 c).arrAt · 0) ∗ Pipeline.unscopedRest spec1 c (V2 m ρ c)) := by
      rw [← Pipeline.unscopedBufs_held (Ix := Unit) (Name := ℕ) (U := UR sig nD τ) (Lvl := ℕ) c (W2 m ρ c), unscoped_split1 c (V2 m ρ c)]
      refine sep_mono (((deal1 (V2 m ρ) c (V2 m ρ c)).1).trans (Entails.of_eq ?_)) .rfl
      exact (arrays_deal1 m ρ c (V2 m ρ c) _ (fun _ => rfl)).symm
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V2 m ρ c))
        ⊢ (StableHlo.held (c : Thread nD τ) (Pipeline.ucRefs τ sig) (W3 m ρ c) : sProp 𝕄) := by
      rw [← Pipeline.unscopedBufs_held (Ix := Unit) (Name := ℕ) (U := UR sig nD τ) (Lvl := ℕ) c (W3 m ρ c), unscoped_split1 c (V3 m ρ c)]
      refine sep_mono ((Entails.of_eq (arrays_deal1 m ρ c (V3 m ρ c) _ (hF1 m ρ c))).trans (deal1 (V2 m ρ) c (V3 m ρ c)).2) (Entails.of_eq ?_)
      unfold Pipeline.unscopedRest
      exact bigSep_congr fun b hb => by rw [hrest1 m ρ c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The last segment's thread state split as the launch reads it. -/
abbrev hsegLast : Pipeline.HostSeg (Name := ℕ) (U := UR sig nD τ) (pcfgs (F := F)) defs₀ 𝒱₀ L₀ lv₀ :=
  hseg hostOps2 hostOps2_sub hostOps2_fresh (W3 m ρ)

abbrev segs : List (Pipeline.Seg (pcfgs (F := F)) adm' (pdats m ρ) () defs₀ 𝒱₀ L₀ lv₀) :=
  [ .region (reg0 m ρ),
    .host (hseg hostOps1 hostOps1_sub hostOps1_fresh (W1 m ρ)),
    .region (reg1 m ρ),
    .host (hsegLast m ρ) ]

theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L₀ lv₀ m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L₀ lv₀ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_all m ρ)

end Cert.Kernel.Hand

end
-- ==== Proof.KRegion0.lean ====
/-
  Region 0 of the kernel program: the row-normalization call on its grid of 4 points, at the contents `V`
  the TensorCore's buffers hold when the region is entered.

  Per point the body reads a block of 1024 rows of each of the two input arrays and writes five blocks:
  the two normalized blocks (each row divided by its clamped Euclidean norm), and three columns of row sums:
  the inner products of the normalized rows of the two inputs, and the squared lengths of the normalized
  rows of each.  Each output buffer is written whole by one store, so what the body leaves in it is that
  store's value, a function of the two input blocks alone.  The module states that function per output
  (`out0_W`), proves the body's triple, and packages it as the pipeline's proof data and body obligation.
-/
import proofs.«115832_j1537598292252_1_alg».proof.Proof.Gen.KernelIdeal.Launch
import proofs.«115832_j1537598292252_1_alg».proof.Proof.Gen.KernelIdeal.Skeleton
import proofs.«115832_j1537598292252_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S1024x256 := Rect.unit (s := S1024x256) ![0, 0] S1024x256.size inb_S1024x256_S1024x256_0_0
abbrev r0_1 : Rect S1024x1 := Rect.unit (s := S1024x1) ![0, 0] S1024x1.size inb_S1024x1_S1024x1_0_0

/-! ## What the body leaves in each output window's buffer -/

/-- Window 2's staging buffer after the body, from the input windows' blocks: its one store, of
    the first input's block, each row divided by its clamped norm. -/
def out0_2 (x0 x1 : Vec F S1024x256 .f32) : Vec F S1024x256 .bf16 :=
  View.canon [⟨r0_0, k0_pay3 (View.ld x0 r0_0)⟩]

/-- Window 3's staging buffer after the body, from the input windows' blocks: its one store, of
    the second input's block, each row divided by its clamped norm. -/
def out0_3 (x0 x1 : Vec F S1024x256 .f32) : Vec F S1024x256 .bf16 :=
  View.canon [⟨r0_0, k0_pay4 (View.ld x1 r0_0)⟩]

/-- Window 4's staging buffer after the body, from the input windows' blocks: its one store, of
    per row, the inner product of the two normalized rows. -/
def out0_4 (x0 x1 : Vec F S1024x256 .f32) : Vec F S1024x1 .f32 :=
  View.canon [⟨r0_1, k0_pay5 (View.ld x0 r0_0) (View.ld x1 r0_0)⟩]

/-- Window 5's staging buffer after the body, from the input windows' blocks: its one store, of
    per row, the squared length of the first input's normalized row. -/
def out0_5 (x0 x1 : Vec F S1024x256 .f32) : Vec F S1024x1 .f32 :=
  View.canon [⟨r0_1, k0_pay6 (View.ld x0 r0_0)⟩]

/-- Window 6's staging buffer after the body, from the input windows' blocks: its one store, of
    per row, the squared length of the second input's normalized row. -/
def out0_6 (x0 x1 : Vec F S1024x256 .f32) : Vec F S1024x1 .f32 :=
  View.canon [⟨r0_1, k0_pay7 (View.ld x1 r0_0)⟩]

/-- Its store is of the whole buffer, so it covers it. -/
theorem cover0_2 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

/-- Its store is of the whole buffer, so it covers it. -/
theorem cover0_3 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

/-- Its store is of the whole buffer, so it covers it. -/
theorem cover0_4 (p0 : Vec F S1024x1 .f32) (y : S1024x1.Idx) :
    ∃ pc ∈ ([⟨r0_1, p0⟩] : List (View.Piece (Elt F) S1024x1 .f32)), y ∈ pc.1.set :=
  View.cover_of_tiled [⟨r0_1, p0⟩] S1024x1.size (by rfl) y

/-- Its store is of the whole buffer, so it covers it. -/
theorem cover0_5 (p0 : Vec F S1024x1 .f32) (y : S1024x1.Idx) :
    ∃ pc ∈ ([⟨r0_1, p0⟩] : List (View.Piece (Elt F) S1024x1 .f32)), y ∈ pc.1.set :=
  View.cover_of_tiled [⟨r0_1, p0⟩] S1024x1.size (by rfl) y

/-- Its store is of the whole buffer, so it covers it. -/
theorem cover0_6 (p0 : Vec F S1024x1 .f32) (y : S1024x1.Idx) :
    ∃ pc ∈ ([⟨r0_1, p0⟩] : List (View.Piece (Elt F) S1024x1 .f32)), y ∈ pc.1.set :=
  View.cover_of_tiled [⟨r0_1, p0⟩] S1024x1.size (by rfl) y

/-! ## The body's triple -/

set_option maxHeartbeats 1000000 in
/-- The kernel body on whole staging memrefs, the inputs' at read contents `x0`, `x1` and the outputs' at anything
    (the body reads each output buffer before it overwrites it, and uses nothing of what it read), runs to the
    continuation holding the inputs' as they were and each output's at `out0_W` of the inputs'. -/
theorem sound_kernel0 (c : Dev nD) (E : Set ℕ) (i : grid0.Coords) (arg1 : Memref sig .tc .vmem S1024x256 .f32) (harg1 : arg1.IsWhole) (arg2 : Memref sig .tc .vmem S1024x256 .f32) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (x0 x1 : Vec F S1024x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1) ∗ owns (c : Thread nD τ) arg6 fullShare (out0_5 x0 x1)
            ∗ owns (c : Thread nD τ) arg7 fullShare (out0_6 x0 x1)) -∗ K ⟨⟩))
      ⊢ wp frame (wpE (defs₀ (F := F)) Variants.none c none) E (cc0__normalize_kernel i arg1 harg1 arg2 harg2 arg3 harg3 arg4 harg4 arg5 harg5 arg6 harg6 arg7 harg7) K := by
  simp only [cc0__normalize_kernel_eq_skeleton]; unfold cc0__normalize_kernel_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and each output's at `out0_W` of the two input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
    | ⟨6, _⟩ => out0_6 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = out0_6 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KRuns1.lean ====
/-
  The second kernel call (the streamed row sums of exponentials) on a grid of 4 row tiles by 16 column tiles:
  what its three control cases share.

  At a grid point (i, j) the body resets a [2048, 1] accumulator kept in scratch memory when j = 0, adds to it the
  row sums over the current column tile of exp (2 · q kᵀ) — q the row tile i, k the column tile j of ONE array —
  and, when j = 15, copies the accumulator into the output block of row tile i.  So a point is in one of three
  cases: A (j = 0), B (0 < j < 15), C (j = 15); the output window is idle (neither stored nor written back) in
  cases A and B.  Here: each window's block at a point read off the array as the call finds it, the two branch
  conditions in closed form over the 64 points, where the output window is idle, and the call's invariant with
  the scratch accumulator split off the other scoped buffers.
-/
import proofs.«115832_j1537598292252_1_alg».proof.Proof.Gen.KernelIdeal.Launch
import proofs.«115832_j1537598292252_1_alg».proof.Proof.Gen.KernelIdeal.Skeleton
import proofs.«115832_j1537598292252_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-tile window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column-tile window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, in closed form over the grid -/

/-- The reset's condition: the column coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The copy-out's condition: the column coordinate is 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S2048x1 .f32 := (Memref.whole cc1_stg2_0 : Memref sig .tc .vmem S2048x1 .f32).view
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S2048x1 .f32 := Memref.whole cc1_scratch0
abbrev VS1_0 : View sig .tc .vmem S2048x1 .f32 := scM1_0.view

/-! ## The invariant, the accumulator split off -/

/-- The scoped buffers that are neither a staging buffer of this call nor its accumulator, each at some contents. -/
def otherScoped (c : Dev nD) : sProp 𝕄 :=
  bigSep ((((Finset.univ.filter fun b : Ref sig .tc => b.isScoped) \ Finset.univ.image (Pipeline.stageRef spec1))).erase cc1_scratch0)
    fun b => iprop(∃ f : Buf (Elt F) ((c : Thread nD τ).loc b), ((c : Thread nD τ).loc b) ↦{fullShare} f)

/-- The class invariant is the accumulator at some contents, the other scoped buffers, and the generator register. -/
theorem PhiA1_eq (c : Dev nD) :
    (Pipeline.ΦA spec1 c : sProp 𝕄)
      = iprop(iprop((∃ d, owns (c : Thread nD τ) scM1_0 fullShare d) ∗ otherScoped (F := F) c) ∗ (∃ r, prngReg c r)) := by
  unfold Pipeline.ΦA Pipeline.scopedRest otherScoped
  rw [bigSep_erase (i := (cc1_scratch0 : Ref sig .tc)) (by decide)]
  simp only [scM1_0, owns_whole]; try rfl

end Cert.KernelIdeal.Hand

end
-- ==== Proof.KRun1A.lean ====
/-
  The second kernel call's body run in case A: the column coordinate is 0 — the accumulator is reset, then the first column tile's row sums are added; the output block is not touched.
  What each buffer ends with is recorded as the list of the stores made into it, last first.
-/
import proofs.«115832_j1537598292252_1_alg».proof.Proof.KRuns1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case A: the inputs' buffers at their contents, the output's at contents handed back untouched, the accumulator
    at anything; the body leaves the accumulator with the stores `LS0` written. -/
noncomputable def kernelRun1_A (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : cond1_0 i) (hc1 : ¬cond1_1 i)
    (x0 : Vec F S2048x256 .bf16) (x1 : Vec F S512x256 .bf16) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__sumexp_kernel i arg2 harg2 arg3 harg3 arg4 harg4 arg5 harg5) K } := by
  refine ⟨[], ?_, fun xi2 E K => ?run⟩
  case run =>
    simp only [cc1__sumexp_kernel_eq_skeleton]; unfold cc1__sumexp_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KRun1B.lean ====
/-
  The second kernel call's body run in case B: the column coordinate is neither 0 nor 15 — the column tile's row sums are added to the accumulator; the output block is not touched.
  What each buffer ends with is recorded as the list of the stores made into it, last first.
-/
import proofs.«115832_j1537598292252_1_alg».proof.Proof.KRuns1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case B: the inputs' buffers at their contents, the output's at contents handed back untouched, the accumulator
    at what the point before left (`xs0`); the body leaves the accumulator with the stores `LS0` written. -/
noncomputable def kernelRun1_B (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : ¬cond1_1 i)
    (x0 : Vec F S2048x256 .bf16) (x1 : Vec F S512x256 .bf16) (xs0 : Vec F S2048x1 .f32) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__sumexp_kernel i arg2 harg2 arg3 harg3 arg4 harg4 arg5 harg5) K } := by
  refine ⟨[], ?_, fun xi2 E K => ?run⟩
  case run =>
    simp only [cc1__sumexp_kernel_eq_skeleton]; unfold cc1__sumexp_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KRun1C.lean ====
/-
  The second kernel call's body run in case C: the column coordinate is 15 — the last column tile's row sums are added to the accumulator, and the accumulator is copied into the output block.
  What each buffer ends with is recorded as the list of the stores made into it, last first.
-/
import proofs.«115832_j1537598292252_1_alg».proof.Proof.KRuns1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case C: the inputs' buffers at their contents, the output's at anything, the accumulator at what the point
    before left (`xs0`); the body leaves the output with the stores `L2` and the accumulator with `LS0` written. -/
noncomputable def kernelRun1_C (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S512x256 .bf16) (xs0 : Vec F S2048x1 .f32) :
    Σ' (L2 : List (View.Piece (Elt F) S2048x1 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__sumexp_kernel i arg2 harg2 arg3 harg3 arg4 harg4 arg5 harg5) K } := by
  refine ⟨?_, ?_, fun E K => ?run⟩
  case run =>
    simp only [cc1__sumexp_kernel_eq_skeleton]; unfold cc1__sumexp_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KRegion1.lean ====
/-
  The second kernel call: what its output block and its accumulator hold after each of the 64 grid points, the
  proof data of the call, and the body's obligation at every point.

  After a point of case A the accumulator holds the first column tile's row sums added to zero; after a point of
  case B or C it holds the current column tile's row sums added to what the point before left; after a point of
  case C the output block holds a copy of the accumulator.  The output window is idle at the points of cases A
  and B.  The invariant carried from point to point says what the accumulator holds.
-/
import proofs.«115832_j1537598292252_1_alg».proof.Proof.KRun1A
import proofs.«115832_j1537598292252_1_alg».proof.Proof.KRun1B
import proofs.«115832_j1537598292252_1_alg».proof.Proof.KRun1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover1_A_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : cond1_0 i) (hc1 : ¬cond1_1 i)
    (x0 : Vec F S2048x256 .bf16) (x1 : Vec F S512x256 .bf16) (y : S2048x1.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x1.size (by sl_kernel_rfl) y

/-- What case A leaves in the accumulator. -/
def sout1_A_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : cond1_0 i) (hc1 : ¬cond1_1 i)
    (x0 : Vec F S2048x256 .bf16) (x1 : Vec F S512x256 .bf16) : Vec F S2048x1 .f32 :=
  VS1_0.read (Elt F) (VS1_0.writes (Elt F) VS1_0.junk (kernelRun1_A c i arg2 harg2 arg3 harg3 arg4 harg4 arg5 harg5 hc0 hc1 x0 x1).2.1)

/-- Case A stores nothing into the output block: a placeholder nothing consults. -/
def out1_A_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : cond1_0 i) (hc1 : ¬cond1_1 i)
    (x0 : Vec F S2048x256 .bf16) (x1 : Vec F S512x256 .bf16) : Vec F S2048x1 .f32 :=
  VO1_2.read (Elt F) (VO1_2.writes (Elt F) VO1_2.junk (kernelRun1_A c i arg2 harg2 arg3 harg3 arg4 harg4 arg5 harg5 hc0 hc1 x0 x1).1)

theorem scover1_B_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : ¬cond1_1 i)
    (x0 : Vec F S2048x256 .bf16) (x1 : Vec F S512x256 .bf16) (xs0 : Vec F S2048x1 .f32) (y : S2048x1.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2048x1.size (by sl_kernel_rfl) y

/-- What case B leaves in the accumulator. -/
def sout1_B_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : ¬cond1_1 i)
    (x0 : Vec F S2048x256 .bf16) (x1 : Vec F S512x256 .bf16) (xs0 : Vec F S2048x1 .f32) : Vec F S2048x1 .f32 :=
  VS1_0.read (Elt F) (VS1_0.writes (Elt F) VS1_0.junk (kernelRun1_B c i arg2 harg2 arg3 harg3 arg4 harg4 arg5 harg5 hc0 hc1 x0 x1 xs0).2.1)

/-- Case B stores nothing into the output block: a placeholder nothing consults. -/
def out1_B_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : ¬cond1_1 i)
    (x0 : Vec F S2048x256 .bf16) (x1 : Vec F S512x256 .bf16) (xs0 : Vec F S2048x1 .f32) : Vec F S2048x1 .f32 :=
  VO1_2.read (Elt F) (VO1_2.writes (Elt F) VO1_2.junk (kernelRun1_B c i arg2 harg2 arg3 harg3 arg4 harg4 arg5 harg5 hc0 hc1 x0 x1 xs0).1)

theorem cover1_C_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S512x256 .bf16) (xs0 : Vec F S2048x1 .f32) (y : S2048x1.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2048x1.size (by sl_kernel_rfl) y

/-- What case C leaves in the output block. -/
def out1_C_2 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S512x256 .bf16) (xs0 : Vec F S2048x1 .f32) : Vec F S2048x1 .f32 :=
  VO1_2.read (Elt F) (VO1_2.writes (Elt F) VO1_2.junk (kernelRun1_C c i arg2 harg2 arg3 harg3 arg4 harg4 arg5 harg5 hc0 hc1 x0 x1 xs0).1)

theorem scover1_C_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S512x256 .bf16) (xs0 : Vec F S2048x1 .f32) (y : S2048x1.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2048x1.size (by sl_kernel_rfl) y

/-- What case C leaves in the accumulator. -/
def sout1_C_0 (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S512x256 .bf16) (xs0 : Vec F S2048x1 .f32) : Vec F S2048x1 .f32 :=
  VS1_0.read (Elt F) (VS1_0.writes (Elt F) VS1_0.junk (kernelRun1_C c i arg2 harg2 arg3 harg3 arg4 harg4 arg5 harg5 hc0 hc1 x0 x1 xs0).2.1)

/-! ## What the output block and the accumulator hold after each point -/

/-- After position n: (the output window's staging buffer, the accumulator), by recursion on the position —
    the case the closed forms select, over the accumulator the position before left. -/
def outsAt1 (c : Dev nD) : (n : ℕ) → n < cfg1.N → Vec F S2048x1 .f32 × Vec F S2048x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t),
      sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant from point to point -/

/-- Before position n: at the first point the class invariant (the accumulator at anything); afterwards the
    accumulator at what the position before left, the other scoped buffers, the generator register. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ otherScoped (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ otherScoped (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ otherScoped (F := F) c) ∗ (∃ r, prngReg c r)) := by
  cases n with
  | zero => exact absurd rfl hz
  | succ n => rfl

/-! ## The proof data -/

/-- The call's proof data on core c: the arrays as the call finds them; after the body each input's buffer at its
    block and the output's at `outsAt1`; the invariant `PhiS1`; the one array both input windows read held at
    one half each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms say which case the point is in; the invariant hands the body the
    accumulator at what the point before left (at anything at the first point) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · have h1 : ¬t.val % 16 = 15 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _)
          iexact Hoth
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun hz => h0 (by rw [hz])
    by_cases h1 : t.val % 16 = 15
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover1_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the call is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hoth⟩, Hg⟩
  isplitl [HS0 Hoth]
  · isplitl [HS0]
    · iexists _; iexact HS0
    iexact Hoth
  iexact Hg

end Cert.KernelIdeal.Hand

end
-- ==== Proof.KRun.lean ====
/-
  The whole program run: the normalizing call, two concatenations, the streamed row-sum call, fifteen host
  operations.

  The contents of every unscoped buffer are followed through the four segments: as launched; after the first call
  (its five result arrays at what its write-backs leave); after the two concatenations; after the second call (its
  result array at what its write-backs leave); after the host tail.  Each call is entered from "every unscoped
  buffer at the boundary's contents" and left at the next boundary's.  The second call reads ONE array through two
  input windows: at its entry the array's full share is dealt in two halves, one per window, and joined again at
  its exit.  Every weakly fair execution terminates, nothing faults, and every unscoped buffer ends at the last
  boundary's contents: in particular the arguments end as launched, and the result is the host tail's term.
-/
import proofs.«115832_j1537598292252_1_alg».proof.Proof.KRegion0
import proofs.«115832_j1537598292252_1_alg».proof.Proof.KRegion1
import proofs.«115832_j1537598292252_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first call: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two concatenations. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second call: its result array at what the pipeline leaves, every other buffer as entered. -/
def W3 (c : Dev nD) : Valuation τ sig (Elt F) :=
  Function.update (W2 m ρ c) (Proc.devRef .tc main_v3) ((dat1 (V2 m ρ) c).arrAt 2 cfg1.N)
abbrev V3 : (c : Dev nD) → (b : Ref sig .tc) → Buf (Elt F) ((c : Thread nD τ).loc b) := fun c b => W3 m ρ c b
theorem W3_v3 (c : Dev nD) : W3 m ρ c (Proc.devRef .tc main_v3) = (dat1 (V2 m ρ) c).arrAt 2 cfg1.N := by
  unfold W3; exact Function.update_self ..
theorem W3_of_ne (c : Dev nD) (b : Ref sig .tc) (hb : b ≠ main_v3) :
    W3 m ρ c (Proc.devRef .tc b) = W2 m ρ c (Proc.devRef .tc b) := by
  unfold W3; exact Function.update_of_ne (StableHlo.devRef_ne_of_ne hb) ..
theorem hF1 (c : Dev nD) (w : Fin cfg1.W) : (dat1 (V2 m ρ) c).arrAt w cfg1.N = V3 m ρ c (Pipeline.arrRef spec1 w) := by
  match w with
  | ⟨0, _⟩ => exact ((dat1 (V2 m ρ) c).arrAt_in 0 rfl _).trans ((A_eq1 (V2 m ρ) c 0).trans (W3_of_ne m ρ c main_v1 (by decide)).symm)
  | ⟨1, _⟩ => exact ((dat1 (V2 m ρ) c).arrAt_in 1 rfl _).trans ((A_eq1 (V2 m ρ) c 1).trans (W3_of_ne m ρ c main_v1 (by decide)).symm)
  | ⟨2, _⟩ => exact (W3_v3 m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨2, Finset.mem_univ _, e.symm⟩)
/-- After the host tail. -/
abbrev W4 : Dev nD → Valuation τ sig (Elt F) := fun c => StableHlo.after hostOps2 (W3 m ρ c)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-! ## The proof data family and the thread state -/

abbrev adm' : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm' p) c
  | ⟨0, _⟩ => fun c => dat0 (V0 m ρ) c
  | ⟨1, _⟩ => fun c => dat1 (V2 m ρ) c
abbrev 𝒱₀ : Variants := Variants.none
abbrev L₀ : GSem nD τ sig → Finset Unit := fun _ => ∅
abbrev lv₀ : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The second call's one array, dealt in halves -/

/-- The unscoped buffers are the distinct buffers behind the second call's arrays and the rest. -/
theorem unscoped_split1 (c : Dev nD) (Vb : (b : Ref sig .tc) → Buf (Elt F) ((c : Thread nD τ).loc b)) :
    (unscopedBufs (Ix := Unit) (Name := ℕ) (U := UR sig nD τ) (Lvl := ℕ) c Vb : sProp 𝕄)
      = iprop(Pipeline.arrBufs spec1 c Vb ∗ Pipeline.unscopedRest spec1 c Vb) := by
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

variable (V : (c : Dev nD) → (b : Ref sig .tc) → Buf (Elt F) ((c : Thread nD τ).loc b)) in
/-- The two distinct buffers behind the second call's three windows, each whole at the full share, are the three
    windows' arrays at their shares: the array both input windows read at one half each. -/
theorem deal1 (c : Dev nD) (Vb : (b : Ref sig .tc) → Buf (Elt F) ((c : Thread nD τ).loc b)) :
    (Pipeline.arrBufs spec1 c Vb : sProp 𝕄)
      ⊣⊢ bigSep Finset.univ fun w : Fin cfg1.W => (((c : Thread nD τ).loc (Pipeline.arrRef spec1 w)) ↦{(dat1 V c).share w} Vb (Pipeline.arrRef spec1 w) : sProp 𝕄) := by
  unfold Pipeline.arrBufs
  rw [show (Finset.univ.image (Pipeline.arrRef spec1) : Finset (Ref sig .tc)) = {main_v1, main_v3} from by decide, bigSep_W1,
    bigSep_insert (by decide), bigSep_singleton]
  rw [show (dat1 V c).share 0 = fullShare.left from rfl, show (dat1 V c).share 1 = fullShare.right from rfl,
    show (dat1 V c).share 2 = fullShare from rfl]
  refine ⟨?_, ?_⟩
  · refine (sep_mono (pointsTo_share (PosShare.mem_left_op_right fullShare)).1 .rfl).trans ?_
    exact sep_assoc.1
  · refine .trans ?_ (sep_mono (pointsTo_share (PosShare.mem_left_op_right fullShare)).2 .rfl)
    exact sep_assoc.2

/-- The second call's arrays at contents read off a valuation of the buffers, window by window at its share. -/
theorem arrays_deal1 (c : Dev nD) (Vb : (b : Ref sig .tc) → Buf (Elt F) ((c : Thread nD τ).loc b))
    (Fw : (w : Fin cfg1.W) → Buf (Elt F) ((cfg1.win w).arr.view.loc (c : Thread nD τ)))
    (hF : ∀ w, Fw w = Vb (Pipeline.arrRef spec1 w)) :
    ((dat1 (V2 m ρ) c).arrays Fw : sProp 𝕄)
      = bigSep Finset.univ fun w : Fin cfg1.W => (((c : Thread nD τ).loc (Pipeline.arrRef spec1 w)) ↦{(dat1 (V2 m ρ) c).share w} Vb (Pipeline.arrRef spec1 w) : sProp 𝕄) := by
  unfold Dat.arrays
  exact bigSep_congr fun w _ => by rw [(arr_whole1 w).set_eq_univ, hF]

/-! ## The calls as segments -/

set_option backward.isDefEq.respectTransparency.types false in
/-- The first call: entered from every unscoped buffer at the launch contents, left at `W1`. -/
def reg0 : Pipeline.RegionSeg (pcfgs (F := F)) adm' (pdats m ρ) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L₀ lv₀ 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W2`, left at `W3`; the array its two input windows
    read is dealt in halves at the entry and joined at the exit. -/
def reg1 : Pipeline.RegionSeg (pcfgs (F := F)) adm' (pdats m ρ) () defs₀ 𝒱₀ L₀ lv₀ 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L₀ lv₀ 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (StableHlo.held (c : Thread nD τ) (Pipeline.ucRefs τ sig) (W2 m ρ c) : sProp 𝕄)
        ⊢ iprop((pdats m ρ 1 c).arrays ((pdats m ρ 1 c).arrAt · 0) ∗ Pipeline.unscopedRest spec1 c (V2 m ρ c)) := by
      rw [← Pipeline.unscopedBufs_held (Ix := Unit) (Name := ℕ) (U := UR sig nD τ) (Lvl := ℕ) c (W2 m ρ c), unscoped_split1 c (V2 m ρ c)]
      refine sep_mono (((deal1 (V2 m ρ) c (V2 m ρ c)).1).trans (Entails.of_eq ?_)) .rfl
      exact (arrays_deal1 m ρ c (V2 m ρ c) _ (fun _ => rfl)).symm
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V2 m ρ c))
        ⊢ (StableHlo.held (c : Thread nD τ) (Pipeline.ucRefs τ sig) (W3 m ρ c) : sProp 𝕄) := by
      rw [← Pipeline.unscopedBufs_held (Ix := Unit) (Name := ℕ) (U := UR sig nD τ) (Lvl := ℕ) c (W3 m ρ c), unscoped_split1 c (V3 m ρ c)]
      refine sep_mono ((Entails.of_eq (arrays_deal1 m ρ c (V3 m ρ c) _ (hF1 m ρ c))).trans (deal1 (V2 m ρ) c (V3 m ρ c)).2) (Entails.of_eq ?_)
      unfold Pipeline.unscopedRest
      exact bigSep_congr fun b hb => by rw [hrest1 m ρ c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The last segment's thread state split as the launch reads it. -/
abbrev hsegLast : Pipeline.HostSeg (Name := ℕ) (U := UR sig nD τ) (pcfgs (F := F)) defs₀ 𝒱₀ L₀ lv₀ :=
  hseg hostOps2 hostOps2_sub hostOps2_fresh (W3 m ρ)

abbrev segs : List (Pipeline.Seg (pcfgs (F := F)) adm' (pdats m ρ) () defs₀ 𝒱₀ L₀ lv₀) :=
  [ .region (reg0 m ρ),
    .host (hseg hostOps1 hostOps1_sub hostOps1_fresh (W1 m ρ)),
    .region (reg1 m ρ),
    .host (hsegLast m ρ) ]

theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L₀ lv₀ m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L₀ lv₀ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_all m ρ)

end Cert.KernelIdeal.Hand

end
-- ==== Proof.Spec.lean ====
/-
  The contrastive (NT-Xent) loss of two batches of embeddings, as functions on the extended reals.

  Two arrays `x y : [4096, 256]`.  Each row is divided by its Euclidean norm clamped from below by a small
  positive constant (`unit`); the 8192 rows so obtained, those of `x` first, are `rep`; `sim r c` is the inner
  product of rows `r` and `c`.  The partner of row `r` is the row 4096 places further (cyclically).

  The loss is the mean over the rows `r` of
      log (sum over c ≠ r of exp (2 · sim r c))  −  2 · sim r (partner r).
  It is written twice below, in the two arrangements the two programs compute:
  * `kernelLoss`: the sum over ALL columns minus the diagonal term, the logarithm taken first and the
    positive pair's term subtracted, the positive pair's and the diagonal's inner products computed row by
    row from the two halves (`pairDot`, `selfDot`);
  * `refLoss`: the sum over the columns weighted by the 0/1 mask that vanishes on the diagonal, and minus the
    logarithm of the quotient exp (2 · sim r (partner r)) / that sum, the factor 2 computed as 1 / (1/2).
  `Law.lean` proves the two equal when every entry of `x` and `y` is a real number.
-/
import Idealize.ShloMosaic.PureOps.Ideal
import Idealize.ShloMosaic.Lib.ValueIdx

noncomputable section

namespace Cert.Contrastive

open Idealize.ShloMosaic Idealize.ShloMosaic.ValueIdx

/-- An array of 4096 embeddings of 256 coordinates, over the extended reals. -/
abbrev Emb : Type := (⟨2, ![4096, 256]⟩ : Shape).Idx → EReal

/-- The lower clamp of a row's norm: the single-precision word nearest 10⁻¹². -/
def eps : EReal := Ideal.ofBits .f32 0x2B8CBCCC#32
/-- The inverse temperature 2, as the kernel spells it. -/
def two : EReal := Ideal.ofBits .f32 0x40000000#32
/-- The inverse temperature as the reference computes it: 1 / (1/2). -/
def refTwo : EReal := Ideal.div (Ideal.ofBits .f32 0x3F800000#32) (Ideal.ofBits .f32 0x3F000000#32)
/-- The number of rows, 8192. -/
def count : EReal := Ideal.ofBits .f32 0x46000000#32
/-- The word of 1. -/
def one : EReal := Ideal.ofBits .f32 0x3F800000#32

/-- The clamped Euclidean norm of row `r`. -/
def rowNorm (x : Emb) (r : Fin 4096) : EReal :=
  max (Ideal.sqrt (∑ k : Fin 256, x (ix2 r k) * x (ix2 r k))) eps

/-- Row `r` divided by its clamped norm, coordinate `k`. -/
def unit (x : Emb) (r : Fin 4096) (k : Fin 256) : EReal := Ideal.div (x (ix2 r k)) (rowNorm x r)

/-- The 8192 normalized rows: those of `x`, then those of `y`. -/
def rep (x y : Emb) (r : Fin 8192) (k : Fin 256) : EReal :=
  if h : r.val < 4096 then unit x ⟨r.val, h⟩ k else unit y ⟨r.val - 4096, by omega⟩ k

/-- The inner product of normalized rows `r` and `c`. -/
def sim (x y : Emb) (r c : Fin 8192) : EReal := ∑ k : Fin 256, rep x y r k * rep x y c k

/-- The row paired with `r`: 4096 places further, cyclically. -/
def partner (r : Fin 8192) : Fin 8192 :=
  if h : r.val < 4096 then ⟨r.val + 4096, by omega⟩ else ⟨r.val - 4096, by omega⟩

/-! ## The kernel's arrangement -/

/-- The inner product of the normalized rows `r` of `x` and of `y`. -/
def pairDot (x y : Emb) (r : Fin 4096) : EReal := ∑ k : Fin 256, unit x r k * unit y r k
/-- The squared length of the normalized row `r` of `x`. -/
def selfDot (x : Emb) (r : Fin 4096) : EReal := ∑ k : Fin 256, unit x r k * unit x r k

/-- The sum over all 8192 columns of exp (2 · sim r c). -/
def total (x y : Emb) (r : Fin 8192) : EReal := ∑ c : Fin 8192, Ideal.exp (sim x y r c * two)

/-- The squared length of the normalized row `r` of the stacked rows. -/
def selfOf (x y : Emb) (r : Fin 8192) : EReal :=
  if h : r.val < 4096 then selfDot x ⟨r.val, h⟩ else selfDot y ⟨r.val - 4096, by omega⟩
/-- The positive pair's inner product for row `r` of the stacked rows. -/
def posOf (x y : Emb) (r : Fin 8192) : EReal :=
  if h : r.val < 4096 then pairDot x y ⟨r.val, h⟩ else pairDot x y ⟨r.val - 4096, by omega⟩

/-- Row `r`'s term as the kernel computes it. -/
def kernelRow (x y : Emb) (r : Fin 8192) : EReal :=
  Ideal.log (total x y r - Ideal.exp (selfOf x y r * two)) - posOf x y r * two

/-- The loss as the kernel computes it. -/
def kernelLoss (x y : Emb) : EReal := Ideal.div (0 + ∑ r : Fin 8192, kernelRow x y r) count

/-! ## The reference's arrangement -/

/-- The 0/1 mask that vanishes on the diagonal: 1 minus the indicator of `r = c`. -/
def mask (r c : Fin 8192) : EReal := one - (if r = c then (1 : EReal) else 0)

/-- Row `r`'s term as the reference computes it. -/
def refRow (x y : Emb) (r : Fin 8192) : EReal :=
  - Ideal.log (Ideal.div (Ideal.exp (sim x y r (partner r) * refTwo))
      (0 + ∑ c : Fin 8192, mask r c * Ideal.exp (sim x y r c * refTwo)))

/-- The loss as the reference computes it. -/
def refLoss (x y : Emb) : EReal := Ideal.div (0 + ∑ r : Fin 8192, refRow x y r) count

end Cert.Contrastive

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.LibRowSum.lean ====
/-
  A sum along the rows of a matrix, read at a row.

  Summing a [a, b] matrix over its second axis gives a vector of length a whose entry r is Σ_k x[r, k]. Over the
  extended reals this holds of the vector unit's add-reduction whatever order it sums in: addition of extended
  reals is commutative and associative, so the reduction is the finite sum over the dropped axis's coordinates,
  and the source index lying over row r with column k put back is (r, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

variable {a b : ℕ}

/-- The source index over row `r` with column `k` inserted on the dropped axis is `(r, k)`. -/
theorem lift_row (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE ROW SUM: an f32 add-reduction of a [a, b] matrix over its columns, from the zero word, has at row `r` the
    entry Σ_k x[r, k]. The accumulator's side condition is taken as the equation between the two zero words that a
    printed reduction carries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

end Idealize.ShloMosaic.RowSum

end
-- ==== Proof.KValue0.lean ====
/-
  Region 0's five output arrays after its run, at the extended reals, index by index.

  With `x`, `y` the two input arrays as the region finds them: the two bf16 arrays end holding the rows of
  `x` and of `y` divided by their clamped Euclidean norms; the three f32 columns end holding, per row, the inner
  product of the two normalized rows and the squared length of each.

  The road: each stored value read at an index (a lane sum is the finite sum over the lane; the cast to a column
  and the broadcast of a column re-read it; the change of format is the identity on the extended reals); each
  point's block of an input is rows `1024 t … 1024 t + 1023` of the array, so what point `t` writes back is
  block `t` of one whole-array function; the four blocks cover the array's rows, so the array ends holding that
  function.
-/
import proofs.«115832_j1537598292252_1_alg».proof.Proof.KRegion0
import proofs.«115832_j1537598292252_1_alg».proof.Proof.Spec
import proofs.«115832_j1537598292252_1_alg».proof.Proof.LibKeepdimsLayout
import proofs.«115832_j1537598292252_1_alg».proof.Proof.LibRowSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open Cert.LayoutKeepdims Idealize.ShloMosaic.RowSum
open scoped BigOperators

/-! ## The body's stored values at an index -/

/-- A row sum with the summed axis kept: entry `(p, u)` of the column cast from the lane sum of a block is the
    sum of row `p`. -/
theorem colSum_apply (y : FVec Ideal S1024x256 .f32) (p : Fin 1024) (u : Fin 1) :
    shapeCast S1024x1 (multiReduction (F := Ideal) .add [1] S1024 y 0x00000000#32 reduces_S1024x256_S1024 (.inl rfl) rfl)
      shapeCasts_S1024_S1024x1 (ix2 p u) = ∑ k : Fin 256, y (ix2 p k) := by
  rw [shapeCast_a_a1_apply, rowSum_apply]

/-- The clamped Euclidean norm of row `p` of a block of 1024 rows. -/
def blkNorm (x : FVec Ideal S1024x256 .f32) (p : Fin 1024) : EReal :=
  max (Ideal.sqrt (∑ k : Fin 256, x (ix2 p k) * x (ix2 p k))) (Ideal.ofBits .f32 0x2B8CBCCC#32)

/-- Entry `(p, q)` of a block whose rows are divided by their clamped norms. -/
def blkUnit (x : FVec Ideal S1024x256 .f32) (p : Fin 1024) (q : Fin 256) : EReal :=
  Ideal.div (x (ix2 p q)) (blkNorm x p)

/-- The first input's normalized block, at an index. -/
theorem pay1_apply (x : FVec Ideal S1024x256 .f32) (p : Fin 1024) (q : Fin 256) :
    k0_pay1 (F := Ideal) x (ix2 p q) = blkUnit x p q := by
  unfold k0_pay1 blkUnit blkNorm
  dsimp only
  rw [divf_apply, broadcastTo_a1_ab_apply, maximumf_apply]
  show Ideal.div _ (max (Ideal.sqrt (shapeCast S1024x1 _ shapeCasts_S1024_S1024x1 (ix2 p 0))) _) = _
  rw [colSum_apply]
  rfl

/-- The second input's normalized block, at an index: the same operations. -/
theorem pay2_apply (x : FVec Ideal S1024x256 .f32) (p : Fin 1024) (q : Fin 256) :
    k0_pay2 (F := Ideal) x (ix2 p q) = blkUnit x p q := by
  unfold k0_pay2 blkUnit blkNorm
  dsimp only
  rw [divf_apply, broadcastTo_a1_ab_apply, maximumf_apply]
  show Ideal.div _ (max (Ideal.sqrt (shapeCast S1024x1 _ shapeCasts_S1024_S1024x1 (ix2 p 0))) _) = _
  rw [colSum_apply]
  rfl

/-- The stored normalized blocks: the change of format is the identity on the extended reals. -/
theorem pay3_apply (x : FVec Ideal S1024x256 .f32) (p : Fin 1024) (q : Fin 256) :
    k0_pay3 (F := Ideal) x (ix2 p q) = blkUnit x p q := by
  unfold k0_pay3
  rw [truncf_apply, pay1_apply]

theorem pay4_apply (x : FVec Ideal S1024x256 .f32) (p : Fin 1024) (q : Fin 256) :
    k0_pay4 (F := Ideal) x (ix2 p q) = blkUnit x p q := by
  unfold k0_pay4
  rw [truncf_apply, pay2_apply]

/-- Per row, the inner product of the two normalized rows. -/
theorem pay5_apply (x0 x1 : FVec Ideal S1024x256 .f32) (p : Fin 1024) (u : Fin 1) :
    k0_pay5 (F := Ideal) x0 x1 (ix2 p u) = ∑ k : Fin 256, blkUnit x0 p k * blkUnit x1 p k := by
  unfold k0_pay5
  dsimp only
  rw [colSum_apply]
  exact Finset.sum_congr rfl fun k _ => by rw [mulf_apply, pay1_apply, pay2_apply]

/-- Per row, the squared length of the first input's normalized row. -/
theorem pay6_apply (x0 : FVec Ideal S1024x256 .f32) (p : Fin 1024) (u : Fin 1) :
    k0_pay6 (F := Ideal) x0 (ix2 p u) = ∑ k : Fin 256, blkUnit x0 p k * blkUnit x0 p k := by
  unfold k0_pay6
  dsimp only
  rw [colSum_apply]
  exact Finset.sum_congr rfl fun k _ => by rw [mulf_apply, pay1_apply]

/-- Per row, the squared length of the second input's normalized row. -/
theorem pay7_apply (x1 : FVec Ideal S1024x256 .f32) (p : Fin 1024) (u : Fin 1) :
    k0_pay7 (F := Ideal) x1 (ix2 p u) = ∑ k : Fin 256, blkUnit x1 p k * blkUnit x1 p k := by
  unfold k0_pay7
  dsimp only
  rw [colSum_apply]
  exact Finset.sum_congr rfl fun k _ => by rw [mulf_apply, pay2_apply]

/-! ## What the body leaves in each output buffer is its one store's value -/

variable (V : (c : Dev nD) → (b : Ref sig .tc) → Buf (Elt Ideal) ((c : Thread nD τ).loc b))

theorem zeroOff : (![0, 0] : Fin 2 → Nat) = fun _ => 0 := funext fun a => by fin_cases a <;> rfl

theorem out0_2_eq (x0 x1 : Vec Ideal S1024x256 .f32) : out0_2 x0 x1 = k0_pay3 x0 := by
  unfold out0_2
  rw [View.canon_unit_zero zeroOff]
  simp only [View.ld_unit_zero (S := S1024x256) zeroOff]

theorem out0_3_eq (x0 x1 : Vec Ideal S1024x256 .f32) : out0_3 x0 x1 = k0_pay4 x1 := by
  unfold out0_3
  rw [View.canon_unit_zero zeroOff]
  simp only [View.ld_unit_zero (S := S1024x256) zeroOff]

theorem out0_4_eq (x0 x1 : Vec Ideal S1024x256 .f32) : out0_4 x0 x1 = k0_pay5 x0 x1 := by
  unfold out0_4
  rw [View.canon_unit_zero zeroOff]
  simp only [View.ld_unit_zero (S := S1024x256) zeroOff]

theorem out0_5_eq (x0 x1 : Vec Ideal S1024x256 .f32) : out0_5 x0 x1 = k0_pay6 x0 := by
  unfold out0_5
  rw [View.canon_unit_zero zeroOff]
  simp only [View.ld_unit_zero (S := S1024x256) zeroOff]

theorem out0_6_eq (x0 x1 : Vec Ideal S1024x256 .f32) : out0_6 x0 x1 = k0_pay7 x1 := by
  unfold out0_6
  rw [View.canon_unit_zero zeroOff]
  simp only [View.ld_unit_zero (S := S1024x256) zeroOff]

/-! ## From blocks to arrays -/

/-- At point `t` every window's block is block `t` along the rows and block 0 along the columns. -/
theorem blockIdx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- Row `p` of point `t`'s block is row `1024 t + p` of the array. -/
def rowAt (t : Fin cfg0.N) (p : Fin 1024) : Fin 4096 :=
  ⟨1024 * t.val + p.val, by have hN : cfg0.N = 4 := N_0; have := t.isLt; have := p.isLt; omega⟩

/-- The first input's block at point `t`, entry by entry. -/
theorem iblk0_0_apply (c : Dev nD) (t : Fin cfg0.N) (p : Fin 1024) (k : Fin 256) :
    (iblk0 V c 0 t : Vec Ideal S1024x256 .f32) (ix2 p k) = (V c main_arg0 : Cert.Contrastive.Emb) (ix2 (rowAt t p) k) := by
  unfold iblk0
  rw [View.read_apply]
  show (V c main_arg0 : Cert.Contrastive.Emb) _ = _
  refine congrArg _ (funext fun a => Fin.ext ?_)
  obtain ⟨⟨e0, e1⟩, -⟩ := blockIdx t
  match a with
  | ⟨0, _⟩ => show win0_0.index t (0 : Fin 2) * 1024 + 1 * p.val = 1024 * t.val + p.val; omega
  | ⟨1, _⟩ => show win0_0.index t (1 : Fin 2) * 256 + 1 * k.val = k.val; omega

/-- The second input's block at point `t`, entry by entry. -/
theorem iblk0_1_apply (c : Dev nD) (t : Fin cfg0.N) (p : Fin 1024) (k : Fin 256) :
    (iblk0 V c 1 t : Vec Ideal S1024x256 .f32) (ix2 p k) = (V c main_arg1 : Cert.Contrastive.Emb) (ix2 (rowAt t p) k) := by
  unfold iblk0
  rw [View.read_apply]
  show (V c main_arg1 : Cert.Contrastive.Emb) _ = _
  refine congrArg _ (funext fun a => Fin.ext ?_)
  obtain ⟨-, ⟨e0, e1⟩, -⟩ := blockIdx t
  match a with
  | ⟨0, _⟩ => show win0_1.index t (0 : Fin 2) * 1024 + 1 * p.val = 1024 * t.val + p.val; omega
  | ⟨1, _⟩ => show win0_1.index t (1 : Fin 2) * 256 + 1 * k.val = k.val; omega

/-- A block whose rows are rows of an array has, row by row, that array's normalized entries. -/
theorem blkUnit_of_rows (X : Cert.Contrastive.Emb) (x : FVec Ideal S1024x256 .f32) (ρ : Fin 1024 → Fin 4096)
    (hx : ∀ p k, x (ix2 p k) = X (ix2 (ρ p) k)) (p : Fin 1024) (q : Fin 256) :
    blkUnit x p q = Cert.Contrastive.unit X (ρ p) q := by
  unfold blkUnit blkNorm Cert.Contrastive.unit Cert.Contrastive.rowNorm Cert.Contrastive.eps
  simp only [hx]

/-! ### The two normalized arrays -/

/-- What output window 2's array ends holding: the first input, each row divided by its clamped norm. -/
def G2 (X : Cert.Contrastive.Emb) : S4096x256.Idx → EReal := fun i => Cert.Contrastive.unit X (i 0) (i 1)
/-- What output window 3's array ends holding: the second input, each row divided by its clamped norm. -/
def G3 (Y : Cert.Contrastive.Emb) : S4096x256.Idx → EReal := fun i => Cert.Contrastive.unit Y (i 0) (i 1)
/-- Output window 4's: per row, the inner product of the two normalized rows. -/
def G4 (X Y : Cert.Contrastive.Emb) : S4096x1.Idx → EReal := fun i => Cert.Contrastive.pairDot X Y (i 0)
/-- Output window 5's: per row, the squared length of the first input's normalized row. -/
def G5 (X : Cert.Contrastive.Emb) : S4096x1.Idx → EReal := fun i => Cert.Contrastive.selfDot X (i 0)
/-- Output window 6's: per row, the squared length of the second input's normalized row. -/
def G6 (Y : Cert.Contrastive.Emb) : S4096x1.Idx → EReal := fun i => Cert.Contrastive.selfDot Y (i 0)

theorem mem_blk2 (t : Fin cfg0.N) (i : S4096x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v0_0).slice (win0_2.rect t)).set ↔ _
  rw [View.set_slice_whole, Rect.mem_set_unit]
  exact Iff.rfl

theorem mem_blk3 (t : Fin cfg0.N) (i : S4096x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v0_1).slice (win0_3.rect t)).set ↔ _
  rw [View.set_slice_whole, Rect.mem_set_unit]
  exact Iff.rfl

theorem mem_blk4 (t : Fin cfg0.N) (i : S4096x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v0_2).slice (win0_4.rect t)).set ↔ _
  rw [View.set_slice_whole, Rect.mem_set_unit]
  exact Iff.rfl

theorem mem_blk5 (t : Fin cfg0.N) (i : S4096x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v0_3).slice (win0_5.rect t)).set ↔ _
  rw [View.set_slice_whole, Rect.mem_set_unit]
  exact Iff.rfl

theorem mem_blk6 (t : Fin cfg0.N) (i : S4096x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v0_4).slice (win0_6.rect t)).set ↔ _
  rw [View.set_slice_whole, Rect.mem_set_unit]
  exact Iff.rfl

/-- Every row of the array lies in the block of the point that is the row's number divided by 1024. -/
theorem covered2 (i : S4096x256.Idx) : ∃ t : Fin cfg0.N, (cfg0.win 2).flush t = true ∧ i ∈ ((cfg0.win 2).blk t).view.set := by
  have hN : cfg0.N = 4 := N_0
  have hi0 : (i 0).val < 4096 := (i 0).isLt
  have hi1 : (i 1).val < 256 := (i 1).isLt
  obtain ⟨t, ht⟩ : ∃ t : Fin cfg0.N, t.val = (i 0).val / 1024 := ⟨⟨(i 0).val / 1024, by omega⟩, rfl⟩
  refine ⟨t, flush0_2 t, ?_⟩
  rw [mem_blk2]
  obtain ⟨-, -, ⟨e0, e1⟩, -⟩ := blockIdx t
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 256 ≤ (i 1).val ∧ (i 1).val < win0_2.index t (1 : Fin 2) * 256 + 256; omega

/-- Every row of the array lies in the block of the point that is the row's number divided by 1024. -/
theorem covered3 (i : S4096x256.Idx) : ∃ t : Fin cfg0.N, (cfg0.win 3).flush t = true ∧ i ∈ ((cfg0.win 3).blk t).view.set := by
  have hN : cfg0.N = 4 := N_0
  have hi0 : (i 0).val < 4096 := (i 0).isLt
  have hi1 : (i 1).val < 256 := (i 1).isLt
  obtain ⟨t, ht⟩ : ∃ t : Fin cfg0.N, t.val = (i 0).val / 1024 := ⟨⟨(i 0).val / 1024, by omega⟩, rfl⟩
  refine ⟨t, flush0_3 t, ?_⟩
  rw [mem_blk3]
  obtain ⟨-, -, -, ⟨e0, e1⟩, -⟩ := blockIdx t
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

/-- Every row of the array lies in the block of the point that is the row's number divided by 1024. -/
theorem covered4 (i : S4096x1.Idx) : ∃ t : Fin cfg0.N, (cfg0.win 4).flush t = true ∧ i ∈ ((cfg0.win 4).blk t).view.set := by
  have hN : cfg0.N = 4 := N_0
  have hi0 : (i 0).val < 4096 := (i 0).isLt
  have hi1 : (i 1).val < 1 := (i 1).isLt
  obtain ⟨t, ht⟩ : ∃ t : Fin cfg0.N, t.val = (i 0).val / 1024 := ⟨⟨(i 0).val / 1024, by omega⟩, rfl⟩
  refine ⟨t, flush0_4 t, ?_⟩
  rw [mem_blk4]
  obtain ⟨-, -, -, -, ⟨e0, e1⟩, -⟩ := blockIdx t
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1 ≤ (i 1).val ∧ (i 1).val < win0_4.index t (1 : Fin 2) * 1 + 1; omega

/-- Every row of the array lies in the block of the point that is the row's number divided by 1024. -/
theorem covered5 (i : S4096x1.Idx) : ∃ t : Fin cfg0.N, (cfg0.win 5).flush t = true ∧ i ∈ ((cfg0.win 5).blk t).view.set := by
  have hN : cfg0.N = 4 := N_0
  have hi0 : (i 0).val < 4096 := (i 0).isLt
  have hi1 : (i 1).val < 1 := (i 1).isLt
  obtain ⟨t, ht⟩ : ∃ t : Fin cfg0.N, t.val = (i 0).val / 1024 := ⟨⟨(i 0).val / 1024, by omega⟩, rfl⟩
  refine ⟨t, flush0_5 t, ?_⟩
  rw [mem_blk5]
  obtain ⟨-, -, -, -, -, ⟨e0, e1⟩, -⟩ := blockIdx t
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1 ≤ (i 1).val ∧ (i 1).val < win0_5.index t (1 : Fin 2) * 1 + 1; omega

/-- Every row of the array lies in the block of the point that is the row's number divided by 1024. -/
theorem covered6 (i : S4096x1.Idx) : ∃ t : Fin cfg0.N, (cfg0.win 6).flush t = true ∧ i ∈ ((cfg0.win 6).blk t).view.set := by
  have hN : cfg0.N = 4 := N_0
  have hi0 : (i 0).val < 4096 := (i 0).isLt
  have hi1 : (i 1).val < 1 := (i 1).isLt
  obtain ⟨t, ht⟩ : ∃ t : Fin cfg0.N, t.val = (i 0).val / 1024 := ⟨⟨(i 0).val / 1024, by omega⟩, rfl⟩
  refine ⟨t, flush0_6 t, ?_⟩
  rw [mem_blk6]
  obtain ⟨-, -, -, -, -, -, ⟨e0, e1⟩⟩ := blockIdx t
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1 ≤ (i 1).val ∧ (i 1).val < win0_6.index t (1 : Fin 2) * 1 + 1; omega

/-- Entry `(p, q)` of point `t`'s block of window 2 sits at row `1024 t + p`, column `q` of the array. -/
theorem emb2 (t : Fin cfg0.N) (p : Fin 1024) (q : Fin 256) :
    ((cfg0.win 2).blk t).view.emb (ix2 p q) = (ix2 (rowAt t p) q : S4096x256.Idx) := by
  obtain ⟨-, -, ⟨e0, e1⟩, -⟩ := blockIdx t
  refine funext fun a => Fin.ext ?_
  match a with
  | ⟨0, _⟩ => show win0_2.index t (0 : Fin 2) * 1024 + 1 * p.val = 1024 * t.val + p.val; omega
  | ⟨1, _⟩ => show win0_2.index t (1 : Fin 2) * 256 + 1 * q.val = q.val; omega

/-- Entry `(p, q)` of point `t`'s block of window 3 sits at row `1024 t + p`, column `q` of the array. -/
theorem emb3 (t : Fin cfg0.N) (p : Fin 1024) (q : Fin 256) :
    ((cfg0.win 3).blk t).view.emb (ix2 p q) = (ix2 (rowAt t p) q : S4096x256.Idx) := by
  obtain ⟨-, -, -, ⟨e0, e1⟩, -⟩ := blockIdx t
  refine funext fun a => Fin.ext ?_
  match a with
  | ⟨0, _⟩ => show win0_3.index t (0 : Fin 2) * 1024 + 1 * p.val = 1024 * t.val + p.val; omega
  | ⟨1, _⟩ => show win0_3.index t (1 : Fin 2) * 256 + 1 * q.val = q.val; omega

/-- Entry `(p, q)` of point `t`'s block of window 4 sits at row `1024 t + p`, column `q` of the array. -/
theorem emb4 (t : Fin cfg0.N) (p : Fin 1024) (q : Fin 1) :
    ((cfg0.win 4).blk t).view.emb (ix2 p q) = (ix2 (rowAt t p) q : S4096x1.Idx) := by
  obtain ⟨-, -, -, -, ⟨e0, e1⟩, -⟩ := blockIdx t
  refine funext fun a => Fin.ext ?_
  match a with
  | ⟨0, _⟩ => show win0_4.index t (0 : Fin 2) * 1024 + 1 * p.val = 1024 * t.val + p.val; omega
  | ⟨1, _⟩ => show win0_4.index t (1 : Fin 2) * 1 + 1 * q.val = q.val; omega

/-- Entry `(p, q)` of point `t`'s block of window 5 sits at row `1024 t + p`, column `q` of the array. -/
theorem emb5 (t : Fin cfg0.N) (p : Fin 1024) (q : Fin 1) :
    ((cfg0.win 5).blk t).view.emb (ix2 p q) = (ix2 (rowAt t p) q : S4096x1.Idx) := by
  obtain ⟨-, -, -, -, -, ⟨e0, e1⟩, -⟩ := blockIdx t
  refine funext fun a => Fin.ext ?_
  match a with
  | ⟨0, _⟩ => show win0_5.index t (0 : Fin 2) * 1024 + 1 * p.val = 1024 * t.val + p.val; omega
  | ⟨1, _⟩ => show win0_5.index t (1 : Fin 2) * 1 + 1 * q.val = q.val; omega

/-- Entry `(p, q)` of point `t`'s block of window 6 sits at row `1024 t + p`, column `q` of the array. -/
theorem emb6 (t : Fin cfg0.N) (p : Fin 1024) (q : Fin 1) :
    ((cfg0.win 6).blk t).view.emb (ix2 p q) = (ix2 (rowAt t p) q : S4096x1.Idx) := by
  obtain ⟨-, -, -, -, -, -, ⟨e0, e1⟩⟩ := blockIdx t
  refine funext fun a => Fin.ext ?_
  match a with
  | ⟨0, _⟩ => show win0_6.index t (0 : Fin 2) * 1024 + 1 * p.val = 1024 * t.val + p.val; omega
  | ⟨1, _⟩ => show win0_6.index t (1 : Fin 2) * 1 + 1 * q.val = q.val; omega

/-- What point `t` writes back to window 2's array is block `t` of the first normalized array. -/
theorem flushed0_2_eq (c : Dev nD) (t : Fin cfg0.N) :
    (dat0 (F := Ideal) V c).flushed 2 t = ((cfg0.win 2).blk t).view.read (Elt Ideal) (G2 (V c main_arg0)) := by
  show (cfg0.win 2).cut (grid0.coords t) ((dat0 V c).after 2 t) = _
  rw [after0_2, out0_2_eq]
  funext j
  obtain ⟨p, q, rfl⟩ : ∃ (p : Fin 1024) (q : Fin 256), j = ix2 p q := ⟨j 0, j 1, eq_ix2 j⟩
  rw [View.read_apply, emb2]
  show k0_pay3 (iblk0 V c 0 t) (ix2 p q) = Cert.Contrastive.unit (V c main_arg0) (rowAt t p) q
  rw [pay3_apply, blkUnit_of_rows (V c main_arg0) _ (rowAt t) (iblk0_0_apply V c t)]

/-- So the array ends holding it. -/
theorem final0_2 (c : Dev nD) (r : Fin 4096) (k : Fin 256) :
    (dat0 (F := Ideal) V c).arrAt 2 cfg0.N (ix2 r k) = Cert.Contrastive.unit (V c main_arg0) r k :=
  congrFun ((dat0 V c).arrAt_eq_of_cover 2 (G2 (V c main_arg0)) (fun t _ => flushed0_2_eq V c t) covered2) (ix2 r k)

/-- What point `t` writes back to window 3's array is block `t` of the second normalized array. -/
theorem flushed0_3_eq (c : Dev nD) (t : Fin cfg0.N) :
    (dat0 (F := Ideal) V c).flushed 3 t = ((cfg0.win 3).blk t).view.read (Elt Ideal) (G3 (V c main_arg1)) := by
  show (cfg0.win 3).cut (grid0.coords t) ((dat0 V c).after 3 t) = _
  rw [after0_3, out0_3_eq]
  funext j
  obtain ⟨p, q, rfl⟩ : ∃ (p : Fin 1024) (q : Fin 256), j = ix2 p q := ⟨j 0, j 1, eq_ix2 j⟩
  rw [View.read_apply, emb3]
  show k0_pay4 (iblk0 V c 1 t) (ix2 p q) = Cert.Contrastive.unit (V c main_arg1) (rowAt t p) q
  rw [pay4_apply, blkUnit_of_rows (V c main_arg1) _ (rowAt t) (iblk0_1_apply V c t)]

/-- So the array ends holding it. -/
theorem final0_3 (c : Dev nD) (r : Fin 4096) (k : Fin 256) :
    (dat0 (F := Ideal) V c).arrAt 3 cfg0.N (ix2 r k) = Cert.Contrastive.unit (V c main_arg1) r k :=
  congrFun ((dat0 V c).arrAt_eq_of_cover 3 (G3 (V c main_arg1)) (fun t _ => flushed0_3_eq V c t) covered3) (ix2 r k)

/-! ### The three columns of row sums -/

/-- What point `t` writes back to window 4's array is block `t` of the column of inner products. -/
theorem flushed0_4_eq (c : Dev nD) (t : Fin cfg0.N) :
    (dat0 (F := Ideal) V c).flushed 4 t = ((cfg0.win 4).blk t).view.read (Elt Ideal) (G4 (V c main_arg0) (V c main_arg1)) := by
  show (cfg0.win 4).cut (grid0.coords t) ((dat0 V c).after 4 t) = _
  rw [after0_4, out0_4_eq]
  funext j
  obtain ⟨p, u, rfl⟩ : ∃ (p : Fin 1024) (u : Fin 1), j = ix2 p u := ⟨j 0, j 1, eq_ix2 j⟩
  rw [View.read_apply, emb4]
  show k0_pay5 (iblk0 V c 0 t) (iblk0 V c 1 t) (ix2 p u) = Cert.Contrastive.pairDot (V c main_arg0) (V c main_arg1) (rowAt t p)
  rw [pay5_apply]
  unfold Cert.Contrastive.pairDot
  exact Finset.sum_congr rfl fun k _ => by
    rw [blkUnit_of_rows (V c main_arg0) _ (rowAt t) (iblk0_0_apply V c t),
      blkUnit_of_rows (V c main_arg1) _ (rowAt t) (iblk0_1_apply V c t)]

/-- So the array ends holding it. -/
theorem final0_4 (c : Dev nD) (r : Fin 4096) :
    (dat0 (F := Ideal) V c).arrAt 4 cfg0.N (ix2 r 0) = Cert.Contrastive.pairDot (V c main_arg0) (V c main_arg1) r :=
  congrFun ((dat0 V c).arrAt_eq_of_cover 4 (G4 (V c main_arg0) (V c main_arg1)) (fun t _ => flushed0_4_eq V c t) covered4) (ix2 r 0)

/-- What point `t` writes back to window 5's array is block `t` of the column of the first input's squared lengths. -/
theorem flushed0_5_eq (c : Dev nD) (t : Fin cfg0.N) :
    (dat0 (F := Ideal) V c).flushed 5 t = ((cfg0.win 5).blk t).view.read (Elt Ideal) (G5 (V c main_arg0)) := by
  show (cfg0.win 5).cut (grid0.coords t) ((dat0 V c).after 5 t) = _
  rw [after0_5, out0_5_eq]
  funext j
  obtain ⟨p, u, rfl⟩ : ∃ (p : Fin 1024) (u : Fin 1), j = ix2 p u := ⟨j 0, j 1, eq_ix2 j⟩
  rw [View.read_apply, emb5]
  show k0_pay6 (iblk0 V c 0 t) (ix2 p u) = Cert.Contrastive.selfDot (V c main_arg0) (rowAt t p)
  rw [pay6_apply]
  unfold Cert.Contrastive.selfDot
  exact Finset.sum_congr rfl fun k _ => by
    rw [blkUnit_of_rows (V c main_arg0) _ (rowAt t) (iblk0_0_apply V c t)]

/-- So the array ends holding it. -/
theorem final0_5 (c : Dev nD) (r : Fin 4096) :
    (dat0 (F := Ideal) V c).arrAt 5 cfg0.N (ix2 r 0) = Cert.Contrastive.selfDot (V c main_arg0) r :=
  congrFun ((dat0 V c).arrAt_eq_of_cover 5 (G5 (V c main_arg0)) (fun t _ => flushed0_5_eq V c t) covered5) (ix2 r 0)

/-- What point `t` writes back to window 6's array is block `t` of the column of the second input's squared lengths. -/
theorem flushed0_6_eq (c : Dev nD) (t : Fin cfg0.N) :
    (dat0 (F := Ideal) V c).flushed 6 t = ((cfg0.win 6).blk t).view.read (Elt Ideal) (G6 (V c main_arg1)) := by
  show (cfg0.win 6).cut (grid0.coords t) ((dat0 V c).after 6 t) = _
  rw [after0_6, out0_6_eq]
  funext j
  obtain ⟨p, u, rfl⟩ : ∃ (p : Fin 1024) (u : Fin 1), j = ix2 p u := ⟨j 0, j 1, eq_ix2 j⟩
  rw [View.read_apply, emb6]
  show k0_pay7 (iblk0 V c 1 t) (ix2 p u) = Cert.Contrastive.selfDot (V c main_arg1) (rowAt t p)
  rw [pay7_apply]
  unfold Cert.Contrastive.selfDot
  exact Finset.sum_congr rfl fun k _ => by
    rw [blkUnit_of_rows (V c main_arg1) _ (rowAt t) (iblk0_1_apply V c t)]

/-- So the array ends holding it. -/
theorem final0_6 (c : Dev nD) (r : Fin 4096) :
    (dat0 (F := Ideal) V c).arrAt 6 cfg0.N (ix2 r 0) = Cert.Contrastive.selfDot (V c main_arg1) r :=
  congrFun ((dat0 V c).arrAt_eq_of_cover 6 (G6 (V c main_arg1)) (fun t _ => flushed0_6_eq V c t) covered6) (ix2 r 0)

end Cert.KernelIdeal.Hand

end
-- ==== Proof.LibDotLastAxes.lean ====
/-
  A product of two matrices along the LAST axis of both, read at an entry.

  `x @ W.T` — a [M, K] matrix against a [N, K] matrix, contracting the K axis of each — has at (p, f) the entry
  Σ_k x[p, k] · W[f, k]. Over the extended reals this holds of the kernel's matrix unit started from the zero splat and of the
  host's `dot_general` alike, whatever order either sums in. The dimension numbers enter only through four coordinate facts
  (which operand coordinate is the result's row, the result's column, the contraction's index); a caller proves them of its
  own record and gets the entry as a sum over `Fin K`.
-/
import Idealize.ShloMosaic.PureOps.Ideal.Laws
import Idealize.ShloMosaic.Lib.ValueIdx

noncomputable section

open scoped BigOperators

namespace Idealize.ShloMosaic.DotLastAxes

open Idealize.ShloMosaic Idealize.ShloMosaic.ValueIdx

variable {M N K : ℕ} {φ₁ φ₂ : FTy}

/-- The two operand indices at result entry (p, f) and contraction coordinate k are (p, k) and (f, k). -/
theorem operand_idx (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (p : Fin M) (f : Fin N) (k : Fin K) :
    D.lhsIdx (ix2 p f) ((contrEquiv1 D K hr hs).symm k) = ix2 p k
      ∧ D.rhsIdx (ix2 p f) ((contrEquiv1 D K hr hs).symm k) = ix2 f k := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact hr0 _ _
    | ⟨1, _⟩ => exact (hr1 _ _).trans hk

/-- THE MATRIX UNIT from the zero splat: entry (p, f) is Σ_k lhs[p, k] · rhs[f, k]. -/
theorem matmul_zero_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (lhs : FVec Ideal ⟨2, ![M, K]⟩ φ₁) (rhs : FVec Ideal ⟨2, ![N, K]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 f k) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

/-- THE HOST'S `dot_general`: the same entry, the same sum. -/
theorem dotGeneral_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (sched : HostSchedule)
    (lhs : FVec Ideal ⟨2, ![M, K]⟩ φ₁) (rhs : FVec Ideal ⟨2, ![N, K]⟩ φ₂) (p : Fin M) (f : Fin N) :
    FloatOps.dotGeneral D prec sched lhs rhs (ix2 p f) = ∑ k : Fin K, lhs (ix2 p k) * rhs (ix2 f k) := by
  rw [Ideal.dotGeneral_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotLastAxes

end
-- ==== Proof.KPay1.lean ====
/-
  The second kernel call's two stored values, read at an index, and the regrouping of the sixteen column tiles.

  The first value is the zero column.  The second adds to the running column `s`, at row `r`, the sum over the 512
  columns `cc` of the tile of exp (2 · ⟨x0 row r, x1 row cc⟩), the inner product taken over the 256 coordinates.
  Summing the sixteen tiles of 512 columns one after the other from zero gives the sum over all 8192 columns.
-/
import proofs.«115832_j1537598292252_1_alg».proof.Proof.Gen.KernelIdeal.Skeleton
import proofs.«115832_j1537598292252_1_alg».proof.Proof.Spec
import proofs.«115832_j1537598292252_1_alg».proof.Proof.LibDotLastAxes
import proofs.«115832_j1537598292252_1_alg».proof.Proof.LibRowSum
import proofs.«115832_j1537598292252_1_alg».proof.Proof.LibKeepdimsLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-! ## The sixteen tiles -/

/-- Sixteen partial sums over consecutive tiles of 512 columns, started from zero, end at the sum over all 8192
    columns.  Only commutativity and associativity of addition are used. -/
theorem tiles_sum (E : Fin 8192 → EReal) (f : ℕ → EReal)
    (h0 : f 0 = 0 + ∑ cc : Fin 512, E ⟨cc.val, by omega⟩)
    (hs : ∀ (j : ℕ) (hj : j + 1 < 16), f (j + 1) = f j + ∑ cc : Fin 512, E ⟨512 * (j + 1) + cc.val, by omega⟩) :
    f 15 = ∑ C : Fin 8192, E C := by
  let g : ℕ → EReal := fun k => if hk : k < 8192 then E ⟨k, hk⟩ else 0
  have hg : ∀ (k : ℕ) (hk : k < 8192), g k = E ⟨k, hk⟩ := fun k hk => dif_pos hk
  have key : ∀ j, j < 16 → f j = ∑ k ∈ Finset.range (512 * (j + 1)), g k := by
    intro j
    induction j with
    | zero =>
      intro _
      rw [h0, zero_add, Nat.zero_add, Nat.mul_one, ← Fin.sum_univ_eq_sum_range g 512]
      exact Finset.sum_congr rfl fun cc _ => (hg _ _).symm
    | succ j ih =>
      intro hj
      rw [hs j hj, ih (by omega), mul_add_one 512 (j + 1), Finset.sum_range_add,
        ← Fin.sum_univ_eq_sum_range (fun i => g (512 * (j + 1) + i)) 512]
      congr 1
      exact Finset.sum_congr rfl fun cc _ => (hg _ _).symm
  have e : 512 * (15 + 1) = 8192 := by norm_num
  rw [key 15 (by omega), e, ← Fin.sum_univ_eq_sum_range g 8192]
  exact Finset.sum_congr rfl fun C _ => hg _ _

/-! ## The matrix product's dimension numbers -/

theorem lhs0 (j : S2048x512.Idx) (q : dot_S2048x256_S512x256_S2048x512_1_1_0_0_n_n.contr.Idx) :
    (dot_S2048x256_S512x256_S2048x512_1_1_0_0_n_n.lhsIdx j q 0).val = (j 0).val := by
  unfold DotDims.lhsIdx
  rw [dif_neg (show ¬(0 : Fin S2048x256.rank) ∈ dot_S2048x256_S512x256_S2048x512_1_1_0_0_n_n.lhsBatch by decide),
    dif_pos (show (0 : Fin S2048x256.rank) ∈ dot_S2048x256_S512x256_S2048x512_1_1_0_0_n_n.lhsNonContracting by decide)]
  rfl

theorem lhs1 (j : S2048x512.Idx) (q : dot_S2048x256_S512x256_S2048x512_1_1_0_0_n_n.contr.Idx) :
    (dot_S2048x256_S512x256_S2048x512_1_1_0_0_n_n.lhsIdx j q 1).val = (q ⟨0, by decide⟩).val :=
  dot_S2048x256_S512x256_S2048x512_1_1_0_0_n_n.lhsIdx_val_of_single rfl j q

theorem rhs0 (j : S2048x512.Idx) (q : dot_S2048x256_S512x256_S2048x512_1_1_0_0_n_n.contr.Idx) :
    (dot_S2048x256_S512x256_S2048x512_1_1_0_0_n_n.rhsIdx j q 0).val = (j 1).val := by
  unfold DotDims.rhsIdx
  rw [dif_neg (show ¬(0 : Fin S512x256.rank) ∈ dot_S2048x256_S512x256_S2048x512_1_1_0_0_n_n.rhsBatch by decide),
    dif_pos (show (0 : Fin S512x256.rank) ∈ dot_S2048x256_S512x256_S2048x512_1_1_0_0_n_n.rhsNonContracting by decide)]
  rfl

theorem rhs1 (j : S2048x512.Idx) (q : dot_S2048x256_S512x256_S2048x512_1_1_0_0_n_n.contr.Idx) :
    (dot_S2048x256_S512x256_S2048x512_1_1_0_0_n_n.rhsIdx j q 1).val = (q ⟨0, by decide⟩).val :=
  dot_S2048x256_S512x256_S2048x512_1_1_0_0_n_n.rhsIdx_val_of_single rfl j q

/-! ## The two stored values -/

theorem k1_pay1_apply (j : S2048x1.Idx) : k1_pay1 (F := Ideal) j = 0 := by
  unfold k1_pay1
  rw [shapeCast_self]
  exact Ideal.ofBits_zero_f32

theorem k1_pay2_apply (x0 : FVec Ideal S2048x256 .bf16) (x1 : FVec Ideal S512x256 .bf16) (s : FVec Ideal S2048x1 .f32)
    (r : Fin 2048) :
    k1_pay2 (F := Ideal) x0 x1 s (ix2 r 0)
      = s (ix2 r 0) + ∑ cc : Fin 512, Ideal.exp ((∑ k : Fin 256, x0 (ix2 r k) * x1 (ix2 cc k)) * Cert.Contrastive.two) := by
  unfold k1_pay2
  rw [shapeCast_self, shapeCast_self, shapeCast_self]
  refine (addf_apply _ _ _).trans ?_
  congr 1
  refine (Cert.LayoutKeepdims.shapeCast_a_a1_apply _ _ r 0).trans ?_
  refine (RowSum.rowSum_apply _ _ _ _ r).trans ?_
  refine Finset.sum_congr rfl fun cc _ => ?_
  refine congrArg Ideal.exp ?_
  show _ * _ = _ * _
  congr 1
  exact DotLastAxes.matmul_zero_apply dot_S2048x256_S512x256_S2048x512_1_1_0_0_n_n rfl rfl lhs0 lhs1 rhs0 rhs1 none x0 x1 r cc

end Cert.KernelIdeal.Hand

end
-- ==== Proof.KValue1.lean ====
/-
  The second kernel call's result array, at the extended reals.

  After a point in column tile j of row tile i the accumulator holds, at row p, the sum over the first 512 (j + 1)
  columns C of exp (2 · ⟨row 2048 i + p, row C⟩), the rows those of the ONE array Q both input windows read: the
  reset leaves 0, each point adds its column tile's 512 terms (a lane sum of the exponentials of a matrix product
  scaled by 2).  At j = 15 the accumulator, then the sum over all 8192 columns, is copied into the output block,
  which is written back as rows 2048 i … 2048 i + 2047 of the result.  So the result's row R is the sum over ALL
  columns C of exp (2 · ⟨row R, row C⟩).
-/
import proofs.«115832_j1537598292252_1_alg».proof.Proof.KRegion1
import proofs.«115832_j1537598292252_1_alg».proof.Proof.KPay1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

theorem hz2 : (![0, 0] : Fin 2 → Nat) = fun _ => 0 := funext fun a => by fin_cases a <;> rfl

/-! ## What each case leaves, as payloads -/

section Pieces

/-- Case A leaves in the accumulator the column tile's row sums added to the reset's zeros. -/
theorem sout_A (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : cond1_0 i) (hc1 : ¬cond1_1 i)
    (x0 : Vec F S2048x256 .bf16) (x1 : Vec F S512x256 .bf16) :
    sout1_A_0 c i arg2 harg2 arg3 harg3 arg4 harg4 arg5 harg5 hc0 hc1 x0 x1 = k1_pay2 x0 x1 (k1_pay1 (F := F)) := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S2048x1) hz2, View.readCov_unit_zero (S := S2048x1) _ hz2]
  simp only [View.readAt_eq_ld, harg2.read_unread, harg3.read_unread, View.ld_unit_zero (S := S2048x256) hz2,
    View.ld_unit_zero (S := S512x256) hz2]

/-- Case B leaves in the accumulator the column tile's row sums added to what it held. -/
theorem sout_B (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : ¬cond1_1 i)
    (x0 : Vec F S2048x256 .bf16) (x1 : Vec F S512x256 .bf16) (xs0 : Vec F S2048x1 .f32) :
    sout1_B_0 c i arg2 harg2 arg3 harg3 arg4 harg4 arg5 harg5 hc0 hc1 x0 x1 xs0 = k1_pay2 x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  rw [View.canon_unit_zero hz2]
  simp only [View.readAt_eq_ld, harg2.read_unread, harg3.read_unread, harg5.read_unread, View.ld_unit_zero (S := S2048x256) hz2,
    View.ld_unit_zero (S := S512x256) hz2, View.ld_unit_zero (S := S2048x1) hz2]

/-- Case C leaves in the accumulator the column tile's row sums added to what it held, -/
theorem sout_C (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S512x256 .bf16) (xs0 : Vec F S2048x1 .f32) :
    sout1_C_0 c i arg2 harg2 arg3 harg3 arg4 harg4 arg5 harg5 hc0 hc1 x0 x1 xs0 = k1_pay2 x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero hz2]
  simp only [View.readAt_eq_ld, harg2.read_unread, harg3.read_unread, harg5.read_unread, View.ld_unit_zero (S := S2048x256) hz2,
    View.ld_unit_zero (S := S512x256) hz2, View.ld_unit_zero (S := S2048x1) hz2]

/-- and in the output block a copy of it. -/
theorem out_C (c : Dev nD) (i : grid1.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : cond1_1 i)
    (x0 : Vec F S2048x256 .bf16) (x1 : Vec F S512x256 .bf16) (xs0 : Vec F S2048x1 .f32) :
    out1_C_2 c i arg2 harg2 arg3 harg3 arg4 harg4 arg5 harg5 hc0 hc1 x0 x1 xs0 = k1_pay2 x0 x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero hz2, View.readCov_unit_zero (S := S2048x1) _ hz2]
  simp only [View.readAt_eq_ld, harg2.read_unread, harg3.read_unread, harg5.read_unread, View.ld_unit_zero (S := S2048x256) hz2,
    View.ld_unit_zero (S := S512x256) hz2, View.ld_unit_zero (S := S2048x1) hz2]

variable (V : (c : Dev nD) → (b : Ref sig .tc) → Buf (Elt F) ((c : Thread nD τ).loc b))

/-- At a point of case A the accumulator ends at the point's column tile added to the reset's zeros. -/
theorem outsAt_snd_A (c : Dev nD) (t : Fin cfg1.N) (h0 : t.val % 16 = 0) :
    (outsAt1 V c t.val t.isLt).2 = k1_pay2 (iblk1 V c 0 t) (iblk1 V c 1 t) (k1_pay1 (F := F)) := by
  have h1 : ¬t.val % 16 = 15 := by omega
  rw [outsAt1_A V c t h0 h1]
  dsimp only
  rw [sout_A]

/-- At a point of case B, added to what the point before left. -/
theorem outsAt_snd_B (c : Dev nD) (t : Fin cfg1.N) (h0 : ¬t.val % 16 = 0) (h1 : ¬t.val % 16 = 15) :
    (outsAt1 V c t.val t.isLt).2 = k1_pay2 (iblk1 V c 0 t) (iblk1 V c 1 t)
      (outsAt1 V c (t.val - 1) (Nat.lt_of_le_of_lt (Nat.sub_le _ _) t.isLt)).2 := by
  rw [outsAt1_B V c t h0 h1]
  dsimp only
  rw [sout_B]

/-- At a point of case C likewise, -/
theorem outsAt_snd_C (c : Dev nD) (t : Fin cfg1.N) (h0 : ¬t.val % 16 = 0) (h1 : t.val % 16 = 15) :
    (outsAt1 V c t.val t.isLt).2 = k1_pay2 (iblk1 V c 0 t) (iblk1 V c 1 t)
      (outsAt1 V c (t.val - 1) (Nat.lt_of_le_of_lt (Nat.sub_le _ _) t.isLt)).2 := by
  rw [outsAt1_C V c t h0 h1]
  dsimp only
  rw [sout_C]

/-- and the output block holds what the accumulator holds. -/
theorem outsAt_fst_C (c : Dev nD) (t : Fin cfg1.N) (h0 : ¬t.val % 16 = 0) (h1 : t.val % 16 = 15) :
    (outsAt1 V c t.val t.isLt).1 = (outsAt1 V c t.val t.isLt).2 := by
  rw [outsAt1_C V c t h0 h1]
  dsimp only
  rw [out_C, sout_C]

end Pieces

/-! ## At the extended reals -/

section Ideal

variable (V : (c : Dev nD) → (b : Ref sig .tc) → Buf (Elt Ideal) ((c : Thread nD τ).loc b))

/-- Point t = 16 i + j: the row-tile window and the output window are at block i, the column-tile window at block j. -/
theorem blockIdx1 : ∀ t : Fin cfg1.N,
    (win1_0.index t (0 : Fin 2) = t.val / 16 ∧ win1_0.index t (1 : Fin 2) = 0)
    ∧ (win1_1.index t (0 : Fin 2) = t.val % 16 ∧ win1_1.index t (1 : Fin 2) = 0)
    ∧ (win1_2.index t (0 : Fin 2) = t.val / 16 ∧ win1_2.index t (1 : Fin 2) = 0) :=
  (by decide +kernel : ∀ t : Fin grid1.N, _)

/-- Row p of point t's row tile is row 2048 (t / 16) + p of the array. -/
def rowOf (t : Fin cfg1.N) (p : Fin 2048) : Fin 8192 :=
  ⟨2048 * (t.val / 16) + p.val, by have hN : cfg1.N = 64 := N_1; have := t.isLt; have := p.isLt; omega⟩
/-- Row q of point t's column tile is row 512 (t % 16) + q of the array. -/
def colOf (t : Fin cfg1.N) (q : Fin 512) : Fin 8192 :=
  ⟨512 * (t.val % 16) + q.val, by have := q.isLt; omega⟩

theorem iblk1_0_apply (c : Dev nD) (t : Fin cfg1.N) (p : Fin 2048) (k : Fin 256) :
    (iblk1 V c 0 t : Vec Ideal S2048x256 .bf16) (ix2 p k) = (V c main_v1 : S8192x256.Idx → EReal) (ix2 (rowOf t p) k) := by
  unfold iblk1
  rw [View.read_apply]
  show (V c main_v1 : S8192x256.Idx → EReal) _ = _
  refine congrArg _ (funext fun a => Fin.ext ?_)
  obtain ⟨⟨e0, e1⟩, -⟩ := blockIdx1 t
  match a with
  | ⟨0, _⟩ => show win1_0.index t (0 : Fin 2) * 2048 + 1 * p.val = 2048 * (t.val / 16) + p.val; omega
  | ⟨1, _⟩ => show win1_0.index t (1 : Fin 2) * 256 + 1 * k.val = k.val; omega

theorem iblk1_1_apply (c : Dev nD) (t : Fin cfg1.N) (q : Fin 512) (k : Fin 256) :
    (iblk1 V c 1 t : Vec Ideal S512x256 .bf16) (ix2 q k) = (V c main_v1 : S8192x256.Idx → EReal) (ix2 (colOf t q) k) := by
  unfold iblk1
  rw [View.read_apply]
  show (V c main_v1 : S8192x256.Idx → EReal) _ = _
  refine congrArg _ (funext fun a => Fin.ext ?_)
  obtain ⟨-, ⟨e0, e1⟩, -⟩ := blockIdx1 t
  match a with
  | ⟨0, _⟩ => show win1_1.index t (0 : Fin 2) * 512 + 1 * q.val = 512 * (t.val % 16) + q.val; omega
  | ⟨1, _⟩ => show win1_1.index t (1 : Fin 2) * 256 + 1 * k.val = k.val; omega

/-- exp (2 · ⟨row R, row C⟩) of the array Q. -/
def expSim (Q : S8192x256.Idx → EReal) (R C : Fin 8192) : EReal :=
  Ideal.exp ((∑ k : Fin 256, Q (ix2 R k) * Q (ix2 C k)) * Cert.Contrastive.two)

/-- The same at a column number that may lie past the array (then 0). -/
def expSimN (Q : S8192x256.Idx → EReal) (R : Fin 8192) (n : ℕ) : EReal :=
  if h : n < 8192 then expSim Q R ⟨n, h⟩ else 0

/-- Row R's running sum after j + 1 column tiles, in the order the kernel adds them. -/
def rowAcc (Q : S8192x256.Idx → EReal) (R : Fin 8192) : ℕ → EReal
  | 0 => 0 + ∑ cc : Fin 512, expSimN Q R cc.val
  | j + 1 => rowAcc Q R j + ∑ cc : Fin 512, expSimN Q R (512 * (j + 1) + cc.val)

/-- After sixteen column tiles it is the sum over all columns. -/
theorem rowAcc_15 (Q : S8192x256.Idx → EReal) (R : Fin 8192) : rowAcc Q R 15 = ∑ C : Fin 8192, expSim Q R C := by
  refine tiles_sum (expSim Q R) (rowAcc Q R) ?_ (fun j hj => ?_)
  · show 0 + ∑ cc : Fin 512, expSimN Q R cc.val = _
    refine congrArg _ (Finset.sum_congr rfl fun cc _ => ?_)
    unfold expSimN; rw [dif_pos (by have := cc.isLt; omega)]
  · show rowAcc Q R j + ∑ cc : Fin 512, expSimN Q R (512 * (j + 1) + cc.val) = _
    refine congrArg _ (Finset.sum_congr rfl fun cc _ => ?_)
    unfold expSimN; rw [dif_pos (by have := cc.isLt; omega)]

/-- One point's contribution at row p, over the array's rows. -/
theorem pay2_at (c : Dev nD) (t : Fin cfg1.N) (s : FVec Ideal S2048x1 .f32) (p : Fin 2048) :
    k1_pay2 (F := Ideal) (iblk1 V c 0 t) (iblk1 V c 1 t) s (ix2 p 0)
      = s (ix2 p 0) + ∑ cc : Fin 512, expSimN (V c main_v1) (rowOf t p) (512 * (t.val % 16) + cc.val) := by
  refine (k1_pay2_apply _ _ s p).trans ?_
  refine congrArg _ (Finset.sum_congr rfl fun cc _ => ?_)
  unfold expSimN expSim
  rw [dif_pos (by have := cc.isLt; omega)]
  refine congrArg (fun z => Ideal.exp (z * Cert.Contrastive.two)) (Finset.sum_congr rfl fun k _ => ?_)
  rw [iblk1_0_apply V c t p k, iblk1_1_apply V c t cc k]
  rfl

/-- The accumulator after position n, at row p, is row (2048 (n / 16) + p)'s running sum after n % 16 + 1 column tiles. -/
theorem acc_apply (c : Dev nD) : ∀ (n : ℕ) (h : n < cfg1.N) (p : Fin 2048),
    (outsAt1 V c n h).2 (ix2 p 0) = rowAcc (V c main_v1) (rowOf ⟨n, h⟩ p) (n % 16) := by
  intro n
  induction n using Nat.strong_induction_on with
  | _ n ih =>
    intro h p
    have hN : cfg1.N = 64 := N_1
    by_cases h0 : n % 16 = 0
    · rw [outsAt_snd_A V c ⟨n, h⟩ h0, pay2_at V c ⟨n, h⟩ _ p, k1_pay1_apply]
      show 0 + ∑ cc : Fin 512, expSimN _ _ (512 * (n % 16) + cc.val) = rowAcc _ _ (n % 16)
      rw [h0]
      show _ = 0 + ∑ cc : Fin 512, expSimN _ _ cc.val
      refine congrArg _ (Finset.sum_congr rfl fun cc _ => ?_)
      rw [show 512 * 0 + cc.val = cc.val from by omega]
    · have hstep : ∀ s : FVec Ideal S2048x1 .f32,
          s (ix2 p 0) = rowAcc (V c main_v1) (rowOf ⟨n, h⟩ p) ((n - 1) % 16) →
          k1_pay2 (F := Ideal) (iblk1 V c 0 ⟨n, h⟩) (iblk1 V c 1 ⟨n, h⟩) s (ix2 p 0)
            = rowAcc (V c main_v1) (rowOf ⟨n, h⟩ p) (n % 16) := by
        intro s hs
        rw [pay2_at V c ⟨n, h⟩ s p, hs]
        have hm : n % 16 = (n - 1) % 16 + 1 := by omega
        show _ + ∑ cc : Fin 512, expSimN _ _ (512 * (n % 16) + cc.val) = rowAcc _ _ (n % 16)
        rw [hm]
        rfl
      have hprev : (outsAt1 V c (n - 1) (Nat.lt_of_le_of_lt (Nat.sub_le _ _) h)).2 (ix2 p 0)
          = rowAcc (V c main_v1) (rowOf ⟨n, h⟩ p) ((n - 1) % 16) := by
        rw [ih (n - 1) (by omega) _ p]
        have hr : rowOf ⟨n - 1, Nat.lt_of_le_of_lt (Nat.sub_le _ _) h⟩ p = rowOf ⟨n, h⟩ p := by
          unfold rowOf; refine Fin.ext ?_
          show 2048 * ((n - 1) / 16) + p.val = 2048 * (n / 16) + p.val
          omega
        rw [hr]
      by_cases h1 : n % 16 = 15
      · rw [outsAt_snd_C V c ⟨n, h⟩ h0 h1]
        exact hstep _ hprev
      · rw [outsAt_snd_B V c ⟨n, h⟩ h0 h1]
        exact hstep _ hprev

/-- The result as one function of the array: row R's sum over all columns. -/
def G1 (Q : S8192x256.Idx → EReal) : S8192x1.Idx → EReal := fun i => ∑ C : Fin 8192, expSim Q (i 0) C

theorem mem_blk1_2 (t : Fin cfg1.N) (i : S8192x1.Idx) :
    i ∈ ((cfg1.win 2).blk t).view.set ↔ ∀ a : Fin 2, win1_2.index t a * S2048x1.size a ≤ (i a).val ∧ (i a).val < win1_2.index t a * S2048x1.size a + S2048x1.size a := by
  show i ∈ ((View.whole main_v3).slice (win1_2.rect t)).set ↔ _
  rw [View.set_slice_whole, Rect.mem_set_unit]
  exact Iff.rfl

/-- Every row lies in the block of the last point of its row tile, which is written back. -/
theorem covered1_2 (i : S8192x1.Idx) : ∃ t : Fin cfg1.N, (cfg1.win 2).flush t = true ∧ i ∈ ((cfg1.win 2).blk t).view.set := by
  have hN : cfg1.N = 64 := N_1
  have hi0 : (i 0).val < 8192 := (i 0).isLt
  have hi1 : (i 1).val < 1 := (i 1).isLt
  obtain ⟨t, ht⟩ : ∃ t : Fin cfg1.N, t.val = 16 * ((i 0).val / 2048) + 15 := ⟨⟨16 * ((i 0).val / 2048) + 15, by omega⟩, rfl⟩
  refine ⟨t, (flush1_2 t).mpr (by omega), ?_⟩
  rw [mem_blk1_2]
  obtain ⟨-, -, ⟨e0, e1⟩⟩ := blockIdx1 t
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 1 ≤ (i 1).val ∧ (i 1).val < win1_2.index t (1 : Fin 2) * 1 + 1; omega

theorem emb1_2 (t : Fin cfg1.N) (p : Fin 2048) (q : Fin 1) :
    ((cfg1.win 2).blk t).view.emb (ix2 p q) = (ix2 (rowOf t p) q : S8192x1.Idx) := by
  obtain ⟨-, -, ⟨e0, e1⟩⟩ := blockIdx1 t
  refine funext fun a => Fin.ext ?_
  match a with
  | ⟨0, _⟩ => show win1_2.index t (0 : Fin 2) * 2048 + 1 * p.val = 2048 * (t.val / 16) + p.val; omega
  | ⟨1, _⟩ => show win1_2.index t (1 : Fin 2) * 1 + 1 * q.val = q.val; omega

/-- What a point that writes the output block back writes: its rows of the row sums over all columns. -/
theorem flushed1_2_eq (c : Dev nD) (t : Fin cfg1.N) (hf : (cfg1.win 2).flush t = true) :
    (dat1 (F := Ideal) V c).flushed 2 t = ((cfg1.win 2).blk t).view.read (Elt Ideal) (G1 (V c main_v1)) := by
  have h1 : t.val % 16 = 15 := (flush1_2 t).mp hf
  have h0 : ¬t.val % 16 = 0 := by omega
  show (cfg1.win 2).cut (grid1.coords t) ((dat1 V c).after 2 t) = _
  rw [after1_2, outsAt_fst_C V c t h0 h1]
  funext j
  obtain ⟨p, u, rfl⟩ : ∃ (p : Fin 2048) (u : Fin 1), j = ix2 p u := ⟨j 0, j 1, eq_ix2 j⟩
  obtain rfl : u = 0 := Subsingleton.elim _ _
  rw [View.read_apply, emb1_2]
  show (outsAt1 V c t.val t.isLt).2 (ix2 p 0) = ∑ C : Fin 8192, expSim (V c main_v1) (rowOf t p) C
  rw [acc_apply V c t.val t.isLt p, h1]
  exact rowAcc_15 (V c main_v1) (rowOf t p)

/-- So the result array ends holding, at row R, the sum over all columns C of exp (2 · ⟨row R, row C⟩). -/
theorem final1 (c : Dev nD) (R : Fin 8192) :
    (dat1 (F := Ideal) V c).arrAt 2 cfg1.N (ix2 R 0) = ∑ C : Fin 8192, expSim (V c main_v1) R C :=
  congrFun ((dat1 V c).arrAt_eq_of_cover 2 (G1 (V c main_v1)) (fun t hf => flushed1_2_eq V c t hf) covered1_2) (ix2 R 0)

end Ideal

end Cert.KernelIdeal.Hand

end
-- ==== Proof.KHost.lean ====
/-
  The kernel program's host operations, read at an index, over the extended reals.

  Between its two launches the program stacks two pairs of arrays along the rows; after the second launch
  it combines the per-row quantities into one number: each row's term is
      log (t r − exp (2 · d r)) − 2 · p r,
  where `t` is the second launch's row totals, `d` the stacked squared lengths and `p` the positive pairs'
  inner products repeated for both halves; the result is the sum of the 8192 terms divided by 8192.
  Every statement is for arbitrary buffer contents before the stretch.
-/
import proofs.«115832_j1537598292252_1_alg».proof.Proof.Gen.KernelIdeal.Launch
import proofs.«115832_j1537598292252_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Hand

open Idealize.ShloMosaic Idealize.ShloMosaic.TcCoe Idealize.SL.Sem Idealize.ShloMosaic.StableHlo
open Idealize.ShloMosaic.ValueIdx Cert.KernelIdeal Cert.KernelIdeal.Gen

/-- Two arrays of `n` rows and `m` columns stacked along the rows, read at row `r` and column `k`: the first array's
    entry when `r < n`, the second's entry at row `r - n` otherwise. -/
theorem stack_rows_apply {α : Type} {n N m : Nat} (hN : N = n + n)
    (h : Shape.Concatenates [(⟨2, ![n, m]⟩ : Shape), (⟨2, ![n, m]⟩ : Shape)] (⟨2, ![N, m]⟩ : Shape) 0)
    (x₁ x₂ : (⟨2, ![n, m]⟩ : Shape).Idx → α) (r : Fin N) (k : Fin m) :
    concatenate (⟨2, ![N, m]⟩ : Shape) 0 [⟨(⟨2, ![n, m]⟩ : Shape), x₁⟩, ⟨(⟨2, ![n, m]⟩ : Shape), x₂⟩] h (ix2 r k)
      = if hr : r.val < n then x₁ (ix2 ⟨r.val, hr⟩ k) else x₂ (ix2 ⟨r.val - n, by omega⟩ k) := by
  split
  · next hr =>
    refine concatenate_pair_apply_left (0 : Fin 2) x₁ x₂ h (ix2 r k) rfl (ix2 ⟨r.val, hr⟩ k) ?_
    intro b
    match b with
    | ⟨0, _⟩ => rfl
    | ⟨1, _⟩ => rfl
  · next hr =>
    refine concatenate_pair_apply_right (0 : Fin 2) x₁ x₂ h (ix2 r k) rfl rfl (ix2 ⟨r.val - n, by omega⟩ k) ?_ ?_
    · intro b hb
      match b, hb with
      | ⟨0, _⟩, hb => exact absurd rfl hb
      | ⟨1, _⟩, _ => rfl
    · show r.val - n + n = r.val
      omega

/-! ## Between the launches: the two stackings -/

/-- The stacked embeddings are the concatenation of the two halves. -/
theorem host1_v1_term (W : Valuation τ sig (Elt Ideal)) :
    (StableHlo.after (hostOps1 (F := Ideal)) W (Proc.devRef .tc main_v1) : S8192x256.Idx → EReal)
      = concatenate S8192x256 0 [⟨S4096x256, (W (Proc.devRef .tc main_v0_0) : S4096x256.Idx → EReal)⟩,
          ⟨S4096x256, (W (Proc.devRef .tc main_v0_1) : S4096x256.Idx → EReal)⟩]
          concatenates_S4096x256_S4096x256_S8192x256_d0 := by
  after_results

/-- The stacked squared lengths are the concatenation of the two halves. -/
theorem host1_v2_term (W : Valuation τ sig (Elt Ideal)) :
    (StableHlo.after (hostOps1 (F := Ideal)) W (Proc.devRef .tc main_v2) : S8192x1.Idx → EReal)
      = concatenate S8192x1 0 [⟨S4096x1, (W (Proc.devRef .tc main_v0_3) : S4096x1.Idx → EReal)⟩,
          ⟨S4096x1, (W (Proc.devRef .tc main_v0_4) : S4096x1.Idx → EReal)⟩]
          concatenates_S4096x1_S4096x1_S8192x1_d0 := by
  after_results

/-- Row `r` of the stacked embeddings is row `r` of the first half, or row `r - 4096` of the second. -/
theorem host1_v1 (W : Valuation τ sig (Elt Ideal)) (r : Fin 8192) (k : Fin 256) :
    (StableHlo.after (hostOps1 (F := Ideal)) W (Proc.devRef .tc main_v1) : S8192x256.Idx → EReal) (ix2 r k)
      = if h : r.val < 4096 then (W (Proc.devRef .tc main_v0_0) : S4096x256.Idx → EReal) (ix2 ⟨r.val, h⟩ k)
        else (W (Proc.devRef .tc main_v0_1) : S4096x256.Idx → EReal) (ix2 ⟨r.val - 4096, by omega⟩ k) := by
  rw [host1_v1_term]
  exact stack_rows_apply (by norm_num) concatenates_S4096x256_S4096x256_S8192x256_d0 _ _ r k

/-- Row `r` of the stacked squared lengths likewise. -/
theorem host1_v2 (W : Valuation τ sig (Elt Ideal)) (r : Fin 8192) :
    (StableHlo.after (hostOps1 (F := Ideal)) W (Proc.devRef .tc main_v2) : S8192x1.Idx → EReal) (ix2 r 0)
      = if h : r.val < 4096 then (W (Proc.devRef .tc main_v0_3) : S4096x1.Idx → EReal) (ix2 ⟨r.val, h⟩ 0)
        else (W (Proc.devRef .tc main_v0_4) : S4096x1.Idx → EReal) (ix2 ⟨r.val - 4096, by omega⟩ 0) := by
  rw [host1_v2_term]
  exact stack_rows_apply (by norm_num) concatenates_S4096x1_S4096x1_S8192x1_d0 _ _ r 0

/-! ## After the second launch: the rows' terms, their sum, and the mean -/

/-- The host's exponential at an index. -/
theorem hostExp_apply {s : Shape} (x : FVec Ideal s .f32) (i : s.Idx) : Host.exp x i = Ideal.exp (x i) := rfl

/-- The host's logarithm at an index. -/
theorem hostLog_apply {s : Shape} (x : FVec Ideal s .f32) (i : s.Idx) : Host.log x i = Ideal.log (x i) := rfl

/-- The scalar constant 2 broadcast to a column reads 2 at every row. -/
theorem bcast_two_apply (j : S8192x1.Idx) :
    (broadcastInDim S8192x1 ![] bcast_S_S8192x1 (constant (F := Ideal) S_ .f32 0x40000000#32) : S8192x1.Idx → EReal) j
      = Cert.Contrastive.two := by
  rw [broadcastInDim_scalar_apply]
  rfl

/-- One row's term `log (t r − exp (2 · d r)) − 2 · p r`, with `p` the positive pairs' inner products stacked twice. -/
theorem rowTerm_apply (A B : S8192x1.Idx → EReal) (C : S4096x1.Idx → EReal) (r : Fin 8192) :
    (subf (φ := .f32)
        (Host.log (φ := .f32) (subf (φ := .f32) A
          (Host.exp (φ := .f32) (mulf (φ := .f32) B
            (broadcastInDim S8192x1 ![] bcast_S_S8192x1 (constant (F := Ideal) S_ .f32 0x40000000#32))))))
        (mulf (φ := .f32)
          (concatenate S8192x1 0 [⟨S4096x1, C⟩, ⟨S4096x1, C⟩] concatenates_S4096x1_S4096x1_S8192x1_d0)
          (broadcastInDim S8192x1 ![] bcast_S_S8192x1 (constant (F := Ideal) S_ .f32 0x40000000#32)))
      : S8192x1.Idx → EReal) (ix2 r 0)
      = Ideal.log (A (ix2 r 0) - Ideal.exp (B (ix2 r 0) * Cert.Contrastive.two))
        - (if h : r.val < 4096 then C (ix2 ⟨r.val, h⟩ 0) else C (ix2 ⟨r.val - 4096, by omega⟩ 0)) * Cert.Contrastive.two := by
  rw [subf_apply, hostLog_apply, subf_apply, hostExp_apply, mulf_apply, mulf_apply, bcast_two_apply,
    stack_rows_apply (by norm_num) concatenates_S4096x1_S4096x1_S8192x1_d0 C C r 0]

/-- The sum over both axes of a column of 8192 rows, from the initial value 0, is the sum of the rows. -/
theorem sumColumn_apply (g : S8192x1.Idx → EReal) :
    (Host.reduceAdd (φ := .f32) g (constant (F := Ideal) S_ .f32 0x00000000#32) reducesTo_S8192x1_S_d0_1 h_S_
      : S_.Idx → EReal) ix0 = 0 + ∑ r : Fin 8192, g (ix2 r 0) := by
  rw [hostReduceAdd_apply, Ideal.hostReduceAdd_total reducesTo_S8192x1_S_d0_1 (fun b => b.elim0), constant_apply,
    Ideal.ofBits_zero_f32, sum_idx2]
  exact congrArg (0 + ·) (Finset.sum_congr rfl fun r _ => Fin.sum_univ_one _)

/-- The scalar result as the composed term of the fifteen operations. -/
theorem host2_v14_term (W : Valuation τ sig (Elt Ideal)) :
    (StableHlo.after (hostOps2 (F := Ideal)) W (Proc.devRef .tc main_v14) : S_.Idx → EReal)
      = Host.divf (φ := .f32)
          (Host.reduceAdd (φ := .f32)
            (subf (φ := .f32)
              (Host.log (φ := .f32) (subf (φ := .f32) (W (Proc.devRef .tc main_v3) : S8192x1.Idx → EReal)
                (Host.exp (φ := .f32) (mulf (φ := .f32) (W (Proc.devRef .tc main_v2) : S8192x1.Idx → EReal)
                  (broadcastInDim S8192x1 ![] bcast_S_S8192x1 (constant (F := Ideal) S_ .f32 0x40000000#32))))))
              (mulf (φ := .f32)
                (concatenate S8192x1 0 [⟨S4096x1, (W (Proc.devRef .tc main_v0_2) : S4096x1.Idx → EReal)⟩,
                  ⟨S4096x1, (W (Proc.devRef .tc main_v0_2) : S4096x1.Idx → EReal)⟩] concatenates_S4096x1_S4096x1_S8192x1_d0)
                (broadcastInDim S8192x1 ![] bcast_S_S8192x1 (constant (F := Ideal) S_ .f32 0x40000000#32))))
            (constant (F := Ideal) S_ .f32 0x00000000#32) reducesTo_S8192x1_S_d0_1 h_S_)
          (constant (F := Ideal) S_ .f32 0x46000000#32) := by
  after_results

/-- The program's result, with the three arrays it reads named: the sum of the 8192 rows' terms, from 0, divided by
    the number of rows. -/
theorem host2_v14_of (W : Valuation τ sig (Elt Ideal)) (A B : S8192x1.Idx → EReal) (C : S4096x1.Idx → EReal)
    (hA : (W (Proc.devRef .tc main_v3) : S8192x1.Idx → EReal) = A)
    (hB : (W (Proc.devRef .tc main_v2) : S8192x1.Idx → EReal) = B)
    (hC : (W (Proc.devRef .tc main_v0_2) : S4096x1.Idx → EReal) = C) :
    (StableHlo.after (hostOps2 (F := Ideal)) W (Proc.devRef .tc main_v14) : S_.Idx → EReal) ix0
      = Ideal.div (0 + ∑ r : Fin 8192,
          (Ideal.log (A (ix2 r 0) - Ideal.exp (B (ix2 r 0) * Cert.Contrastive.two))
            - (if h : r.val < 4096 then C (ix2 ⟨r.val, h⟩ 0) else C (ix2 ⟨r.val - 4096, by omega⟩ 0)) * Cert.Contrastive.two))
          Cert.Contrastive.count := by
  rw [host2_v14_term, hA, hB, hC, hostDivf_apply, sumColumn_apply, constant_apply]
  refine congrArg₂ Ideal.div (congrArg (0 + ·) (Finset.sum_congr rfl fun r _ => ?_)) rfl
  exact rowTerm_apply A B C r

/- The product and the difference of two extended reals, with the type written out: a buffer's entry has the
   extended reals as its type only after the buffer's declared element type is unfolded. -/
local notation:70 a:70 " ⊗ " b:71 => @HMul.hMul EReal EReal EReal _ a b
local notation:65 a:65 " ⊖ " b:66 => @HSub.hSub EReal EReal EReal _ a b

/-- The program's result read off the buffers themselves. -/
theorem host2_v14 (W : Valuation τ sig (Elt Ideal)) :
    (StableHlo.after (hostOps2 (F := Ideal)) W (Proc.devRef .tc main_v14) : S_.Idx → EReal) ix0
      = Ideal.div (0 + ∑ r : Fin 8192,
          (Ideal.log ((W (Proc.devRef .tc main_v3) : S8192x1.Idx → EReal) (ix2 r 0) ⊖ Ideal.exp ((W (Proc.devRef .tc main_v2) : S8192x1.Idx → EReal) (ix2 r 0) ⊗ Cert.Contrastive.two))
            ⊖ (if h : r.val < 4096 then (W (Proc.devRef .tc main_v0_2) : S4096x1.Idx → EReal) (ix2 ⟨r.val, h⟩ 0)
               else (W (Proc.devRef .tc main_v0_2) : S4096x1.Idx → EReal) (ix2 ⟨r.val - 4096, by omega⟩ 0)) ⊗ Cert.Contrastive.two)) Cert.Contrastive.count :=
  host2_v14_of W _ _ _ rfl rfl rfl

end Cert.KernelIdeal.Hand
-- ==== Proof.KFinal.lean ====
/-
  The kernel program's result, at the extended reals, as a function of its two argument arrays.

  The first call leaves the normalized rows of the two arguments, the positive pairs' inner products and the rows'
  squared lengths; the two concatenations stack the normalized rows (the array Q of 8192 rows) and the squared
  lengths; the second call leaves, per row R, the sum over all columns C of exp (2 · ⟨Q R, Q C⟩); the host tail
  subtracts the diagonal term, takes the logarithm, subtracts twice the positive pair's inner product, sums the
  rows and divides by their number.  Read in that order this is `kernelLoss` of the two arguments.
-/
import proofs.«115832_j1537598292252_1_alg».proof.Proof.KRun
import proofs.«115832_j1537598292252_1_alg».proof.Proof.KValue0
import proofs.«115832_j1537598292252_1_alg».proof.Proof.KValue1
import proofs.«115832_j1537598292252_1_alg».proof.Proof.KHost
import proofs.«115832_j1537598292252_1_alg».proof.Proof.Spec

set_option maxRecDepth 16384

noncomputable section

namespace Cert.KernelIdeal.Hand

open Idealize.ShloMosaic Idealize.ShloMosaic.TcCoe Idealize.SL.Sem Idealize.ShloMosaic.StableHlo
open Idealize.ShloMosaic.ValueIdx Cert.KernelIdeal Cert.KernelIdeal.Gen
open Cert.Contrastive (kernelLoss kernelRow total selfOf posOf sim rep unit pairDot selfDot two count Emb)

variable (m : (ℓ : Loc nD τ sig) → Buf (Elt Ideal) ℓ) (ρ : Dev nD → PrngReg)

/-- The two arguments as launched. -/
abbrev argX (c : Dev nD) : Emb := m ((c : Thread nD τ).loc main_arg0)
abbrev argY (c : Dev nD) : Emb := m ((c : Thread nD τ).loc main_arg1)

/-- After the first call: the first argument's normalized rows, -/
theorem W1_v0_0 (c : Dev nD) (r : Fin 4096) (k : Fin 256) :
    (W1 (F := Ideal) m ρ c (Proc.devRef .tc main_v0_0) : S4096x256.Idx → EReal) (ix2 r k) = unit (argX m c) r k :=
  (congrFun (W1_arr m ρ c 2) (ix2 r k)).trans (final0_2 (V0 m ρ) c r k)
/-- the second argument's, -/
theorem W1_v0_1 (c : Dev nD) (r : Fin 4096) (k : Fin 256) :
    (W1 (F := Ideal) m ρ c (Proc.devRef .tc main_v0_1) : S4096x256.Idx → EReal) (ix2 r k) = unit (argY m c) r k :=
  (congrFun (W1_arr m ρ c 3) (ix2 r k)).trans (final0_3 (V0 m ρ) c r k)
/-- the positive pairs' inner products, -/
theorem W1_v0_2 (c : Dev nD) (r : Fin 4096) :
    (W1 (F := Ideal) m ρ c (Proc.devRef .tc main_v0_2) : S4096x1.Idx → EReal) (ix2 r 0) = pairDot (argX m c) (argY m c) r :=
  (congrFun (W1_arr m ρ c 4) (ix2 r 0)).trans (final0_4 (V0 m ρ) c r)
/-- and the rows' squared lengths. -/
theorem W1_v0_3 (c : Dev nD) (r : Fin 4096) :
    (W1 (F := Ideal) m ρ c (Proc.devRef .tc main_v0_3) : S4096x1.Idx → EReal) (ix2 r 0) = selfDot (argX m c) r :=
  (congrFun (W1_arr m ρ c 5) (ix2 r 0)).trans (final0_5 (V0 m ρ) c r)
theorem W1_v0_4 (c : Dev nD) (r : Fin 4096) :
    (W1 (F := Ideal) m ρ c (Proc.devRef .tc main_v0_4) : S4096x1.Idx → EReal) (ix2 r 0) = selfDot (argY m c) r :=
  (congrFun (W1_arr m ρ c 6) (ix2 r 0)).trans (final0_6 (V0 m ρ) c r)

/-- After the concatenations the stacked rows are `rep`. -/
theorem W2_v1 (c : Dev nD) (R : Fin 8192) (k : Fin 256) :
    (W2 (F := Ideal) m ρ c (Proc.devRef .tc main_v1) : S8192x256.Idx → EReal) (ix2 R k) = rep (argX m c) (argY m c) R k := by
  refine (host1_v1 (W1 m ρ c) R k).trans ?_
  unfold rep
  by_cases h : R.val < 4096
  · rw [dif_pos h, dif_pos h]; exact W1_v0_0 m ρ c ⟨R.val, h⟩ k
  · rw [dif_neg h, dif_neg h]; exact W1_v0_1 m ρ c ⟨R.val - 4096, by omega⟩ k

/-- and the stacked squared lengths are `selfOf`. -/
theorem W2_v2 (c : Dev nD) (R : Fin 8192) :
    (W2 (F := Ideal) m ρ c (Proc.devRef .tc main_v2) : S8192x1.Idx → EReal) (ix2 R 0) = selfOf (argX m c) (argY m c) R := by
  refine (host1_v2 (W1 m ρ c) R).trans ?_
  unfold selfOf
  by_cases h : R.val < 4096
  · rw [dif_pos h, dif_pos h]; exact W1_v0_3 m ρ c ⟨R.val, h⟩
  · rw [dif_neg h, dif_neg h]; exact W1_v0_4 m ρ c ⟨R.val - 4096, by omega⟩

/-- After the second call its result's row R is the sum over all columns of exp (2 · sim R C). -/
theorem W3_total (c : Dev nD) (R : Fin 8192) :
    (W3 (F := Ideal) m ρ c (Proc.devRef .tc main_v3) : S8192x1.Idx → EReal) (ix2 R 0) = total (argX m c) (argY m c) R := by
  have e1 := congrFun (W3_v3 m ρ c) (ix2 R 0)
  have e2 := final1 (V2 m ρ) c R
  have e3 : (∑ C : Fin 8192, expSim (V2 m ρ c main_v1) R C : EReal) = total (argX m c) (argY m c) R := by
    unfold total expSim sim
    refine Finset.sum_congr rfl fun C _ => ?_
    refine congrArg (fun z => Ideal.exp (z * two)) (Finset.sum_congr rfl fun k _ => ?_)
    exact congrArg₂ (· * ·) (W2_v1 m ρ c R k) (W2_v1 m ρ c C k)
  exact (e1.trans e2).trans e3

/-- THE RESULT: the program's result buffer ends holding `kernelLoss` of the two arguments as launched. -/
theorem W4_v14 (c : Dev nD) (i : S_.Idx) :
    (W4 (F := Ideal) m ρ c (Proc.devRef .tc main_v14) : S_.Idx → EReal) i = kernelLoss (argX m c) (argY m c) := by
  obtain rfl : i = ix0 := eq_ix0 i
  refine (host2_v14_of (W3 m ρ c)
    (fun j => total (argX m c) (argY m c) (j 0)) (fun j => selfOf (argX m c) (argY m c) (j 0))
    (fun j => pairDot (argX m c) (argY m c) (j 0)) ?_ ?_ ?_).trans ?_
  · funext j
    obtain ⟨R, u, rfl⟩ : ∃ (R : Fin 8192) (u : Fin 1), j = ix2 R u := ⟨j 0, j 1, eq_ix2 j⟩
    obtain rfl : u = 0 := Subsingleton.elim _ _
    exact W3_total m ρ c R
  · funext j
    obtain ⟨R, u, rfl⟩ : ∃ (R : Fin 8192) (u : Fin 1), j = ix2 R u := ⟨j 0, j 1, eq_ix2 j⟩
    obtain rfl : u = 0 := Subsingleton.elim _ _
    exact (congrFun (W3_of_ne m ρ c main_v2 (by decide)) (ix2 R 0)).trans (W2_v2 m ρ c R)
  · funext j
    obtain ⟨r, u, rfl⟩ : ∃ (r : Fin 4096) (u : Fin 1), j = ix2 r u := ⟨j 0, j 1, eq_ix2 j⟩
    obtain rfl : u = 0 := Subsingleton.elim _ _
    refine (congrFun (W3_of_ne m ρ c main_v0_2 (by decide)) (ix2 r 0)).trans ?_
    refine (congrFun (StableHlo.after_of_writes_sub hostOps1 (W1 m ρ c) hostOps1_writes (by decide : main_v0_2 ∉ hostOps1_W)) (ix2 r 0)).trans ?_
    exact W1_v0_2 m ρ c r
  · rfl

end Cert.KernelIdeal.Hand

end
-- ==== Proof.Law.lean ====
/-
  The two arrangements of the contrastive loss agree on real inputs.

  When every entry of `x` and `y` is a real number, every intermediate quantity is a real number: a row's clamped
  norm is at least the positive constant `eps`, so the normalized rows and their inner products are real, and the
  exponential of a real is a positive real.  For one row `r`, write `E c = exp (2 · sim r c)`.  The sum of the `E c`
  weighted by the mask that vanishes at `c = r` is the sum over all `c` minus `E r`; it is positive, because the
  partner of `r` is a column different from `r`.  Calling it `D`, the kernel's term is `log D − 2 · sim r (partner r)`
  and the reference's is `−log (E (partner r) / D)`, which are equal.  The losses are the same mean of equal terms.
-/
import proofs.«115832_j1537598292252_1_alg».proof.Proof.Spec
import Idealize.ShloMosaic.PureOps.Ideal.Laws

noncomputable section

open scoped BigOperators

namespace Cert.Contrastive

open Idealize.ShloMosaic Idealize.ShloMosaic.ValueIdx

/-! ## The constants -/

theorem one_eq : one = ((1 : ℝ) : EReal) := by
  simp [one, Ideal.ofBits, Ideal.ieee, -EReal.coe_mul]
  norm_num

theorem two_eq : two = ((2 : ℝ) : EReal) := by
  simp [two, Ideal.ofBits, Ideal.ieee, -EReal.coe_mul]
  norm_num

theorem half_eq : Ideal.ofBits .f32 0x3F000000#32 = ((1 / 2 : ℝ) : EReal) := by
  simp [Ideal.ofBits, Ideal.ieee, -EReal.coe_mul]
  norm_num

/-- The reference's inverse temperature 1 / (1/2) is 2. -/
theorem refTwo_eq : refTwo = ((2 : ℝ) : EReal) := by
  unfold refTwo
  rw [half_eq, Ideal.div_coe (by norm_num), ← one, one_eq, ← EReal.coe_mul]
  norm_num

/-- The lower clamp of the norms is a positive real number. -/
theorem eps_pos : ∃ p : ℝ, 0 < p ∧ eps = (p : EReal) :=
  ⟨9223372 * (2 ^ 63)⁻¹, by positivity, by simp [eps, Ideal.ofBits, Ideal.ieee]⟩

/-- The lower clamp as a real number. -/
def epsR : ℝ := Classical.choose eps_pos
theorem epsR_pos : 0 < epsR := (Classical.choose_spec eps_pos).1
theorem eps_eq : eps = (epsR : EReal) := (Classical.choose_spec eps_pos).2

/-! ## Sums and maxima of real numbers inside the extended reals -/

/-- The sum of the images of real numbers is the image of their sum. -/
theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

/-! ## The real mirror of the normalized rows and their inner products -/

/-- An array of 4096 rows of 256 real numbers. -/
abbrev RArr : Type := (⟨2, ![4096, 256]⟩ : Shape).Idx → ℝ

/-- A real array read in the extended reals. -/
def up (X : RArr) : Emb := fun i => ((X i : ℝ) : EReal)

def normR (X : RArr) (r : Fin 4096) : ℝ :=
  max (Real.sqrt (∑ k : Fin 256, X (ix2 r k) * X (ix2 r k))) epsR

theorem normR_pos (X : RArr) (r : Fin 4096) : 0 < normR X r :=
  lt_of_lt_of_le epsR_pos (le_max_right _ _)

theorem rowNorm_up (X : RArr) (r : Fin 4096) : rowNorm (up X) r = (normR X r : EReal) := by
  unfold rowNorm normR
  simp only [up, ← EReal.coe_mul, coe_sum]
  rw [Ideal.sqrt_coe, if_neg (not_lt.2 (Finset.sum_nonneg fun k _ => mul_self_nonneg _)), eps_eq, coe_max]

def unitR (X : RArr) (r : Fin 4096) (k : Fin 256) : ℝ := X (ix2 r k) * (1 / normR X r)

theorem unit_up (X : RArr) (r : Fin 4096) (k : Fin 256) : unit (up X) r k = (unitR X r k : EReal) := by
  unfold unit unitR
  rw [rowNorm_up, Ideal.div_coe (ne_of_gt (normR_pos X r))]
  simp only [up, EReal.coe_mul]

def repR (X Y : RArr) (r : Fin 8192) (k : Fin 256) : ℝ :=
  if h : r.val < 4096 then unitR X ⟨r.val, h⟩ k else unitR Y ⟨r.val - 4096, by omega⟩ k

theorem rep_up (X Y : RArr) (r : Fin 8192) (k : Fin 256) : rep (up X) (up Y) r k = (repR X Y r k : EReal) := by
  unfold rep repR
  by_cases h : r.val < 4096
  · simp only [dif_pos h]; exact unit_up _ _ _
  · simp only [dif_neg h]; exact unit_up _ _ _

def simR (X Y : RArr) (r c : Fin 8192) : ℝ := ∑ k : Fin 256, repR X Y r k * repR X Y c k

theorem sim_up (X Y : RArr) (r c : Fin 8192) : sim (up X) (up Y) r c = (simR X Y r c : EReal) := by
  unfold sim simR
  simp only [rep_up, ← EReal.coe_mul, coe_sum]

/-! ## The diagonal and the positive pair, as entries of `sim` -/

theorem rep_lt (x y : Emb) (r : Fin 8192) (k : Fin 256) (h : r.val < 4096) :
    rep x y r k = unit x ⟨r.val, h⟩ k := by
  unfold rep; rw [dif_pos h]

theorem rep_ge (x y : Emb) (r : Fin 8192) (k : Fin 256) (h : ¬ r.val < 4096) :
    rep x y r k = unit y ⟨r.val - 4096, by omega⟩ k := by
  unfold rep; rw [dif_neg h]

theorem partner_val_lt (r : Fin 8192) (h : r.val < 4096) : (partner r).val = r.val + 4096 := by
  unfold partner; rw [dif_pos h]

theorem partner_val_ge (r : Fin 8192) (h : ¬ r.val < 4096) : (partner r).val = r.val - 4096 := by
  unfold partner; rw [dif_neg h]

/-- A row is never its own partner. -/
theorem partner_ne (r : Fin 8192) : partner r ≠ r := by
  intro e
  have e' := congrArg Fin.val e
  by_cases h : r.val < 4096
  · rw [partner_val_lt r h] at e'; omega
  · rw [partner_val_ge r h] at e'; omega

theorem selfOf_eq (x y : Emb) (r : Fin 8192) : selfOf x y r = sim x y r r := by
  unfold selfOf sim selfDot
  by_cases h : r.val < 4096
  · simp only [dif_pos h, rep_lt x y r _ h]
  · simp only [dif_neg h, rep_ge x y r _ h]

theorem posOf_eq (x y : Emb) (r : Fin 8192) : posOf x y r = sim x y r (partner r) := by
  unfold posOf sim pairDot
  by_cases h : r.val < 4096
  · have hp : ¬ (partner r).val < 4096 := by rw [partner_val_lt r h]; omega
    have e : (⟨(partner r).val - 4096, by omega⟩ : Fin 4096) = ⟨r.val, h⟩ :=
      Fin.ext (by simp only [partner_val_lt r h]; omega)
    simp only [dif_pos h, rep_lt x y r _ h, rep_ge x y (partner r) _ hp, e]
  · have hp : (partner r).val < 4096 := by rw [partner_val_ge r h]; omega
    have e : (⟨(partner r).val, hp⟩ : Fin 4096) = ⟨r.val - 4096, by omega⟩ :=
      Fin.ext (partner_val_ge r h)
    simp only [dif_neg h, rep_ge x y r _ h, rep_lt x y (partner r) _ hp, e]
    exact Finset.sum_congr rfl fun k _ => mul_comm _ _

/-! ## One row, over the real numbers -/

/-- The sum of `E c` over the columns `c` other than `r`, written with the 0/1 weight. -/
def offSum (E : Fin 8192 → ℝ) (r : Fin 8192) : ℝ := ∑ c : Fin 8192, (if r = c then 0 else 1) * E c

theorem offSum_eq (E : Fin 8192 → ℝ) (r : Fin 8192) : offSum E r = (∑ c : Fin 8192, E c) - E r := by
  unfold offSum
  have e : ∀ c : Fin 8192, (if r = c then (0 : ℝ) else 1) * E c = E c - (if r = c then E c else 0) := fun c => by
    by_cases h : r = c
    · rw [if_pos h, if_pos h, zero_mul, sub_self]
    · rw [if_neg h, if_neg h, one_mul, sub_zero]
  simp only [e, Finset.sum_sub_distrib, Finset.sum_ite_eq, Finset.mem_univ, if_true]

/-- The off-diagonal sum of positive numbers is positive: some column differs from `r`. -/
theorem offSum_pos (E : Fin 8192 → ℝ) (hE : ∀ c, 0 < E c) (r p : Fin 8192) (hp : p ≠ r) : 0 < offSum E r := by
  unfold offSum
  refine Finset.sum_pos' (fun c _ => ?_) ⟨p, Finset.mem_univ _, ?_⟩
  · by_cases h : r = c
    · rw [if_pos h, zero_mul]
    · rw [if_neg h, one_mul]; exact le_of_lt (hE c)
  · rw [if_neg (Ne.symm hp), one_mul]; exact hE p

/-- The 0/1 mask is the real 0/1 weight. -/
theorem mask_eq (r c : Fin 8192) : mask r c = (((if r = c then 0 else 1 : ℝ)) : EReal) := by
  unfold mask
  rw [one_eq]
  by_cases h : r = c
  · rw [if_pos h, if_pos h, ← EReal.coe_one, ← EReal.coe_sub, sub_self]
  · rw [if_neg h, if_neg h, sub_zero]

/-- The kernel's term of row `r` when the inner products `S c` of row `r` with the columns are real. -/
theorem kernel_row_real (S : Fin 8192 → ℝ) (r p : Fin 8192) (hp : p ≠ r) :
    Ideal.log ((∑ c : Fin 8192, Ideal.exp ((S c : EReal) * ((2 : ℝ) : EReal)))
        - Ideal.exp ((S r : EReal) * ((2 : ℝ) : EReal))) - (S p : EReal) * ((2 : ℝ) : EReal)
      = ((Real.log (offSum (fun c => Real.exp (S c * 2)) r) - S p * 2 : ℝ) : EReal) := by
  have hpos := offSum_pos (fun c => Real.exp (S c * 2)) (fun c => Real.exp_pos _) r p hp
  have e := offSum_eq (fun c => Real.exp (S c * 2)) r
  beta_reduce at e
  simp only [← EReal.coe_mul, Ideal.exp_coe, coe_sum, ← EReal.coe_sub]
  rw [← e, Ideal.log_coe, if_neg (not_le.2 hpos), ← EReal.coe_sub]

/-- The reference's term of row `r` under the same hypothesis: the same real number. -/
theorem ref_row_real (S : Fin 8192 → ℝ) (r p : Fin 8192) (hp : p ≠ r) :
    - Ideal.log (Ideal.div (Ideal.exp ((S p : EReal) * ((2 : ℝ) : EReal)))
        (0 + ∑ c : Fin 8192, mask r c * Ideal.exp ((S c : EReal) * ((2 : ℝ) : EReal))))
      = ((Real.log (offSum (fun c => Real.exp (S c * 2)) r) - S p * 2 : ℝ) : EReal) := by
  have hpos := offSum_pos (fun c => Real.exp (S c * 2)) (fun c => Real.exp_pos _) r p hp
  simp only [mask_eq, ← EReal.coe_mul, Ideal.exp_coe, coe_sum, zero_add]
  change - Ideal.log (Ideal.div _ ((offSum (fun c => Real.exp (S c * 2)) r : ℝ) : EReal)) = _
  rw [Ideal.div_coe (ne_of_gt hpos), ← EReal.coe_mul, Ideal.log_coe,
    if_neg (not_le.2 (mul_pos (Real.exp_pos _) (one_div_pos.2 hpos))), ← EReal.coe_neg]
  congr 1
  rw [Real.log_mul (ne_of_gt (Real.exp_pos _)) (ne_of_gt (one_div_pos.2 hpos)), Real.log_exp, one_div,
    Real.log_inv]
  ring

/-! ## The rows and the losses -/

theorem row_eq (X Y : RArr) (r : Fin 8192) : kernelRow (up X) (up Y) r = refRow (up X) (up Y) r := by
  unfold kernelRow refRow total
  rw [selfOf_eq, posOf_eq, two_eq, refTwo_eq]
  simp only [sim_up]
  exact (kernel_row_real (simR X Y r) r (partner r) (partner_ne r)).trans
    (ref_row_real (simR X Y r) r (partner r) (partner_ne r)).symm

/-- On arrays of real numbers the kernel's arrangement of the loss and the reference's are the same number. -/
theorem kernelLoss_eq_refLoss (x y : Emb) (hx : ∀ i, ∃ a : ℝ, x i = (a : EReal))
    (hy : ∀ i, ∃ a : ℝ, y i = (a : EReal)) : kernelLoss x y = refLoss x y := by
  choose X hX using hx
  choose Y hY using hy
  have ex : x = up X := funext hX
  have ey : y = up Y := funext hY
  rw [ex, ey]
  unfold kernelLoss refLoss
  simp only [row_eq]

end Cert.Contrastive

end
-- ==== Proof.Finite.lean ====
/-
  Finiteness of the inputs, read back from the printed precondition.

  The precondition says: every entry `v` of either array satisfies `|v| < +∞`, where `|v| = max v (-v)`
  on the extended reals.  An extended real with `max v (-v) < ⊤` is neither `⊤` nor `⊥`, hence a real number.
-/
import proofs.«115832_j1537598292252_1_alg».proof.Pre_finite_inputs
import Idealize.ShloMosaic.PureOps.Ideal
import Idealize.ShloMosaic.Lib.ReduceAll
import Idealize.ShloMosaic.Lib.ValueIdx

namespace Cert.Contrastive

open Idealize.ShloMosaic Idealize.ShloMosaic.ValueIdx

/-- The single-precision word of `+∞` denotes `⊤`. -/
theorem ofBits_inf : Ideal.ofBits .f32 0x7F800000#32 = (⊤ : EReal) := by
  simp [Ideal.ofBits, Ideal.ieee]

/-- An extended real whose absolute value `max v (-v)` lies strictly below `⊤` is a real number. -/
theorem real_of_abs_lt_top (v : EReal) (h : max v (-v) < ⊤) : ∃ r : ℝ, v = (r : EReal) := by
  induction v using EReal.rec with
  | bot => simp at h
  | coe r => exact ⟨r, rfl⟩
  | top => simp at h

/-- The comparison word `|v| < +∞` being 1 makes `v` a real number. -/
theorem real_of_cmp (v : EReal)
    (h : Ideal.cmp .olt (max v (-v)) (Ideal.ofBits .f32 0x7F800000#32) = 1#1) : ∃ r : ℝ, v = (r : EReal) := by
  rw [ofBits_inf] at h
  refine real_of_abs_lt_top v ?_
  by_contra hn
  simp [Ideal.cmp, hn] at h

instance : Subsingleton Cert.Pre_finite_inputs.S_.Idx := ⟨fun a b => funext fun d => d.elim0⟩

/-- Under the printed precondition every entry of both arrays is a real number. -/
theorem real_of_finite [Cert.Pre_finite_inputs.Facts]
    (a b : FVec Ideal Cert.Pre_finite_inputs.S4096x256 .f32)
    (h : Cert.Pre_finite_inputs.fn (F := Ideal) a b = (fun _ => 1#1)) :
    (∀ i, ∃ r : ℝ, a i = (r : EReal)) ∧ (∀ i, ∃ r : ℝ, b i = (r : EReal)) := by
  have h0 := congrFun h ValueIdx.ix0
  dsimp only [Cert.Pre_finite_inputs.fn, andi] at h0
  obtain ⟨ha, hb⟩ := IntOp.andi_eq_one.1 h0
  refine ⟨fun i => ?_, fun i => ?_⟩
  · have := Host.reduce_andi_all _ _ _ _ _ ha i
    exact real_of_cmp (a i) this
  · have := Host.reduce_andi_all _ _ _ _ _ hb i
    exact real_of_cmp (b i) this

end Cert.Contrastive
-- ==== Proof.LibConcatPair.lean ====
/-
  A concatenation of two arrays is written over a list of (shape, array) pairs, where each array sits as the second
  component of a dependent pair. `pairCat` is the same concatenation with the two arrays as plain arguments, so that a
  rewrite of either array goes through like a rewrite of any operand.
-/
import Idealize.ShloMosaic.PureOps.ShapeOps

noncomputable section

namespace Idealize.ShloMosaic

variable {α : Type}

/-- The concatenation of two arrays along axis `a`. -/
def pairCat (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

/-- A concatenation of a two-element list is `pairCat` of its two arrays. -/
theorem concatenate_pair_eq (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = pairCat t a s₁ s₂ x₁ x₂ h := rfl

end Idealize.ShloMosaic

end
-- ==== Proof.RefRun.lean ====
/-
  The reference program's run, read in nine consecutive stretches of its 96 host operations.

  The stretches are: the first argument's clamped row norms and normalized rows; the second's; the stacked rows,
  their matrix of inner products and the constant 1 / (1/2); the index arithmetic and the gather of the positive
  pairs (r, r + 4096); the same for (r + 4096, r); the stacked positive pairs scaled and exponentiated; the 0/1 mask
  that vanishes on the diagonal; the masked row sums of the exponentials; the quotient, the logarithm, the mean.
  After each stretch the buffers later stretches read hold the stage values of the operations that wrote them, and
  a stretch leaves every buffer it does not write as it found it; composing the nine gives the result buffer at the
  last stage's value of the two arguments, and the arguments unchanged.
-/
import proofs.«115832_j1537598292252_1_alg».proof.Proof.RefOps
import proofs.«115832_j1537598292252_1_alg».proof.Proof.RefStages
import proofs.«115832_j1537598292252_1_alg».proof.Proof.LibConcatPair

set_option maxRecDepth 8192

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Operations 1–10 of the reference. -/
abbrev c1 : List (HloOp τ sig (Elt F)) :=
  [ TRef.binary (TRef.of (T := ⟨S4096x256, .f32⟩) main_arg0) (TRef.of (T := ⟨S4096x256, .f32⟩) main_arg0) (TRef.of (T := ⟨S4096x256, .f32⟩) main_call0_v0) mulf,
    TRef.nullary (TRef.of (T := ⟨S_, .f32⟩) main_call0_cst) (constant S_ .f32 0x00000000#32),
    TRef.binary (TRef.of (T := ⟨S4096x256, .f32⟩) main_call0_v0) (TRef.of (T := ⟨S_, .f32⟩) main_call0_cst) (TRef.of (T := ⟨S4096, .f32⟩) main_call0_v1) (fun x v => Host.reduceAdd x v reducesTo_S4096x256_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    nullary main_cst (constant S_ .f32 0x2B8CBCCC#32),
    unary main_cst main_v1 (broadcastInDim S4096x1 ![] bcast_S_S4096x1 : (⟨S_, .f32⟩ : BufTy).Contents (Elt F) → (⟨S4096x1, .f32⟩ : BufTy).Contents (Elt F)),
    binary main_v0 main_v1 main_v2 (maximumf : (⟨S4096x1, .f32⟩ : BufTy).Contents (Elt F) → (⟨S4096x1, .f32⟩ : BufTy).Contents (Elt F) → (⟨S4096x1, .f32⟩ : BufTy).Contents (Elt F)),
    unary main_v2 main_v3 (broadcastInDim S4096x256 ![0, 1] bcast_S4096x1_S4096x256_0_1 : (⟨S4096x1, .f32⟩ : BufTy).Contents (Elt F) → (⟨S4096x256, .f32⟩ : BufTy).Contents (Elt F)),
    binary main_arg0 main_v3 main_v4 (Host.divf : (⟨S4096x256, .f32⟩ : BufTy).Contents (Elt F) → (⟨S4096x256, .f32⟩ : BufTy).Contents (Elt F) → (⟨S4096x256, .f32⟩ : BufTy).Contents (Elt F)) ]

/-- Operations 11–20 of the reference. -/
abbrev c2 : List (HloOp τ sig (Elt F)) :=
  [ TRef.binary (TRef.of (T := ⟨S4096x256, .f32⟩) main_arg1) (TRef.of (T := ⟨S4096x256, .f32⟩) main_arg1) (TRef.of (T := ⟨S4096x256, .f32⟩) main_call1_v0) mulf,
    TRef.nullary (TRef.of (T := ⟨S_, .f32⟩) main_call1_cst) (constant S_ .f32 0x00000000#32),
    TRef.binary (TRef.of (T := ⟨S4096x256, .f32⟩) main_call1_v0) (TRef.of (T := ⟨S_, .f32⟩) main_call1_cst) (TRef.of (T := ⟨S4096, .f32⟩) main_call1_v1) (fun x v => Host.reduceAdd x v reducesTo_S4096x256_S4096_d1 h_S_),
    TRef.unary (TRef.of (T := ⟨S4096, .f32⟩) main_call1_v1) (TRef.of (T := ⟨S4096x1, .f32⟩) main_call1_v2) (broadcastInDim S4096x1 ![0] bcast_S4096_S4096x1_0),
    TRef.unary (TRef.of (T := ⟨S4096x1, .f32⟩) main_call1_v2) (TRef.of (T := ⟨S4096x1, .f32⟩) main_v5) Host.sqrt,
    nullary main_cst_0 (constant S_ .f32 0x2B8CBCCC#32),
    unary main_cst_0 main_v6 (broadcastInDim S4096x1 ![] bcast_S_S4096x1 : (⟨S_, .f32⟩ : BufTy).Contents (Elt F) → (⟨S4096x1, .f32⟩ : BufTy).Contents (Elt F)),
    binary main_v5 main_v6 main_v7 (maximumf : (⟨S4096x1, .f32⟩ : BufTy).Contents (Elt F) → (⟨S4096x1, .f32⟩ : BufTy).Contents (Elt F) → (⟨S4096x1, .f32⟩ : BufTy).Contents (Elt F)),
    unary main_v7 main_v8 (broadcastInDim S4096x256 ![0, 1] bcast_S4096x1_S4096x256_0_1 : (⟨S4096x1, .f32⟩ : BufTy).Contents (Elt F) → (⟨S4096x256, .f32⟩ : BufTy).Contents (Elt F)),
    binary main_arg1 main_v8 main_v9 (Host.divf : (⟨S4096x256, .f32⟩ : BufTy).Contents (Elt F) → (⟨S4096x256, .f32⟩ : BufTy).Contents (Elt F) → (⟨S4096x256, .f32⟩ : BufTy).Contents (Elt F)) ]

/-- Operations 21–26 of the reference. -/
abbrev c3 : List (HloOp τ sig (Elt F)) :=
  [ binary main_v4 main_v9 main_v10 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    unary main_v10 main_v11 ((transpose S256x8192 [1, 0] · transposes_S8192x256_S256x8192_1_0) : (⟨S8192x256, .f32⟩ : BufTy).Contents (Elt F) → (⟨S256x8192, .f32⟩ : BufTy).Contents (Elt F)),
    binary main_v10 main_v11 main_v12 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst_1 (constant S_ .f32 0x3F800000#32),
    nullary main_cst_2 (constant S_ .f32 0x3F000000#32),
    binary main_cst_1 main_cst_2 main_v13 (Host.divf : (⟨S_, .f32⟩ : BufTy).Contents (Elt F) → (⟨S_, .f32⟩ : BufTy).Contents (Elt F) → (⟨S_, .f32⟩ : BufTy).Contents (Elt F)) ]

/-- Operations 27–48 of the reference. -/
abbrev c4 : List (HloOp τ sig (Elt F)) :=
  [ nullary main_v14 (iotaInDim S4096 32 0),
    nullary main_c (constantI S_ 32 4096#32),
    unary main_c main_v15 (broadcastInDim S4096 ![] bcast_S_S4096 : (⟨S_, .i32⟩ : BufTy).Contents (Elt F) → (⟨S4096, .i32⟩ : BufTy).Contents (Elt F)),
    binary main_v14 main_v15 main_v16 (addi : (⟨S4096, .i32⟩ : BufTy).Contents (Elt F) → (⟨S4096, .i32⟩ : BufTy).Contents (Elt F) → (⟨S4096, .i32⟩ : BufTy).Contents (Elt F)),
    nullary main_c_3 (constantI S_ 32 0#32),
    unary main_c_3 main_v17 (broadcastInDim S4096 ![] bcast_S_S4096 : (⟨S_, .i32⟩ : BufTy).Contents (Elt F) → (⟨S4096, .i32⟩ : BufTy).Contents (Elt F)),
    binary main_v14 main_v17 main_v18 (cmpi .slt : (⟨S4096, .i32⟩ : BufTy).Contents (Elt F) → (⟨S4096, .i32⟩ : BufTy).Contents (Elt F) → (⟨S4096, .i1⟩ : BufTy).Contents (Elt F)),
    nullary main_c_4 (constantI S_ 32 8192#32),
    unary main_c_4 main_v19 (broadcastInDim S4096 ![] bcast_S_S4096 : (⟨S_, .i32⟩ : BufTy).Contents (Elt F) → (⟨S4096, .i32⟩ : BufTy).Contents (Elt F)),
    binary main_v14 main_v19 main_v20 (addi : (⟨S4096, .i32⟩ : BufTy).Contents (Elt F) → (⟨S4096, .i32⟩ : BufTy).Contents (Elt F) → (⟨S4096, .i32⟩ : BufTy).Contents (Elt F)),
    ternary main_v18 main_v20 main_v14 main_v21 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_5 (constantI S_ 32 0#32),
    unary main_c_5 main_v22 (broadcastInDim S4096 ![] bcast_S_S4096 : (⟨S_, .i32⟩ : BufTy).Contents (Elt F) → (⟨S4096, .i32⟩ : BufTy).Contents (Elt F)),
    binary main_v16 main_v22 main_v23 (cmpi .slt : (⟨S4096, .i32⟩ : BufTy).Contents (Elt F) → (⟨S4096, .i32⟩ : BufTy).Contents (Elt F) → (⟨S4096, .i1⟩ : BufTy).Contents (Elt F)),
    nullary main_c_6 (constantI S_ 32 8192#32),
    unary main_c_6 main_v24 (broadcastInDim S4096 ![] bcast_S_S4096 : (⟨S_, .i32⟩ : BufTy).Contents (Elt F) → (⟨S4096, .i32⟩ : BufTy).Contents (Elt F)),
    binary main_v16 main_v24 main_v25 (addi : (⟨S4096, .i32⟩ : BufTy).Contents (Elt F) → (⟨S4096, .i32⟩ : BufTy).Contents (Elt F) → (⟨S4096, .i32⟩ : BufTy).Contents (Elt F)),
    ternary main_v23 main_v25 main_v16 main_v26 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v21 main_v27 (broadcastInDim S4096x1 ![0] bcast_S4096_S4096x1_0 : (⟨S4096, .i32⟩ : BufTy).Contents (Elt F) → (⟨S4096x1, .i32⟩ : BufTy).Contents (Elt F)),
    unary main_v26 main_v28 (broadcastInDim S4096x1 ![0] bcast_S4096_S4096x1_0 : (⟨S4096, .i32⟩ : BufTy).Contents (Elt F) → (⟨S4096x1, .i32⟩ : BufTy).Contents (Elt F)),
    binary main_v27 main_v28 main_v29 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v12 main_v29 main_v30 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)) ]

/-- Operations 49–69 of the reference. -/
abbrev c5 : List (HloOp τ sig (Elt F)) :=
  [ nullary main_c_7 (constantI S_ 32 4096#32),
    unary main_c_7 main_v31 (broadcastInDim S4096 ![] bcast_S_S4096 : (⟨S_, .i32⟩ : BufTy).Contents (Elt F) → (⟨S4096, .i32⟩ : BufTy).Contents (Elt F)),
    binary main_v14 main_v31 main_v32 (addi : (⟨S4096, .i32⟩ : BufTy).Contents (Elt F) → (⟨S4096, .i32⟩ : BufTy).Contents (Elt F) → (⟨S4096, .i32⟩ : BufTy).Contents (Elt F)),
    nullary main_c_8 (constantI S_ 32 0#32),
    unary main_c_8 main_v33 (broadcastInDim S4096 ![] bcast_S_S4096 : (⟨S_, .i32⟩ : BufTy).Contents (Elt F) → (⟨S4096, .i32⟩ : BufTy).Contents (Elt F)),
    binary main_v32 main_v33 main_v34 (cmpi .slt : (⟨S4096, .i32⟩ : BufTy).Contents (Elt F) → (⟨S4096, .i32⟩ : BufTy).Contents (Elt F) → (⟨S4096, .i1⟩ : BufTy).Contents (Elt F)),
    nullary main_c_9 (constantI S_ 32 8192#32),
    unary main_c_9 main_v35 (broadcastInDim S4096 ![] bcast_S_S4096 : (⟨S_, .i32⟩ : BufTy).Contents (Elt F) → (⟨S4096, .i32⟩ : BufTy).Contents (Elt F)),
    binary main_v32 main_v35 main_v36 (addi : (⟨S4096, .i32⟩ : BufTy).Contents (Elt F) → (⟨S4096, .i32⟩ : BufTy).Contents (Elt F) → (⟨S4096, .i32⟩ : BufTy).Contents (Elt F)),
    ternary main_v34 main_v36 main_v32 main_v37 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_10 (constantI S_ 32 0#32),
    unary main_c_10 main_v38 (broadcastInDim S4096 ![] bcast_S_S4096 : (⟨S_, .i32⟩ : BufTy).Contents (Elt F) → (⟨S4096, .i32⟩ : BufTy).Contents (Elt F)),
    binary main_v14 main_v38 main_v39 (cmpi .slt : (⟨S4096, .i32⟩ : BufTy).Contents (Elt F) → (⟨S4096, .i32⟩ : BufTy).Contents (Elt F) → (⟨S4096, .i1⟩ : BufTy).Contents (Elt F)),
    nullary main_c_11 (constantI S_ 32 8192#32),
    unary main_c_11 main_v40 (broadcastInDim S4096 ![] bcast_S_S4096 : (⟨S_, .i32⟩ : BufTy).Contents (Elt F) → (⟨S4096, .i32⟩ : BufTy).Contents (Elt F)),
    binary main_v14 main_v40 main_v41 (addi : (⟨S4096, .i32⟩ : BufTy).Contents (Elt F) → (⟨S4096, .i32⟩ : BufTy).Contents (Elt F) → (⟨S4096, .i32⟩ : BufTy).Contents (Elt F)),
    ternary main_v39 main_v41 main_v14 main_v42 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v37 main_v43 (broadcastInDim S4096x1 ![0] bcast_S4096_S4096x1_0 : (⟨S4096, .i32⟩ : BufTy).Contents (Elt F) → (⟨S4096x1, .i32⟩ : BufTy).Contents (Elt F)),
    unary main_v42 main_v44 (broadcastInDim S4096x1 ![0] bcast_S4096_S4096x1_0 : (⟨S4096, .i32⟩ : BufTy).Contents (Elt F) → (⟨S4096x1, .i32⟩ : BufTy).Contents (Elt F)),
    binary main_v43 main_v44 main_v45 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v12 main_v45 main_v46 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)) ]

/-- Operations 70–73 of the reference. -/
abbrev c6 : List (HloOp τ sig (Elt F)) :=
  [ binary main_v30 main_v46 main_v47 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)),
    unary main_v13 main_v48 (broadcastInDim S8192 ![] bcast_S_S8192 : (⟨S_, .f32⟩ : BufTy).Contents (Elt F) → (⟨S8192, .f32⟩ : BufTy).Contents (Elt F)),
    binary main_v47 main_v48 main_v49 (mulf : (⟨S8192, .f32⟩ : BufTy).Contents (Elt F) → (⟨S8192, .f32⟩ : BufTy).Contents (Elt F) → (⟨S8192, .f32⟩ : BufTy).Contents (Elt F)),
    unary main_v49 main_v50 (Host.exp : (⟨S8192, .f32⟩ : BufTy).Contents (Elt F) → (⟨S8192, .f32⟩ : BufTy).Contents (Elt F)) ]

/-- Operations 74–83 of the reference. -/
abbrev c7 : List (HloOp τ sig (Elt F)) :=
  [ nullary main_v51 (iotaInDim S8192x8192 32 0),
    nullary main_v52 (iotaInDim S8192x8192 32 1),
    nullary main_c_12 (constantI S_ 32 0#32),
    unary main_c_12 main_v53 (broadcastInDim S8192x8192 ![] bcast_S_S8192x8192 : (⟨S_, .i32⟩ : BufTy).Contents (Elt F) → (⟨S8192x8192, .i32⟩ : BufTy).Contents (Elt F)),
    binary main_v51 main_v53 main_v54 (addi : (⟨S8192x8192, .i32⟩ : BufTy).Contents (Elt F) → (⟨S8192x8192, .i32⟩ : BufTy).Contents (Elt F) → (⟨S8192x8192, .i32⟩ : BufTy).Contents (Elt F)),
    binary main_v54 main_v52 main_v55 (cmpi .eq : (⟨S8192x8192, .i32⟩ : BufTy).Contents (Elt F) → (⟨S8192x8192, .i32⟩ : BufTy).Contents (Elt F) → (⟨S8192x8192, .i1⟩ : BufTy).Contents (Elt F)),
    unary main_v55 main_v56 (uitofp .f32 : (⟨S8192x8192, .i1⟩ : BufTy).Contents (Elt F) → (⟨S8192x8192, .f32⟩ : BufTy).Contents (Elt F)),
    nullary main_cst_13 (constant S_ .f32 0x3F800000#32),
    unary main_cst_13 main_v57 (broadcastInDim S8192x8192 ![] bcast_S_S8192x8192 : (⟨S_, .f32⟩ : BufTy).Contents (Elt F) → (⟨S8192x8192, .f32⟩ : BufTy).Contents (Elt F)),
    binary main_v57 main_v56 main_v58 (subf : (⟨S8192x8192, .f32⟩ : BufTy).Contents (Elt F) → (⟨S8192x8192, .f32⟩ : BufTy).Contents (Elt F) → (⟨S8192x8192, .f32⟩ : BufTy).Contents (Elt F)) ]

/-- Operations 84–89 of the reference. -/
abbrev c8 : List (HloOp τ sig (Elt F)) :=
  [ unary main_v13 main_v59 (broadcastInDim S8192x8192 ![] bcast_S_S8192x8192 : (⟨S_, .f32⟩ : BufTy).Contents (Elt F) → (⟨S8192x8192, .f32⟩ : BufTy).Contents (Elt F)),
    binary main_v12 main_v59 main_v60 (mulf : (⟨S8192x8192, .f32⟩ : BufTy).Contents (Elt F) → (⟨S8192x8192, .f32⟩ : BufTy).Contents (Elt F) → (⟨S8192x8192, .f32⟩ : BufTy).Contents (Elt F)),
    unary main_v60 main_v61 (Host.exp : (⟨S8192x8192, .f32⟩ : BufTy).Contents (Elt F) → (⟨S8192x8192, .f32⟩ : BufTy).Contents (Elt F)),
    binary main_v58 main_v61 main_v62 (mulf : (⟨S8192x8192, .f32⟩ : BufTy).Contents (Elt F) → (⟨S8192x8192, .f32⟩ : BufTy).Contents (Elt F) → (⟨S8192x8192, .f32⟩ : BufTy).Contents (Elt F)),
    nullary main_cst_14 (constant S_ .f32 0x00000000#32),
    binary main_v62 main_cst_14 main_v63 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]

/-- Operations 90–96 of the reference. -/
abbrev c9 : List (HloOp τ sig (Elt F)) :=
  [ binary main_v50 main_v63 main_v64 (Host.divf : (⟨S8192, .f32⟩ : BufTy).Contents (Elt F) → (⟨S8192, .f32⟩ : BufTy).Contents (Elt F) → (⟨S8192, .f32⟩ : BufTy).Contents (Elt F)),
    unary main_v64 main_v65 (Host.log : (⟨S8192, .f32⟩ : BufTy).Contents (Elt F) → (⟨S8192, .f32⟩ : BufTy).Contents (Elt F)),
    unary main_v65 main_v66 (Host.negf : (⟨S8192, .f32⟩ : BufTy).Contents (Elt F) → (⟨S8192, .f32⟩ : BufTy).Contents (Elt F)),
    nullary main_cst_15 (constant S_ .f32 0x00000000#32),
    binary main_v66 main_cst_15 main_v67 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_16 (constant S_ .f32 0x46000000#32),
    binary main_v67 main_cst_16 main_v68 (Host.divf : (⟨S_, .f32⟩ : BufTy).Contents (Elt F) → (⟨S_, .f32⟩ : BufTy).Contents (Elt F) → (⟨S_, .f32⟩ : BufTy).Contents (Elt F)) ]

/-- The 96 operations are the nine stretches in order. -/
theorem ops_split : (ops : List (HloOp τ sig (Elt F))) = c1 ++ (c2 ++ (c3 ++ (c4 ++ (c5 ++ (c6 ++ (c7 ++ (c8 ++ c9))))))) := rfl

/-- The contents after two stretches in a row. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

abbrev X := (⟨S4096x256, .f32⟩ : BufTy).Contents (Elt F)

/-! ## Stretch 1: the first argument's normalized rows -/
theorem c1_v4 (V : Valuation τ sig (Elt F)) : after c1 V (Proc.devRef .tc main_v4) = val_main_v4 (F := F) (V (Proc.devRef .tc main_arg0)) := by
  after_results_simp <;> rfl
theorem c1_arg0 (V : Valuation τ sig (Elt F)) : after c1 V (Proc.devRef .tc main_arg0) = V (Proc.devRef .tc main_arg0) := by
  after_results_simp
theorem c1_arg1 (V : Valuation τ sig (Elt F)) : after c1 V (Proc.devRef .tc main_arg1) = V (Proc.devRef .tc main_arg1) := by
  after_results_simp

/-! ## Stretch 2: the second argument's -/
theorem c2_v9 (V : Valuation τ sig (Elt F)) : after c2 V (Proc.devRef .tc main_v9) = val_main_v9 (F := F) (V (Proc.devRef .tc main_arg1)) := by
  after_results_simp <;> rfl
theorem c2_v4 (V : Valuation τ sig (Elt F)) : after c2 V (Proc.devRef .tc main_v4) = V (Proc.devRef .tc main_v4) := by
  after_results_simp
theorem c2_arg0 (V : Valuation τ sig (Elt F)) : after c2 V (Proc.devRef .tc main_arg0) = V (Proc.devRef .tc main_arg0) := by
  after_results_simp
theorem c2_arg1 (V : Valuation τ sig (Elt F)) : after c2 V (Proc.devRef .tc main_arg1) = V (Proc.devRef .tc main_arg1) := by
  after_results_simp

/-! ## Stretch 3: the inner products and the inverse temperature -/
theorem c3_v12 (V : Valuation τ sig (Elt F)) (x0 x1 : X (F := F)) (h4 : V (Proc.devRef .tc main_v4) = val_main_v4 (F := F) x0)
    (h9 : V (Proc.devRef .tc main_v9) = val_main_v9 (F := F) x1) :
    after c3 V (Proc.devRef .tc main_v12) = val_main_v12 (F := F) x0 x1 := by
  simp only [c3, concatenate_pair_eq]
  after_results_simp
  rw [h4, h9]; rfl
theorem c3_v13 (V : Valuation τ sig (Elt F)) : after c3 V (Proc.devRef .tc main_v13) = val_main_v13 (F := F) := by
  after_results_simp <;> rfl
theorem c3_arg0 (V : Valuation τ sig (Elt F)) : after c3 V (Proc.devRef .tc main_arg0) = V (Proc.devRef .tc main_arg0) := by
  after_results_simp
theorem c3_arg1 (V : Valuation τ sig (Elt F)) : after c3 V (Proc.devRef .tc main_arg1) = V (Proc.devRef .tc main_arg1) := by
  after_results_simp

/-! ## Stretch 4: the positive pairs (r, r + 4096) -/
set_option maxHeartbeats 4000000 in
theorem c4_v30 (V : Valuation τ sig (Elt F)) (x0 x1 : X (F := F)) (h12 : V (Proc.devRef .tc main_v12) = val_main_v12 (F := F) x0 x1) :
    after c4 V (Proc.devRef .tc main_v30) = val_main_v30 (F := F) x0 x1 := by
  simp only [c4, concatenate_pair_eq]
  after_results_simp
  rw [h12]; rfl
theorem c4_v14 (V : Valuation τ sig (Elt F)) : after c4 V (Proc.devRef .tc main_v14) = val_main_v14 (F := F) := by
  after_results_simp <;> rfl
theorem c4_v12 (V : Valuation τ sig (Elt F)) : after c4 V (Proc.devRef .tc main_v12) = V (Proc.devRef .tc main_v12) := by
  after_results_simp
theorem c4_v13 (V : Valuation τ sig (Elt F)) : after c4 V (Proc.devRef .tc main_v13) = V (Proc.devRef .tc main_v13) := by
  after_results_simp
theorem c4_arg0 (V : Valuation τ sig (Elt F)) : after c4 V (Proc.devRef .tc main_arg0) = V (Proc.devRef .tc main_arg0) := by
  after_results_simp
theorem c4_arg1 (V : Valuation τ sig (Elt F)) : after c4 V (Proc.devRef .tc main_arg1) = V (Proc.devRef .tc main_arg1) := by
  after_results_simp

/-! ## Stretch 5: the positive pairs (r + 4096, r) -/
set_option maxHeartbeats 4000000 in
theorem c5_v46 (V : Valuation τ sig (Elt F)) (x0 x1 : X (F := F)) (h12 : V (Proc.devRef .tc main_v12) = val_main_v12 (F := F) x0 x1)
    (h14 : V (Proc.devRef .tc main_v14) = val_main_v14 (F := F)) :
    after c5 V (Proc.devRef .tc main_v46) = val_main_v46 (F := F) x0 x1 := by
  simp only [c5, concatenate_pair_eq]
  after_results_simp
  rw [h12, h14]; rfl
theorem c5_v12 (V : Valuation τ sig (Elt F)) : after c5 V (Proc.devRef .tc main_v12) = V (Proc.devRef .tc main_v12) := by
  after_results_simp
theorem c5_v13 (V : Valuation τ sig (Elt F)) : after c5 V (Proc.devRef .tc main_v13) = V (Proc.devRef .tc main_v13) := by
  after_results_simp
theorem c5_v30 (V : Valuation τ sig (Elt F)) : after c5 V (Proc.devRef .tc main_v30) = V (Proc.devRef .tc main_v30) := by
  after_results_simp
theorem c5_arg0 (V : Valuation τ sig (Elt F)) : after c5 V (Proc.devRef .tc main_arg0) = V (Proc.devRef .tc main_arg0) := by
  after_results_simp
theorem c5_arg1 (V : Valuation τ sig (Elt F)) : after c5 V (Proc.devRef .tc main_arg1) = V (Proc.devRef .tc main_arg1) := by
  after_results_simp

/-! ## Stretch 6: the numerators -/
theorem c6_v50 (V : Valuation τ sig (Elt F)) (x0 x1 : X (F := F)) (h30 : V (Proc.devRef .tc main_v30) = val_main_v30 (F := F) x0 x1)
    (h46 : V (Proc.devRef .tc main_v46) = val_main_v46 (F := F) x0 x1) (h13 : V (Proc.devRef .tc main_v13) = val_main_v13 (F := F)) :
    after c6 V (Proc.devRef .tc main_v50) = val_main_v50 (F := F) x0 x1 := by
  simp only [c6, concatenate_pair_eq]
  after_results_simp
  rw [h30, h46, h13]; rfl
theorem c6_v12 (V : Valuation τ sig (Elt F)) : after c6 V (Proc.devRef .tc main_v12) = V (Proc.devRef .tc main_v12) := by
  after_results_simp
theorem c6_v13 (V : Valuation τ sig (Elt F)) : after c6 V (Proc.devRef .tc main_v13) = V (Proc.devRef .tc main_v13) := by
  after_results_simp
theorem c6_arg0 (V : Valuation τ sig (Elt F)) : after c6 V (Proc.devRef .tc main_arg0) = V (Proc.devRef .tc main_arg0) := by
  after_results_simp
theorem c6_arg1 (V : Valuation τ sig (Elt F)) : after c6 V (Proc.devRef .tc main_arg1) = V (Proc.devRef .tc main_arg1) := by
  after_results_simp

/-! ## Stretch 7: the mask -/
theorem c7_v58 (V : Valuation τ sig (Elt F)) : after c7 V (Proc.devRef .tc main_v58) = val_main_v58 (F := F) := by
  after_results_simp <;> rfl
theorem c7_v12 (V : Valuation τ sig (Elt F)) : after c7 V (Proc.devRef .tc main_v12) = V (Proc.devRef .tc main_v12) := by
  after_results_simp
theorem c7_v13 (V : Valuation τ sig (Elt F)) : after c7 V (Proc.devRef .tc main_v13) = V (Proc.devRef .tc main_v13) := by
  after_results_simp
theorem c7_v50 (V : Valuation τ sig (Elt F)) : after c7 V (Proc.devRef .tc main_v50) = V (Proc.devRef .tc main_v50) := by
  after_results_simp
theorem c7_arg0 (V : Valuation τ sig (Elt F)) : after c7 V (Proc.devRef .tc main_arg0) = V (Proc.devRef .tc main_arg0) := by
  after_results_simp
theorem c7_arg1 (V : Valuation τ sig (Elt F)) : after c7 V (Proc.devRef .tc main_arg1) = V (Proc.devRef .tc main_arg1) := by
  after_results_simp

/-! ## Stretch 8: the denominators -/
theorem c8_v63 (V : Valuation τ sig (Elt F)) (x0 x1 : X (F := F)) (h12 : V (Proc.devRef .tc main_v12) = val_main_v12 (F := F) x0 x1)
    (h13 : V (Proc.devRef .tc main_v13) = val_main_v13 (F := F)) (h58 : V (Proc.devRef .tc main_v58) = val_main_v58 (F := F)) :
    after c8 V (Proc.devRef .tc main_v63) = val_main_v63 (F := F) x0 x1 := by
  after_results_simp
  rw [h12, h13, h58]; rfl
theorem c8_v50 (V : Valuation τ sig (Elt F)) : after c8 V (Proc.devRef .tc main_v50) = V (Proc.devRef .tc main_v50) := by
  after_results_simp
theorem c8_arg0 (V : Valuation τ sig (Elt F)) : after c8 V (Proc.devRef .tc main_arg0) = V (Proc.devRef .tc main_arg0) := by
  after_results_simp
theorem c8_arg1 (V : Valuation τ sig (Elt F)) : after c8 V (Proc.devRef .tc main_arg1) = V (Proc.devRef .tc main_arg1) := by
  after_results_simp

/-! ## Stretch 9: the rows' terms and their mean -/
theorem c9_v68 (V : Valuation τ sig (Elt F)) (x0 x1 : X (F := F)) (h50 : V (Proc.devRef .tc main_v50) = val_main_v50 (F := F) x0 x1)
    (h63 : V (Proc.devRef .tc main_v63) = val_main_v63 (F := F) x0 x1) :
    after c9 V (Proc.devRef .tc main_v68) = val_main_v68 (F := F) x0 x1 := by
  after_results_simp
  rw [h50, h63]; rfl
theorem c9_arg0 (V : Valuation τ sig (Elt F)) : after c9 V (Proc.devRef .tc main_arg0) = V (Proc.devRef .tc main_arg0) := by
  after_results_simp
theorem c9_arg1 (V : Valuation τ sig (Elt F)) : after c9 V (Proc.devRef .tc main_arg1) = V (Proc.devRef .tc main_arg1) := by
  after_results_simp

/-! ## The nine composed -/

/-- After all 96 operations the result buffer holds the last stage's value of the two arguments, and the
    arguments are as they were. -/
theorem after_ops (V : Valuation τ sig (Elt F)) :
    after ops V (Proc.devRef .tc main_v68) = val_main_v68 (F := F) (V (Proc.devRef .tc main_arg0)) (V (Proc.devRef .tc main_arg1))
    ∧ after ops V (Proc.devRef .tc main_arg0) = V (Proc.devRef .tc main_arg0)
    ∧ after ops V (Proc.devRef .tc main_arg1) = V (Proc.devRef .tc main_arg1) := by
  rw [ops_split]
  simp only [after_append]
  generalize hx0 : V (Proc.devRef .tc main_arg0) = x0
  generalize hx1 : V (Proc.devRef .tc main_arg1) = x1
  -- stretch 1
  have a1_4 := (c1_v4 V).trans (congrArg _ hx0)
  have a1_0 := (c1_arg0 V).trans hx0
  have a1_1 := (c1_arg1 V).trans hx1
  generalize after c1 V = V1 at *
  -- stretch 2
  have a2_9 := (c2_v9 V1).trans (congrArg _ a1_1)
  have a2_4 := (c2_v4 V1).trans a1_4
  have a2_0 := (c2_arg0 V1).trans a1_0
  have a2_1 := (c2_arg1 V1).trans a1_1
  generalize after c2 V1 = V2 at *
  -- stretch 3
  have a3_12 := c3_v12 V2 x0 x1 a2_4 a2_9
  have a3_13 := c3_v13 V2
  have a3_0 := (c3_arg0 V2).trans a2_0
  have a3_1 := (c3_arg1 V2).trans a2_1
  generalize after c3 V2 = V3 at *
  -- stretch 4
  have a4_30 := c4_v30 V3 x0 x1 a3_12
  have a4_14 := c4_v14 V3
  have a4_12 := (c4_v12 V3).trans a3_12
  have a4_13 := (c4_v13 V3).trans a3_13
  have a4_0 := (c4_arg0 V3).trans a3_0
  have a4_1 := (c4_arg1 V3).trans a3_1
  generalize after c4 V3 = V4 at *
  -- stretch 5
  have a5_46 := c5_v46 V4 x0 x1 a4_12 a4_14
  have a5_12 := (c5_v12 V4).trans a4_12
  have a5_13 := (c5_v13 V4).trans a4_13
  have a5_30 := (c5_v30 V4).trans a4_30
  have a5_0 := (c5_arg0 V4).trans a4_0
  have a5_1 := (c5_arg1 V4).trans a4_1
  generalize after c5 V4 = V5 at *
  -- stretch 6
  have a6_50 := c6_v50 V5 x0 x1 a5_30 a5_46 a5_13
  have a6_12 := (c6_v12 V5).trans a5_12
  have a6_13 := (c6_v13 V5).trans a5_13
  have a6_0 := (c6_arg0 V5).trans a5_0
  have a6_1 := (c6_arg1 V5).trans a5_1
  generalize after c6 V5 = V6 at *
  -- stretch 7
  have a7_58 := c7_v58 V6
  have a7_12 := (c7_v12 V6).trans a6_12
  have a7_13 := (c7_v13 V6).trans a6_13
  have a7_50 := (c7_v50 V6).trans a6_50
  have a7_0 := (c7_arg0 V6).trans a6_0
  have a7_1 := (c7_arg1 V6).trans a6_1
  generalize after c7 V6 = V7 at *
  -- stretch 8
  have a8_63 := c8_v63 V7 x0 x1 a7_12 a7_13 a7_58
  have a8_50 := (c8_v50 V7).trans a7_50
  have a8_0 := (c8_arg0 V7).trans a7_0
  have a8_1 := (c8_arg1 V7).trans a7_1
  generalize after c8 V7 = V8 at *
  -- stretch 9
  exact ⟨c9_v68 V8 x0 x1 a8_50 a8_63, (c9_arg0 V8).trans a8_0, (c9_arg1 V8).trans a8_1⟩

/-- THE REFERENCE'S RUN: every weakly fair execution terminates, nothing faulting, with the result buffer at the
    last stage's value of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68) = val_main_v68 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v68).trans (after_ops _).1, (h c main_arg0).trans (after_ops _).2.1, (h c main_arg1).trans (after_ops _).2.2⟩)
    (run_seq scopedRefs_eq scopedSems_eq defs main (fun _ => ops) main_eq (fun _ => ops_sub) m ρ)

end Cert.ReferenceIdeal.RunP

end
-- ==== Proof.RefRows.lean ====
/-
  The reference's first stages read at an index: each argument's rows divided by their clamped norms, the two
  arrays stacked, and the matrix of inner products of the stacked rows.
-/
import proofs.«115832_j1537598292252_1_alg».proof.Proof.RefStages
import proofs.«115832_j1537598292252_1_alg».proof.Proof.Spec

noncomputable section

namespace Cert.Contrastive.RefSide

open Cert.ReferenceIdeal Cert.ReferenceIdeal.ReadP Cert.ReferenceIdeal.Gen Idealize.ShloMosaic Idealize.ShloMosaic.ValueIdx Cert.Contrastive

/-- The type of each of the reference's two arguments. -/
abbrev Arr : Type := (⟨S4096x256, .f32⟩ : BufTy).Contents (Elt Ideal)

/-- The first argument's row `r` divided by its clamped norm: the sum of squares starts from the word of zero,
    which is 0, and the clamp's constant is `eps`. -/
theorem v4_at (x0 : Arr) (r : Fin 4096) (k : Fin 256) :
    val_main_v4 (F := Ideal) x0 (ix2 r k) = unit x0 r k := by
  have hidx : ∀ k' : Fin 256,
      idx_main_call0_v1 (idx_main_call0_v2 (idx_main_v3 (ix2 r k))) k' = ix2 r k' := fun k' =>
    funext fun a => match a with | ⟨0, _⟩ => rfl | ⟨1, _⟩ => rfl
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, hidx, Ideal.hostDivf_def, Ideal.maximumf_def, Ideal.hostUnary_sqrt_def,
    Ideal.mulf_def, Ideal.ofBits_def, Ideal.ofBits_zero_f32, zero_add]
  rfl

/-- The second argument's row `r` divided by its clamped norm. -/
theorem v9_at (x1 : Arr) (r : Fin 4096) (k : Fin 256) :
    val_main_v9 (F := Ideal) x1 (ix2 r k) = unit x1 r k := by
  have hidx : ∀ k' : Fin 256,
      idx_main_call1_v1 (idx_main_call1_v2 (idx_main_v8 (ix2 r k))) k' = ix2 r k' := fun k' =>
    funext fun a => match a with | ⟨0, _⟩ => rfl | ⟨1, _⟩ => rfl
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, hidx, Ideal.hostDivf_def, Ideal.maximumf_def, Ideal.hostUnary_sqrt_def,
    Ideal.mulf_def, Ideal.ofBits_def, Ideal.ofBits_zero_f32, zero_add]
  rfl

/-- The stacked array: rows below 4096 are the first argument's normalized rows, the others the second's. -/
theorem v10_at (x0 x1 : Arr) (r : Fin 8192) (k : Fin 256) :
    val_main_v10 (F := Ideal) x0 x1 (ix2 r k) = rep x0 x1 r k := by
  unfold rep
  by_cases h : r.val < 4096
  · rw [dif_pos h, ← v4_at x0 ⟨r.val, h⟩ k]
    unfold val_main_v10
    exact concatenate_pair_apply_left (t := S8192x256) (s₁ := S4096x256) (s₂ := S4096x256) (0 : Fin S8192x256.rank) _ _ _ (ix2 r k) rfl (ix2 (⟨r.val, h⟩ : Fin 4096) k)
      (fun b => match b with | ⟨0, _⟩ => rfl | ⟨1, _⟩ => rfl)
  · rw [dif_neg h, ← v9_at x1 ⟨r.val - 4096, by omega⟩ k]
    unfold val_main_v10
    exact concatenate_pair_apply_right (t := S8192x256) (s₁ := S4096x256) (s₂ := S4096x256) (0 : Fin S8192x256.rank) _ _ _ (ix2 r k) rfl rfl
      (ix2 (⟨r.val - 4096, by omega⟩ : Fin 4096) k)
      (fun b hb => match b, hb with | ⟨0, _⟩, hb => absurd rfl hb | ⟨1, _⟩, _ => rfl)
      (by show r.val - 4096 + 4096 = r.val; omega)

/-- The matrix of inner products of the stacked rows. -/
theorem v12_at (x0 x1 : Arr) (r c : Fin 8192) :
    val_main_v12 (F := Ideal) x0 x1 (ix2 r c) = sim x0 x1 r c := by
  rw [val_main_v12_apply]
  unfold sim
  refine Finset.sum_congr rfl fun k _ => ?_
  have h1 : lidx_main_v12 (ix2 r c) k = ix2 r k :=
    funext fun a => match a with | ⟨0, _⟩ => rfl | ⟨1, _⟩ => rfl
  have h2 : idx_main_v11 (ridx_main_v12 (ix2 r c) k) = ix2 c k :=
    funext fun a => match a with | ⟨0, _⟩ => rfl | ⟨1, _⟩ => rfl
  rw [val_main_v11_apply, h1, h2, v10_at, v10_at]

end Cert.Contrastive.RefSide

end
-- ==== Proof.RefPick.lean ====
/-
  The positive pair's inner products. The reference picks, for each of the 4096 row numbers `i`, the entries
  `(i, i + 4096)` and `(i + 4096, i)` of the matrix of inner products: two gathers of single entries whose start
  indices are built from a counting array, each passed through the select that moves a negative index up by the
  extent (the identity on these nonnegative words). Stacked, the picked entries are `sim r (partner r)`.
-/
import proofs.«115832_j1537598292252_1_alg».proof.Proof.RefRows

noncomputable section

namespace Cert.Contrastive.RefSide

open Cert.ReferenceIdeal Cert.ReferenceIdeal.ReadP Cert.ReferenceIdeal.Gen Idealize.ShloMosaic Idealize.ShloMosaic.ValueIdx Cert.Contrastive

/-! ## Words -/

/-- A 32-bit word of a number below 2³¹ reads, signed, as that number. -/
theorem toInt_ofNat_small (n : Nat) (h : n < 2147483648) : (BitVec.ofNat 32 n).toInt = (n : Int) := by
  have h1 : (BitVec.ofNat 32 n).toNat = n := by
    rw [BitVec.toNat_ofNat]; exact Nat.mod_eq_of_lt (by omega)
  rw [BitVec.toInt_eq_toNat_of_lt (by rw [h1]; omega), h1]

/-- Such a word is not below zero in the signed order. -/
theorem slt_zero_small (n : Nat) (h : n < 2147483648) : IntOp.cmpi .slt (BitVec.ofNat 32 n) 0#32 = 0#1 := by
  have hs : (BitVec.ofNat 32 n).slt 0#32 = false := by
    unfold BitVec.slt
    rw [toInt_ofNat_small n h]
    simp
  show BitVec.ofBool ((BitVec.ofNat 32 n).slt 0#32) = 0#1
  rw [hs]; rfl

/-- The select that moves a negative index up by the extent leaves the word of a number below 2³¹ alone. -/
theorem wrap_small (n : Nat) (h : n < 2147483648) (alt : BitVec 32) :
    Scalar.select (IntOp.cmpi .slt (BitVec.ofNat 32 n) 0#32) alt (BitVec.ofNat 32 n) = BitVec.ofNat 32 n := by
  rw [slt_zero_small n h, select_zero]

/-- Adding the word of 4096 to the word of `n`. -/
theorem addi_4096 (n : Nat) : IntOp.addi (BitVec.ofNat 32 n) 4096#32 = BitVec.ofNat 32 (n + 4096) := by
  unfold IntOp.addi
  rw [BitVec.ofNat_add]

/-- A start index word of a number below 8192, read signed and clamped to the last row, is the number. -/
theorem clamp_small (n : Nat) (h : n < 8192) : min (BitVec.ofNat 32 n).toInt.toNat 8191 = n := by
  rw [toInt_ofNat_small n (by omega)]
  simp only [Int.toNat_natCast]
  omega

/-! ## The gather of single entries -/

/-- The gather with both operand axes collapsed, slices of one entry and start indices `[4096, 2]`: result `i`
    is the operand's entry at the row and column the `i`-th start index names, each read signed and clamped. -/
theorem gather_pair_at {α : Type} (x : S8192x8192.Idx → α) (idx : IVec S4096x2 32) (i : Fin 4096) :
    Host.gather gather_S8192x8192_S4096x2_S4096_n_01_n_n_01_1_11 x idx (ix1 i) =
      x (ix2 ⟨min (idx (ix2 i 0)).toInt.toNat 8191, by omega⟩ ⟨min (idx (ix2 i 1)).toInt.toNat 8191, by omega⟩) := by
  unfold Host.gather
  refine congrArg x (funext fun a => ?_)
  match a with
  | ⟨0, _⟩ =>
    refine Fin.ext ?_
    show gather_S8192x8192_S4096x2_S4096_n_01_n_n_01_1_11.start (ix1 i) idx 0
        + gather_S8192x8192_S4096x2_S4096_n_01_n_n_01_1_11.batchCoord (ix1 i) 0
        + gather_S8192x8192_S4096x2_S4096_n_01_n_n_01_1_11.offCoord (ix1 i) 0 = min (idx (ix2 i 0)).toInt.toNat 8191
    rw [GatherDims.batchCoord_eq_zero _ _ _ List.not_mem_nil,
      GatherDims.offCoord_eq_zero _ _ _ (fun h => ((GatherDims.mem_sKept _ _).mp h).1 (List.mem_cons_self ..))]
    simp only [Nat.add_zero]
    unfold GatherDims.start
    rw [dif_pos (show (0 : Fin 2) ∈ gather_S8192x8192_S4096x2_S4096_n_01_n_n_01_1_11.startIndexMap from List.mem_cons_self ..)]
    have hsi : gather_S8192x8192_S4096x2_S4096_n_01_n_n_01_1_11.siIdx (ix1 i)
        ⟨List.idxOf (0 : Fin 2) gather_S8192x8192_S4096x2_S4096_n_01_n_n_01_1_11.startIndexMap,
          List.idxOf_lt_length_iff.2 (List.mem_cons_self ..)⟩ = ix2 i 0 := by
      funext b; refine Fin.ext ?_
      match b with
      | ⟨0, _⟩ => rfl
      | ⟨1, _⟩ => rfl
    rw [hsi]
    rfl
  | ⟨1, _⟩ =>
    refine Fin.ext ?_
    show gather_S8192x8192_S4096x2_S4096_n_01_n_n_01_1_11.start (ix1 i) idx 1
        + gather_S8192x8192_S4096x2_S4096_n_01_n_n_01_1_11.batchCoord (ix1 i) 1
        + gather_S8192x8192_S4096x2_S4096_n_01_n_n_01_1_11.offCoord (ix1 i) 1 = min (idx (ix2 i 1)).toInt.toNat 8191
    rw [GatherDims.batchCoord_eq_zero _ _ _ List.not_mem_nil,
      GatherDims.offCoord_eq_zero _ _ _ (fun h => ((GatherDims.mem_sKept _ _).mp h).1
        (List.mem_cons_of_mem _ (List.mem_cons_self ..)))]
    simp only [Nat.add_zero]
    unfold GatherDims.start
    rw [dif_pos (show (1 : Fin 2) ∈ gather_S8192x8192_S4096x2_S4096_n_01_n_n_01_1_11.startIndexMap from
      List.mem_cons_of_mem _ (List.mem_cons_self ..))]
    have hsi : gather_S8192x8192_S4096x2_S4096_n_01_n_n_01_1_11.siIdx (ix1 i)
        ⟨List.idxOf (1 : Fin 2) gather_S8192x8192_S4096x2_S4096_n_01_n_n_01_1_11.startIndexMap,
          List.idxOf_lt_length_iff.2 (List.mem_cons_of_mem _ (List.mem_cons_self ..))⟩ = ix2 i 1 := by
      funext b; refine Fin.ext ?_
      match b with
      | ⟨0, _⟩ => rfl
      | ⟨1, _⟩ => rfl
    rw [hsi]
    rfl

/-! ## The start indices -/

/-- The counting array through the negative-index select: the word of `i`. -/
theorem v21_at (i : Fin 4096) : val_main_v21 (F := Ideal) (ix1 i) = BitVec.ofNat 32 i.val := by
  rw [val_main_v21_apply, val_main_v18_apply, val_main_v17_apply, val_main_c_3_apply, val_main_v14_apply]
  exact wrap_small i.val (by have := i.isLt; omega) _

/-- The counting array plus 4096 through the negative-index select: the word of `i + 4096`. -/
theorem v26_at (i : Fin 4096) : val_main_v26 (F := Ideal) (ix1 i) = BitVec.ofNat 32 (i.val + 4096) := by
  rw [val_main_v26_apply, val_main_v23_apply, val_main_v22_apply, val_main_c_5_apply, val_main_v16_apply,
    val_main_v15_apply, val_main_c_apply, val_main_v14_apply]
  show Scalar.select (IntOp.cmpi .slt (IntOp.addi (BitVec.ofNat 32 i.val) 4096#32) 0#32) _
    (IntOp.addi (BitVec.ofNat 32 i.val) 4096#32) = _
  rw [addi_4096]
  exact wrap_small (i.val + 4096) (by have := i.isLt; omega) _

/-- The second gather's row words: `i + 4096`. -/
theorem v37_at (i : Fin 4096) : val_main_v37 (F := Ideal) (ix1 i) = BitVec.ofNat 32 (i.val + 4096) := by
  rw [val_main_v37_apply, val_main_v34_apply, val_main_v33_apply, val_main_c_8_apply, val_main_v32_apply,
    val_main_v31_apply, val_main_c_7_apply, val_main_v14_apply]
  show Scalar.select (IntOp.cmpi .slt (IntOp.addi (BitVec.ofNat 32 i.val) 4096#32) 0#32) _
    (IntOp.addi (BitVec.ofNat 32 i.val) 4096#32) = _
  rw [addi_4096]
  exact wrap_small (i.val + 4096) (by have := i.isLt; omega) _

/-- The second gather's column words: `i`. -/
theorem v42_at (i : Fin 4096) : val_main_v42 (F := Ideal) (ix1 i) = BitVec.ofNat 32 i.val := by
  rw [val_main_v42_apply, val_main_v39_apply, val_main_v38_apply, val_main_c_10_apply, val_main_v14_apply]
  exact wrap_small i.val (by have := i.isLt; omega) _

/-- The first gather's start indices: row `i`, column `i + 4096`. -/
theorem v29_at0 (i : Fin 4096) : val_main_v29 (F := Ideal) (ix2 i 0) = BitVec.ofNat 32 i.val := by
  unfold val_main_v29
  refine (concatenate_pair_apply_left (t := S4096x2) (s₁ := S4096x1) (s₂ := S4096x1) (1 : Fin S4096x2.rank) _ _ _ (ix2 i (0 : Fin 2)) rfl (ix2 i (0 : Fin 1))
    (fun b => match b with | ⟨0, _⟩ => rfl | ⟨1, _⟩ => rfl)).trans ?_
  rw [val_main_v27_apply]
  exact v21_at i

theorem v29_at1 (i : Fin 4096) : val_main_v29 (F := Ideal) (ix2 i 1) = BitVec.ofNat 32 (i.val + 4096) := by
  unfold val_main_v29
  refine (concatenate_pair_apply_right (t := S4096x2) (s₁ := S4096x1) (s₂ := S4096x1) (1 : Fin S4096x2.rank) _ _ _ (ix2 i (1 : Fin 2)) rfl rfl (ix2 i (0 : Fin 1))
    (fun b hb => match b, hb with | ⟨0, _⟩, _ => rfl | ⟨1, _⟩, hb => absurd rfl hb) rfl).trans ?_
  rw [val_main_v28_apply]
  exact v26_at i

/-- The second gather's start indices: row `i + 4096`, column `i`. -/
theorem v45_at0 (i : Fin 4096) : val_main_v45 (F := Ideal) (ix2 i 0) = BitVec.ofNat 32 (i.val + 4096) := by
  unfold val_main_v45
  refine (concatenate_pair_apply_left (t := S4096x2) (s₁ := S4096x1) (s₂ := S4096x1) (1 : Fin S4096x2.rank) _ _ _ (ix2 i (0 : Fin 2)) rfl (ix2 i (0 : Fin 1))
    (fun b => match b with | ⟨0, _⟩ => rfl | ⟨1, _⟩ => rfl)).trans ?_
  rw [val_main_v43_apply]
  exact v37_at i

theorem v45_at1 (i : Fin 4096) : val_main_v45 (F := Ideal) (ix2 i 1) = BitVec.ofNat 32 i.val := by
  unfold val_main_v45
  refine (concatenate_pair_apply_right (t := S4096x2) (s₁ := S4096x1) (s₂ := S4096x1) (1 : Fin S4096x2.rank) _ _ _ (ix2 i (1 : Fin 2)) rfl rfl (ix2 i (0 : Fin 1))
    (fun b hb => match b, hb with | ⟨0, _⟩, _ => rfl | ⟨1, _⟩, hb => absurd rfl hb) rfl).trans ?_
  rw [val_main_v44_apply]
  exact v42_at i

/-! ## The picked entries -/

/-- The first gather: entry `(i, i + 4096)`. -/
theorem v30_at (x0 x1 : Arr) (i : Fin 4096) :
    val_main_v30 (F := Ideal) x0 x1 (ix1 i) = sim x0 x1 ⟨i.val, by omega⟩ ⟨i.val + 4096, by omega⟩ := by
  unfold val_main_v30
  rw [gather_pair_at, v12_at]
  have h0 : min (val_main_v29 (F := Ideal) (ix2 i 0)).toInt.toNat 8191 = i.val := by
    rw [v29_at0]; exact clamp_small _ (by have := i.isLt; omega)
  have h1 : min (val_main_v29 (F := Ideal) (ix2 i 1)).toInt.toNat 8191 = i.val + 4096 := by
    rw [v29_at1]; exact clamp_small _ (by have := i.isLt; omega)
  exact congrArg₂ (sim x0 x1) (Fin.ext h0) (Fin.ext h1)

/-- The second gather: entry `(i + 4096, i)`. -/
theorem v46_at (x0 x1 : Arr) (i : Fin 4096) :
    val_main_v46 (F := Ideal) x0 x1 (ix1 i) = sim x0 x1 ⟨i.val + 4096, by omega⟩ ⟨i.val, by omega⟩ := by
  unfold val_main_v46
  rw [gather_pair_at, v12_at]
  have h0 : min (val_main_v45 (F := Ideal) (ix2 i 0)).toInt.toNat 8191 = i.val + 4096 := by
    rw [v45_at0]; exact clamp_small _ (by have := i.isLt; omega)
  have h1 : min (val_main_v45 (F := Ideal) (ix2 i 1)).toInt.toNat 8191 = i.val := by
    rw [v45_at1]; exact clamp_small _ (by have := i.isLt; omega)
  exact congrArg₂ (sim x0 x1) (Fin.ext h0) (Fin.ext h1)

/-- The picked entries stacked: row `r`'s inner product with its partner. -/
theorem v47_at (x0 x1 : Arr) (r : Fin 8192) :
    val_main_v47 (F := Ideal) x0 x1 (ix1 r) = sim x0 x1 r (partner r) := by
  unfold partner
  by_cases h : r.val < 4096
  · rw [dif_pos h]
    unfold val_main_v47
    refine (concatenate_pair_apply_left (t := S8192) (s₁ := S4096) (s₂ := S4096) (0 : Fin S8192.rank) _ _ _ (ix1 r) rfl (ix1 (⟨r.val, h⟩ : Fin 4096))
      (fun b => match b with | ⟨0, _⟩ => rfl)).trans ?_
    exact v30_at x0 x1 ⟨r.val, h⟩
  · rw [dif_neg h]
    unfold val_main_v47
    refine (concatenate_pair_apply_right (t := S8192) (s₁ := S4096) (s₂ := S4096) (0 : Fin S8192.rank) _ _ _ (ix1 r) rfl rfl (ix1 (⟨r.val - 4096, by omega⟩ : Fin 4096))
      (fun b hb => match b, hb with | ⟨0, _⟩, hb => absurd rfl hb)
      (by show r.val - 4096 + 4096 = r.val; omega)).trans ?_
    rw [v46_at x0 x1 ⟨r.val - 4096, by omega⟩]
    exact congrArg (fun a : Fin 8192 => sim x0 x1 a ⟨r.val - 4096, by omega⟩)
      (Fin.ext (by show r.val - 4096 + 4096 = r.val; omega))

end Cert.Contrastive.RefSide

end
-- ==== Proof.RefLoss.lean ====
/-
  The reference's loss. The mask is 1 minus the indicator of the diagonal; each row's masked sum of exponentials
  divides the exponential of the positive pair's term; the loss is the mean of minus the logarithms.
-/
import proofs.«115832_j1537598292252_1_alg».proof.Proof.RefPick

noncomputable section

namespace Cert.Contrastive.RefSide

open Cert.ReferenceIdeal Cert.ReferenceIdeal.ReadP Cert.ReferenceIdeal.Gen Idealize.ShloMosaic Idealize.ShloMosaic.ValueIdx Cert.Contrastive

/-! ## The mask -/

/-- Two counting words of numbers below 8192 are equal exactly when the numbers are. -/
theorem eq_word (r c : Fin 8192) :
    IntOp.cmpi .eq (IntOp.addi (BitVec.ofNat 32 r.val) 0#32) (BitVec.ofNat 32 c.val) = if r = c then 1#1 else 0#1 := by
  show BitVec.ofBool (BitVec.ofNat 32 r.val + 0#32 == BitVec.ofNat 32 c.val) = _
  rw [BitVec.add_zero]
  by_cases h : r = c
  · subst h; rw [if_pos rfl, beq_self_eq_true]; rfl
  · rw [if_neg h]
    have hne : BitVec.ofNat 32 r.val ≠ BitVec.ofNat 32 c.val := by
      intro he
      have h2 := congrArg BitVec.toNat he
      rw [BitVec.toNat_ofNat, BitVec.toNat_ofNat, Nat.mod_eq_of_lt (by have := r.isLt; omega),
        Nat.mod_eq_of_lt (by have := c.isLt; omega)] at h2
      exact h (Fin.ext h2)
    rw [beq_eq_false_iff_ne.mpr hne]; rfl

/-- The mask: the word of 1 minus the indicator of the diagonal. -/
theorem v58_at (r c : Fin 8192) : val_main_v58 (F := Ideal) (ix2 r c) = mask r c := by
  rw [val_main_v58_apply, val_main_v57_apply, val_main_cst_13_apply, val_main_v56_apply, val_main_v55_apply,
    val_main_v54_apply, val_main_v53_apply, val_main_c_12_apply, val_main_v51_apply, val_main_v52_apply]
  show Ideal.ofBits .f32 0x3F800000#32
    - (((IntOp.cmpi .eq (IntOp.addi (BitVec.ofNat 32 r.val) 0#32) (BitVec.ofNat 32 c.val)).toNat : ℝ) : EReal) = mask r c
  rw [eq_word]
  unfold mask one
  by_cases h : r = c
  · rw [if_pos h, if_pos h]; simp
  · rw [if_neg h, if_neg h]; simp

/-! ## The inverse temperature -/

/-- The quotient of the words of 1 and 1/2. -/
theorem v13_at (i : S_.Idx) : val_main_v13 (F := Ideal) i = refTwo := by
  rw [val_main_v13_apply, val_main_cst_1_apply, val_main_cst_2_apply]; rfl

/-! ## The rows -/

/-- Row `r`'s masked sum of exponentials, from the word of zero. -/
theorem v63_at (x0 x1 : Arr) (r : Fin 8192) :
    val_main_v63 (F := Ideal) x0 x1 (ix1 r) = 0 + ∑ c : Fin 8192, mask r c * Ideal.exp (sim x0 x1 r c * refTwo) := by
  rw [val_main_v63_apply, val_main_cst_14_apply]
  simp only [Ideal.ofBits_def, Ideal.ofBits_zero_f32]
  refine congrArg (0 + ·) (Finset.sum_congr rfl fun c _ => ?_)
  have h : idx_main_v63 (ix1 r) c = ix2 r c :=
    funext fun a => match a with | ⟨0, _⟩ => rfl | ⟨1, _⟩ => rfl
  rw [h, val_main_v62_apply, val_main_v61_apply, val_main_v60_apply, v58_at, v12_at, val_main_v59_apply, v13_at]
  rfl

/-- Row `r`'s term. -/
theorem v66_at (x0 x1 : Arr) (r : Fin 8192) : val_main_v66 (F := Ideal) x0 x1 (ix1 r) = refRow x0 x1 r := by
  rw [val_main_v66_apply, val_main_v65_apply, val_main_v64_apply, val_main_v50_apply, val_main_v49_apply, v47_at,
    val_main_v48_apply, v13_at, v63_at]
  rfl

/-! ## The mean -/

/-- A rank-1 index of extent 8192 is its coordinate. -/
def idx1Equiv : S8192.Idx ≃ Fin 8192 where
  toFun j := j 0
  invFun r := ix1 r
  left_inv j := (eq_ix1 j).symm
  right_inv _ := rfl

/-- A sum over the rank-1 indices is the sum over the coordinate. -/
theorem sum_idx1 (f : S8192.Idx → EReal) : ∑ j : S8192.Idx, f j = ∑ r : Fin 8192, f (ix1 r) :=
  Fintype.sum_equiv idx1Equiv f (fun r => f (ix1 r)) (fun j => congrArg f (eq_ix1 j))

/-- The reference's result is `refLoss`. -/
theorem refLoss_eq (x0 x1 : (⟨Cert.ReferenceIdeal.S4096x256, .f32⟩ : BufTy).Contents (Elt Ideal))
    (i : Cert.ReferenceIdeal.S_.Idx) :
    Cert.ReferenceIdeal.ReadP.val_main_v68 (F := Ideal) x0 x1 i = Cert.Contrastive.refLoss x0 x1 := by
  rw [val_main_v68_apply, val_main_v67_apply, val_main_cst_15_apply, val_main_cst_16_apply, sum_idx1]
  simp only [v66_at, Ideal.hostDivf_def, Ideal.ofBits_def, Ideal.ofBits_zero_f32]
  rfl

end Cert.Contrastive.RefSide

end
-- ==== Proof.lean ====
/-
  Two programs compute the contrastive (NT-Xent) loss of two batches of 4096 embeddings of 256 coordinates.

  Both normalize every row by its Euclidean norm clamped below by one small positive constant, stack the 8192
  normalized rows, and for each row r take the logarithm of the sum over the OTHER rows c of exp (2 · ⟨r, c⟩),
  minus twice the inner product with the row's partner 4096 places away, and average over the rows.  The kernel
  program forms the sum over ALL columns tile by tile, subtracts the diagonal term, and takes the positive pairs'
  and the diagonal's inner products from row-wise sums over the two halves; the reference masks the diagonal with
  a 0/1 matrix, gathers the positive pairs out of the full matrix of inner products, and writes the row's term as
  minus the logarithm of a quotient.  Over the extended reals the two arrangements agree as soon as every input
  entry is a real number: then every norm is a positive real, every inner product and exponential is real, the
  masked sum is the full sum minus the diagonal term and is positive, and −log (eᵃ / D) = log D − a.

  The frames: each kernel program is two pipelined calls among host operations; its run is assembled from the
  two calls' runs (the second carries an accumulator from grid point to grid point and reads one array through
  two windows).  The reference is host operations only; its run is read in nine consecutive stretches.
-/
import proofs.«115832_j1537598292252_1_alg».proof.Defs
import proofs.«115832_j1537598292252_1_alg».proof.Proof.Gen.Kernel
import proofs.«115832_j1537598292252_1_alg».proof.Proof.Gen.KernelIdeal
import proofs.«115832_j1537598292252_1_alg».proof.Proof.Gen.ReferenceIdeal
import proofs.«115832_j1537598292252_1_alg».proof.Proof.Gen.Pre_finite_inputs
import proofs.«115832_j1537598292252_1_alg».proof.Proof.BRun
import proofs.«115832_j1537598292252_1_alg».proof.Proof.KRun
import proofs.«115832_j1537598292252_1_alg».proof.Proof.KFinal
import proofs.«115832_j1537598292252_1_alg».proof.Proof.Law
import proofs.«115832_j1537598292252_1_alg».proof.Proof.Finite
import proofs.«115832_j1537598292252_1_alg».proof.Proof.RefRun
import proofs.«115832_j1537598292252_1_alg».proof.Proof.RefLoss

noncomputable section

namespace Cert.Proof

open Idealize.ShloMosaic Idealize.ShloMosaic.TcCoe Idealize.SL.Sem

/-- The word-level kernel program runs to the end, faults nowhere and leaves its arguments as launched. -/
theorem frame_kernel : Cert.frame_Kernel (hKernel := Cert.Kernel.Gen.facts) (hPre_finite_inputs := Cert.Pre_finite_inputs.Gen.facts) :=
  fun m ρ _ => Cert.Kernel.Hand.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- And the reference: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunP.run (F := Ideal) m ρ)

/-- From memories agreeing on real-valued arguments both programs end at one value: the kernel's arrangement of the
    loss (its run read off buffer by buffer) and the reference's (its operations read one at a time) are equal by
    the law of the two arrangements. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Contrastive.kernelLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨?_, ?_, ?_⟩) (Cert.KernelIdeal.Hand.run_all (F := Ideal) m ρ)
    · refine (h c _ (Cert.KernelIdeal.Hand.mem_uc Cert.KernelIdeal.main_v14 (by decide))).trans ?_
      exact funext fun i => Cert.KernelIdeal.Hand.W4_v14 m ρ c i
    · exact (h c _ (Cert.KernelIdeal.Hand.mem_uc Cert.KernelIdeal.main_arg0 (by decide))).trans (Cert.KernelIdeal.Hand.W4_main_arg0 m ρ c)
    · exact (h c _ (Cert.KernelIdeal.Hand.mem_uc Cert.KernelIdeal.main_arg1 (by decide))).trans (Cert.KernelIdeal.Hand.W4_main_arg1 m ρ c)
  · refine (θ_run Cert.ReferenceIdeal.defs _ _).mono (fun _ h c => ⟨?_, (h c).2⟩) (Cert.ReferenceIdeal.RunP.run (F := Ideal) m' ρ')
    obtain ⟨hx, hy⟩ := Cert.Contrastive.real_of_finite _ _ (hpre c)
    rw [(h c).1, (hagree c).1, (hagree c).2]
    funext i
    rw [Cert.Contrastive.RefSide.refLoss_eq]
    exact (Cert.Contrastive.kernelLoss_eq_refLoss _ _ hx hy).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
